-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S32x512 : Shape := ⟨2, ![32, 512]⟩
abbrev S512x32 : Shape := ⟨2, ![512, 32]⟩
abbrev S512 : Shape := ⟨1, ![512]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x56x56 .f32) (main_arg1 : FVec F S32x512 .f32) (main_arg2 : FVec F S512x32 .f32) (main_arg3 : FVec F S512 .f32) (main_arg4 : FVec F S512 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32x512x56x56 : Shape := ⟨4, ![32, 512, 56, 56]⟩
abbrev S32x512 : Shape := ⟨2, ![32, 512]⟩
abbrev S512x32 : Shape := ⟨2, ![512, 32]⟩
abbrev S512 : Shape := ⟨1, ![512]⟩
abbrev S32x512x3136 : Shape := ⟨3, ![32, 512, 3136]⟩
abbrev S32x32x3136 : Shape := ⟨3, ![32, 32, 3136]⟩
abbrev S32x32 : Shape := ⟨2, ![32, 32]⟩
abbrev S8x32x3136 : Shape := ⟨3, ![8, 32, 3136]⟩
abbrev S8x32 : Shape := ⟨2, ![8, 32]⟩
abbrev S_ : Shape := ⟨0, ![]⟩
abbrev S1x512 : Shape := ⟨2, ![1, 512]⟩
abbrev S32x256 : Shape := ⟨2, ![32, 256]⟩

abbrev nBuf : Space → Nat
  | .hbm => 66
  | .vmem => 8
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S512, .f32⟩
  | .hbm, ⟨4, _⟩ => ⟨S512, .f32⟩
  | .hbm, ⟨5, _⟩ => ⟨S32x512x3136, .f32⟩
  | .hbm, ⟨6, _⟩ => ⟨S512x32, .f32⟩
  | .hbm, ⟨7, _⟩ => ⟨S512x32, .f32⟩
  | .hbm, ⟨8, _⟩ => ⟨S32x512, .f32⟩
  | .hbm, ⟨9, _⟩ => ⟨S_, .f32⟩
  | .hbm, ⟨10, _⟩ => ⟨S32x512, .f32⟩
  | .hbm, ⟨11, _⟩ => ⟨S32x512, .f32⟩
  | .hbm, ⟨12, _⟩ => ⟨S32x512, .f32⟩
  | .hbm, ⟨13, _⟩ => ⟨S_, .f32⟩
  | .hbm, ⟨14, _⟩ => ⟨S32x512, .f32⟩
  | .hbm, ⟨15, _⟩ => ⟨S32x512, .f32⟩
  | .hbm, ⟨16, _⟩ => ⟨S512x32, .f32⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x32, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S_, .f32⟩
  | .hbm, ⟨26, _⟩ => ⟨S32x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S32x512, .f32⟩
  | .hbm, ⟨38, _⟩ => ⟨S32x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S1x512, .f32⟩
  | .hbm, ⟨55, _⟩ => ⟨S1x512, .f32⟩
  | .hbm, ⟨56, _⟩ => ⟨S32x512, .f32⟩
  | .hbm, ⟨57, _⟩ => ⟨S32x512, .f32⟩
  | .hbm, ⟨58, _⟩ => ⟨S32x512, .f32⟩
  | .hbm, ⟨59, _⟩ => ⟨S32x512, .f32⟩
  | .hbm, ⟨60, _⟩ => ⟨S1x512, .f32⟩
  | .hbm, ⟨61, _⟩ => ⟨S32x512, .f32⟩
  | .hbm, ⟨62, _⟩ => ⟨S32x512, .f32⟩
  | .hbm, ⟨63, _⟩ => ⟨S32x256, .f32⟩
  | .hbm, ⟨64, _⟩ => ⟨S32x256, .f32⟩
  | .hbm, ⟨65, _⟩ => ⟨S32x256, .f32⟩
  | .local _ .vmem, ⟨0, _⟩ => ⟨S32x32x3136, .f32⟩
  | .local _ .vmem, ⟨1, _⟩ => ⟨S32x32x3136, .f32⟩
  | .local _ .vmem, ⟨2, _⟩ => ⟨S32x32, .f32⟩
  | .local _ .vmem, ⟨3, _⟩ => ⟨S32x32, .f32⟩
  | .local _ .vmem, ⟨4, _⟩ => ⟨S32x32, .f32⟩
  | .local _ .vmem, ⟨5, _⟩ => ⟨S32x32, .f32⟩
  | .local _ .vmem, ⟨6, _⟩ => ⟨S32x32, .f32⟩
  | .local _ .vmem, ⟨7, _⟩ => ⟨S32x32, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c8_i32 : BitVec 32 := 8#32
  let v0 : BitVec 32 := Scalar.muli c0_i32 c8_i32
  v0
def k0_off1 (c0_i32 : BitVec 32) : Fin 3 → Nat :=
  let c8_i32 : BitVec 32 := 8#32
  let v0 : BitVec 32 := Scalar.muli c0_i32 c8_i32
  let v1 : BitVec 32 := v0
  let v2 : Index := Scalar.indexCast v1
  let c0 : Index := 0#32
  let c0_0 : Index := 0#32
  ![v2.toNat, 0, 0]
def k0_off2 (c0_i32 : BitVec 32) : Fin 2 → Nat :=
  let c8_i32 : BitVec 32 := 8#32
  let v0 : BitVec 32 := Scalar.muli c0_i32 c8_i32
  let v1 : BitVec 32 := v0
  let v8 : Index := Scalar.indexCast v1
  let c0_2 : Index := 0#32
  ![v8.toNat, 0]
def k0_mult2 : BitVec 32 :=
  let c1_i32 : BitVec 32 := 1#32
  let c8_i32_4 : BitVec 32 := 8#32
  let v16 : BitVec 32 := Scalar.muli c1_i32 c8_i32_4
  v16
def k0_mult3 : BitVec 32 :=
  let c2_i32 : BitVec 32 := 2#32
  let c8_i32_11 : BitVec 32 := 8#32
  let v32 : BitVec 32 := Scalar.muli c2_i32 c8_i32_11
  v32
def k0_mult4 : BitVec 32 :=
  let c3_i32 : BitVec 32 := 3#32
  let c8_i32_18 : BitVec 32 := 8#32
  let v48 : BitVec 32 := Scalar.muli c3_i32 c8_i32_18
  v48
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x56x56_S32x512x3136 : S32x512x56x56.ShapeCasts S32x512x3136
  h_S8x32x3136 : 0 < S8x32x3136.numel
  shapeCasts_S8x32x3136_S8x32x3136 : S8x32x3136.ShapeCasts S8x32x3136
  reduces_S8x32x3136_S8x32 : S8x32x3136.Reduces [2] S8x32
  h_S8x32 : 0 < S8x32.numel
  shapeCasts_S8x32_S8x32 : S8x32.ShapeCasts S8x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  transposes_S512x32_S32x512_1_0 : S512x32.Transposes [1, 0] S32x512
  bcast_S_S32x512 : S_.BroadcastsInDim S32x512 (![] : Fin 0 → Fin S32x512.rank)
  transposes_S32x512_S512x32_1_0 : S32x512.Transposes [1, 0] S512x32
  bcast_S_S32x32 : S_.BroadcastsInDim S32x32 (![] : Fin 0 → Fin S32x32.rank)
  reducesTo_S32x512_S512_d0 : S32x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  slices_S32x512_S32x256_0_0 : S32x512.Slices ![0, 0] S32x256
  slices_S32x512_S32x256_0_256 : S32x512.Slices ![0, 256] S32x256
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []
  hrank0 : 0 < grid0.rank
  k0_mult1_dvd : 8 ∣ k0_mult1.toNat
  k0_off1_inb : ∀ (r : Fin 4), ∀ a, (k0_off1 (BitVec.ofNat 32 r.val)) a + S8x32x3136.size a ≤ S32x32x3136.size a
  k0_off2_inb : ∀ (r : Fin 4), ∀ a, (k0_off2 (BitVec.ofNat 32 r.val)) a + S8x32.size a ≤ S32x32.size a
  k0_mult2_dvd : 8 ∣ k0_mult2.toNat
  k0_mult3_dvd : 8 ∣ k0_mult3.toNat
  k0_mult4_dvd : 8 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x3136.size a ≤ S32x512x3136.size a
  hwx0_0 : ∀ i : grid0.Coords, EltTy.bits .f32 = 32 ∨ (Rect.block (s := S32x512x3136) S32x32x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S512x32.size a
  hwx0_1 : ∀ i : grid0.Coords, EltTy.bits .f32 = 32 ∨ (Rect.block (s := S512x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S512x32.size a
  hwx0_2 : ∀ i : grid0.Coords, EltTy.bits .f32 = 32 ∨ (Rect.block (s := S512x32) S32x32.size (cc0_transform_2 i) (hinb0_2 i)).WholeWords (EltTy.packing .f32)

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v0) S32x32x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S32x32.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S32x512 : Shape := ⟨2, ![32, 512]⟩
abbrev S512x32 : Shape := ⟨2, ![512, 32]⟩
abbrev S512 : Shape := ⟨1, ![512]⟩
abbrev S_ : Shape := ⟨0, ![]⟩
abbrev S32x32 : Shape := ⟨2, ![32, 32]⟩
abbrev S32x512x1x1 : Shape := ⟨4, ![32, 512, 1, 1]⟩
abbrev S1x512x1x1 : Shape := ⟨4, ![1, 512, 1, 1]⟩
abbrev S32x2x256x56x56 : Shape := ⟨5, ![32, 2, 256, 56, 56]⟩
abbrev S32x2x256 : Shape := ⟨3, ![32, 2, 256]⟩
abbrev S32x256 : Shape := ⟨2, ![32, 256]⟩

abbrev nBuf : Space → Nat
  | .hbm => 79
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S512x32, .f32⟩
  | .hbm, ⟨11, _⟩ => ⟨S32x32, .f32⟩
  | .hbm, ⟨12, _⟩ => ⟨S_, .f32⟩
  | .hbm, ⟨13, _⟩ => ⟨S32x32, .f32⟩
  | .hbm, ⟨14, _⟩ => ⟨S32x32, .f32⟩
  | .hbm, ⟨15, _⟩ => ⟨S32x512, .f32⟩
  | .hbm, ⟨16, _⟩ => ⟨S32x512, .f32⟩
  | .hbm, ⟨17, _⟩ => ⟨S32x512, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S_, .f32⟩
  | .hbm, ⟨23, _⟩ => ⟨S32x512, .f32⟩
  | .hbm, ⟨24, _⟩ => ⟨S32x512, .f32⟩
  | .hbm, ⟨25, _⟩ => ⟨S32x512x1x1, .f32⟩
  | .hbm, ⟨26, _⟩ => ⟨S32x512x56x56, .f32⟩
  | .hbm, ⟨27, _⟩ => ⟨S32x512x56x56, .f32⟩
  | .hbm, ⟨28, _⟩ => ⟨S_, .f32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S_, .i32⟩
  | .hbm, ⟨34, _⟩ => ⟨S_, .f32⟩
  | .hbm, ⟨35, _⟩ => ⟨S512, .f32⟩
  | .hbm, ⟨36, _⟩ => ⟨S1x512x1x1, .f32⟩
  | .hbm, ⟨37, _⟩ => ⟨S_, .f32⟩
  | .hbm, ⟨38, _⟩ => ⟨S1x512x1x1, .f32⟩
  | .hbm, ⟨39, _⟩ => ⟨S1x512x1x1, .f32⟩
  | .hbm, ⟨40, _⟩ => ⟨S32x512x56x56, .f32⟩
  | .hbm, ⟨41, _⟩ => ⟨S32x512x56x56, .f32⟩
  | .hbm, ⟨42, _⟩ => ⟨S32x512x56x56, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S1x512x1x1, .f32⟩
  | .hbm, ⟨57, _⟩ => ⟨S32x512x56x56, .f32⟩
  | .hbm, ⟨58, _⟩ => ⟨S32x512x56x56, .f32⟩
  | .hbm, ⟨59, _⟩ => ⟨S1x512x1x1, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S1x512x1x1, .f32⟩
  | .hbm, ⟨65, _⟩ => ⟨S1x512x1x1, .f32⟩
  | .hbm, ⟨66, _⟩ => ⟨S32x512x56x56, .f32⟩
  | .hbm, ⟨67, _⟩ => ⟨S32x512x56x56, .f32⟩
  | .hbm, ⟨68, _⟩ => ⟨S1x512x1x1, .f32⟩
  | .hbm, ⟨69, _⟩ => ⟨S32x512x56x56, .f32⟩
  | .hbm, ⟨70, _⟩ => ⟨S32x512x56x56, .f32⟩
  | .hbm, ⟨71, _⟩ => ⟨S32x2x256x56x56, .f32⟩
  | .hbm, ⟨72, _⟩ => ⟨S_, .f32⟩
  | .hbm, ⟨73, _⟩ => ⟨S32x2x256, .f32⟩
  | .hbm, ⟨74, _⟩ => ⟨S_, .f32⟩
  | .hbm, ⟨75, _⟩ => ⟨S32x2x256, .f32⟩
  | .hbm, ⟨76, _⟩ => ⟨S32x2x256, .f32⟩
  | .hbm, ⟨77, _⟩ => ⟨S_, .f32⟩
  | .hbm, ⟨78, _⟩ => ⟨S32x256, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_cst_2 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_cst_3 : Ref sig .tc := ⟨.hbm, 50, rfl⟩
abbrev main_call1_v12 : Ref sig .tc := ⟨.hbm, 51, rfl⟩
abbrev main_call1_cst_4 : Ref sig .tc := ⟨.hbm, 52, rfl⟩
abbrev main_call1_call0_v0 : Ref sig .tc := ⟨.hbm, 53, rfl⟩
abbrev main_call1_call0_v1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S_S32x512 : S_.BroadcastsInDim S32x512 (![] : Fin 0 → Fin S32x512.rank)
  transposes_S32x512_S512x32_1_0 : S32x512.Transposes [1, 0] S512x32
  bcast_S_S32x32 : S_.BroadcastsInDim S32x32 (![] : Fin 0 → Fin S32x32.rank)
  transposes_S512x32_S32x512_1_0 : S512x32.Transposes [1, 0] S32x512
  bcast_S32x512_S32x512x1x1_0_1 : S32x512.BroadcastsInDim S32x512x1x1 (![0, 1] : Fin 2 → Fin S32x512x1x1.rank)
  bcast_S32x512x1x1_S32x512x56x56_0_1_2_3 : S32x512x1x1.BroadcastsInDim S32x512x56x56 (![0, 1, 2, 3] : Fin 4 → Fin S32x512x56x56.rank)
  reducesTo_S32x512x56x56_S512_d0_2_3 : S32x512x56x56.ReducesTo [0, 2, 3] S512
  bcast_S_S512 : S_.BroadcastsInDim S512 (![] : Fin 0 → Fin S512.rank)
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S32x512x56x56_0_1_2_3 : S1x512x1x1.BroadcastsInDim S32x512x56x56 (![0, 1, 2, 3] : Fin 4 → Fin S32x512x56x56.rank)
  shapeCasts_S32x512x56x56_S32x2x256x56x56 : S32x512x56x56.ShapeCasts S32x2x256x56x56
  reducesTo_S32x2x256x56x56_S32x2x256_d3_4 : S32x2x256x56x56.ReducesTo [3, 4] S32x2x256
  bcast_S_S32x2x256 : S_.BroadcastsInDim S32x2x256 (![] : Fin 0 → Fin S32x2x256.rank)
  reducesTo_S32x2x256_S32x256_d1 : S32x2x256.ReducesTo [1] S32x256
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

class Facts : Prop extends Facts₀ where

variable [Facts]
-- ==== Proof.KernelBody.lean ====
/-
  What one grid point of the reduction kernel leaves in its two output blocks.

  A grid point holds a block x of extents [32, 32, 3136]: batch b, channel r of the tile, spatial position k. The body
  walks the batch axis in four chunks of eight rows; for each chunk it sums x, and x·x, over the spatial axis and stores
  the two [8, 32] results into rows 8q … 8q+7 of two [32, 32] scratch buffers. The four row bands tile a scratch buffer,
  so the buffer, read whole, is ONE function of its index: entry (b, r) is Σ_k x(b, r, k), respectively Σ_k x(b, r, k)².
  Each output block is the transpose of its scratch buffer: entry (r, b) of the first is Σ_k x(b, r, k), of the second
  Σ_k x(b, r, k)·x(b, r, k). Nothing is asked of the entries: these are sums in the extended reals.
-/
import proofs.«122134_j12670153523753_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

/-- The spatial sum of a block at batch row `b`, channel `r`. -/
def rowSum (x : Vec Ideal S32x32x3136 .f32) (j : S32x32.Idx) : Ideal .f32 := ∑ k : Fin 3136, x (ix3 (j 0) (j 1) k)

/-- The spatial sum of squares of a block at batch row `b`, channel `r`. -/
def rowSumSq (x : Vec Ideal S32x32x3136 .f32) (j : S32x32.Idx) : Ideal .f32 :=
  ∑ k : Fin 3136, x (ix3 (j 0) (j 1) k) * x (ix3 (j 0) (j 1) k)

theorem hz2 : (![0, 0] : Fin 2 → Nat) = fun _ => 0 := funext fun a => by fin_cases a <;> rfl

/-- A chunk's sum over the spatial axis, read at an entry. -/
theorem chunk_sum_apply (v : FVec Ideal S8x32x3136 .f32) (y : S8x32.Idx) :
    multiReduction .add [2] S8x32 v 0x00000000#32 reduces_S8x32x3136_S8x32 (.inl rfl) rfl y
      = ∑ k : Fin 3136, v (ix3 (y 0) (y 1) k) :=
  (Ideal.multiReduction_add_single v 0x00000000#32 reduces_S8x32x3136_S8x32 (.inl rfl) rfl y).trans
    (Finset.sum_congr rfl fun k _ => congrArg v (funext fun ax => Fin.ext (by
      match ax with
      | ⟨0, _⟩ => rfl
      | ⟨1, _⟩ => rfl
      | ⟨2, _⟩ => rfl)))

/-- Rows `o … o+7` of the block, summed over the spatial axis, are the same rows of `rowSum x`. -/
theorem band_sum (x : Vec Ideal S32x32x3136 .f32) (o : Nat)
    (inb3 : ∀ a, (![o, 0, 0] : Fin 3 → Nat) a + S8x32x3136.size a ≤ S32x32x3136.size a)
    (inb2 : ∀ a, (![o, 0] : Fin 2 → Nat) a + S8x32.size a ≤ S32x32.size a) (y : S8x32.Idx) :
    multiReduction .add [2] S8x32 (View.ld x (Rect.unit (s := S32x32x3136) ![o, 0, 0] S8x32x3136.size inb3))
        0x00000000#32 reduces_S8x32x3136_S8x32 (.inl rfl) rfl y
      = rowSum x ((Rect.unit (s := S32x32) ![o, 0] S8x32.size inb2).emb y) := by
  refine (chunk_sum_apply _ y).trans ?_
  unfold rowSum
  refine Finset.sum_congr rfl fun k _ => congrArg x (funext fun ax => Fin.ext ?_)
  match ax with
  | ⟨0, _⟩ => rfl
  | ⟨1, _⟩ => rfl
  | ⟨2, _⟩ => show 0 + 1 * k.val = k.val; omega

/-- Likewise for the squares. -/
theorem band_sumsq (x : Vec Ideal S32x32x3136 .f32) (o : Nat)
    (inb3 : ∀ a, (![o, 0, 0] : Fin 3 → Nat) a + S8x32x3136.size a ≤ S32x32x3136.size a)
    (inb2 : ∀ a, (![o, 0] : Fin 2 → Nat) a + S8x32.size a ≤ S32x32.size a) (y : S8x32.Idx) :
    multiReduction .add [2] S8x32
        (mulf (View.ld x (Rect.unit (s := S32x32x3136) ![o, 0, 0] S8x32x3136.size inb3))
          (View.ld x (Rect.unit (s := S32x32x3136) ![o, 0, 0] S8x32x3136.size inb3)))
        0x00000000#32 reduces_S8x32x3136_S8x32 (.inl rfl) rfl y
      = rowSumSq x ((Rect.unit (s := S32x32) ![o, 0] S8x32.size inb2).emb y) := by
  refine (chunk_sum_apply _ y).trans ?_
  unfold rowSumSq
  refine Finset.sum_congr rfl fun k _ => ?_
  have e : (Rect.unit (s := S32x32x3136) ![o, 0, 0] S8x32x3136.size inb3).idx (ix3 (y 0) (y 1) k)
      = ix3 (((Rect.unit (s := S32x32) ![o, 0] S8x32.size inb2).emb y) 0) (((Rect.unit (s := S32x32) ![o, 0] S8x32.size inb2).emb y) 1) k :=
    funext fun ax => Fin.ext (by
      match ax with
      | ⟨0, _⟩ => rfl
      | ⟨1, _⟩ => rfl
      | ⟨2, _⟩ => show 0 + 1 * k.val = k.val; omega)
  exact congrArg (fun i => x i * x i) e

/-- The first output block: entry (r, b) is the spatial sum at batch row b, channel r — the transpose of the
    scratch buffer the four row bands fill. -/
theorem out1_apply (c : Dev nD) (i : grid0.Coords) (arg1 : Memref sig .tc .vmem S32x32x3136 .f32) (harg1 : arg1.IsWhole) (arg2 : Memref sig .tc .vmem S32x32 .f32) (harg2 : arg2.IsWhole) (arg3 : Memref sig .tc .vmem S32x32 .f32) (harg3 : arg3.IsWhole) (arg4 : Memref sig .tc .vmem S32x32 .f32) (harg4 : arg4.IsWhole) (arg5 : Memref sig .tc .vmem S32x32 .f32) (harg5 : arg5.IsWhole)
    (x0 : Vec Ideal S32x32x3136 .f32) (r b : Fin 32) :
    out0_A_1 (F := Ideal) c i arg1 harg1 arg2 harg2 arg3 harg3 arg4 harg4 arg5 harg5 x0 (ix2 r b) = rowSum x0 (ix2 b r) := by
  unfold out0_A_1
  rw [View.read_writes_junk_eq_canon]
  unfold kernelRun0_A
  dsimp only
  sl_unfold_words
  rw [View.canon_unit_zero hz2, View.readCov_eq_canon']
  simp only [View.readAt_eq_ld, harg1.read_unread]
  unfold k0_pay13
  refine (transpose_apply [1, 0] _ transposes_S32x32_p1_0_S32x32 (ix2 r b) (ix2 b r) ?_).trans ?_
  · intro a
    match a with
    | ⟨0, _⟩ => rfl
    | ⟨1, _⟩ => rfl
  · refine (congrArg (View.canon _) (?_ : _ = ix2 b r)).trans ?_
    · exact funext fun a => Fin.ext (by
        match a with
        | ⟨0, _⟩ => show 0 + 1 * b.val = b.val; omega
        | ⟨1, _⟩ => show 0 + 1 * r.val = r.val; omega)
    · refine View.canon_apply_of_pieces (Val := Elt Ideal) (S := S32x32) (e := .f32) (rowSum x0) _ ?_ (ix2 b r) (View.cover_of_tiledL (s := S32x32) _ ![8, 32] (by sl_kernel_rfl) _)
      intro p hp
      simp only [List.mem_cons, List.mem_nil_iff, or_false] at hp
      rcases hp with rfl | rfl | rfl | rfl
      · intro y; unfold k0_pay11 k0_pay10; simp only [shapeCast_self]; exact band_sum x0 24 _ _ y
      · intro y; unfold k0_pay8 k0_pay7; simp only [shapeCast_self]; exact band_sum x0 16 _ _ y
      · intro y; unfold k0_pay5 k0_pay4; simp only [shapeCast_self]; exact band_sum x0 8 _ _ y
      · intro y; unfold k0_pay2 k0_pay1; simp only [shapeCast_self]; exact band_sum x0 0 _ _ y

/-- The second output block: entry (r, b) is the spatial sum of squares at batch row b, channel r. -/
theorem out2_apply (c : Dev nD) (i : grid0.Coords) (arg1 : Memref sig .tc .vmem S32x32x3136 .f32) (harg1 : arg1.IsWhole) (arg2 : Memref sig .tc .vmem S32x32 .f32) (harg2 : arg2.IsWhole) (arg3 : Memref sig .tc .vmem S32x32 .f32) (harg3 : arg3.IsWhole) (arg4 : Memref sig .tc .vmem S32x32 .f32) (harg4 : arg4.IsWhole) (arg5 : Memref sig .tc .vmem S32x32 .f32) (harg5 : arg5.IsWhole)
    (x0 : Vec Ideal S32x32x3136 .f32) (r b : Fin 32) :
    out0_A_2 (F := Ideal) c i arg1 harg1 arg2 harg2 arg3 harg3 arg4 harg4 arg5 harg5 x0 (ix2 r b) = rowSumSq x0 (ix2 b r) := by
  unfold out0_A_2
  rw [View.read_writes_junk_eq_canon]
  unfold kernelRun0_A
  dsimp only
  sl_unfold_words
  rw [View.canon_unit_zero hz2, View.readCov_eq_canon']
  simp only [View.readAt_eq_ld, harg1.read_unread]
  unfold k0_pay14
  refine (transpose_apply [1, 0] _ transposes_S32x32_p1_0_S32x32 (ix2 r b) (ix2 b r) ?_).trans ?_
  · intro a
    match a with
    | ⟨0, _⟩ => rfl
    | ⟨1, _⟩ => rfl
  · refine (congrArg (View.canon _) (?_ : _ = ix2 b r)).trans ?_
    · exact funext fun a => Fin.ext (by
        match a with
        | ⟨0, _⟩ => show 0 + 1 * b.val = b.val; omega
        | ⟨1, _⟩ => show 0 + 1 * r.val = r.val; omega)
    · refine View.canon_apply_of_pieces (Val := Elt Ideal) (S := S32x32) (e := .f32) (rowSumSq x0) _ ?_ (ix2 b r) (View.cover_of_tiledL (s := S32x32) _ ![8, 32] (by sl_kernel_rfl) _)
      intro p hp
      simp only [List.mem_cons, List.mem_nil_iff, or_false] at hp
      rcases hp with rfl | rfl | rfl | rfl
      · intro y; unfold k0_pay12 k0_pay10; simp only [shapeCast_self]; exact band_sumsq x0 24 _ _ y
      · intro y; unfold k0_pay9 k0_pay7; simp only [shapeCast_self]; exact band_sumsq x0 16 _ _ y
      · intro y; unfold k0_pay6 k0_pay4; simp only [shapeCast_self]; exact band_sumsq x0 8 _ _ y
      · intro y; unfold k0_pay3 k0_pay1; simp only [shapeCast_self]; exact band_sumsq x0 0 _ _ y

end Cert.KernelIdeal.Body

end
-- ==== Proof.KernelArray.lean ====
/-
  From blocks to arrays: what the two result arrays of the reduction hold after the run.

  The grid has sixteen points; point t stages channels 32t … 32t+31 of the [32, 512, 3136] array (all batch rows, all
  positions) and writes back rows 32t … 32t+31 of each [512, 32] result. What point t writes is the transpose of the
  per-(batch, channel) spatial sums of its block; a block's entry (b, r, k) is the array's entry (b, 32t + r, k). So
  every written block is the restriction of ONE function of the whole array — entry (ch, b) is Σ_k x(b, ch, k), and for
  the second result Σ_k x(b, ch, k)² — and the sixteen row bands cover the result: the result arrays end at these functions.
-/
import proofs.«122134_j12670153523753_2_alg».proof.Proof.KernelBody

set_option maxRecDepth 16384

noncomputable section

namespace Cert.KernelIdeal.Arr

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The spatial sums of a [32, 512, 3136] array laid out [512, 32]: entry (ch, b) is Σ_k x(b, ch, k). -/
def sumArr (x : S32x512x3136.Idx → Ideal .f32) : S512x32.Idx → Ideal .f32 :=
  fun i => ∑ k : Fin 3136, x (ix3 (i 1) (i 0) k)

/-- The spatial sums of squares, in the same layout. -/
def sumSqArr (x : S32x512x3136.Idx → Ideal .f32) : S512x32.Idx → Ideal .f32 :=
  fun i => ∑ k : Fin 3136, x (ix3 (i 1) (i 0) k) * x (ix3 (i 1) (i 0) k)

/-- The index maps over the grid: the input's block index is (0, t, 0), each output's (t, 0). -/
theorem idx_facts : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- An entry of the input's block at point t is the array's entry at the block's place. -/
theorem iblk_apply (c : Dev nD) (t : Fin cfg0.N) (y : S32x32x3136.Idx) :
    iblk m c 0 t y = V m c main_v0 (((cfg0.win 0).blk t).view.emb y) := rfl

/-- Entry (b, r, k) of point t's input block sits at (b, 32t + r, k); entry (r, b) of an output block at (32t + r, b). -/
theorem in_emb (t : Fin cfg0.N) (b r : Fin 32) (k : Fin 3136) (j : S512x32.Idx)
    (h0 : (j 0).val = t.val * 32 + r.val) (h1 : (j 1).val = b.val) :
    ((cfg0.win 0).blk t).view.emb (ix3 b r k) = ix3 (j 1) (j 0) k := by
  obtain ⟨e0, e1, e2, -⟩ := idx_facts t
  funext a; apply Fin.ext
  match a with
  | ⟨0, _⟩ => show win0_0.index t (0 : Fin 3) * 32 + 1 * b.val = (j 1).val; omega
  | ⟨1, _⟩ => show win0_0.index t (1 : Fin 3) * 32 + 1 * r.val = (j 0).val; omega
  | ⟨2, _⟩ => show win0_0.index t (2 : Fin 3) * 3136 + 1 * k.val = k.val; omega

/-- Entry (r, b) of an output block at point t sits at row 32t + r, column b of its array. -/
theorem out1_emb (t : Fin cfg0.N) (r b : Fin 32) :
    ((((cfg0.win 1).blk t).view.emb (ix2 r b)) 0).val = t.val * 32 + r.val
      ∧ ((((cfg0.win 1).blk t).view.emb (ix2 r b)) 1).val = b.val := by
  obtain ⟨-, -, -, e3, e4, -⟩ := idx_facts t
  constructor
  · show win0_1.index t (0 : Fin 2) * 32 + 1 * r.val = _; omega
  · show win0_1.index t (1 : Fin 2) * 32 + 1 * b.val = _; omega

theorem out2_emb (t : Fin cfg0.N) (r b : Fin 32) :
    ((((cfg0.win 2).blk t).view.emb (ix2 r b)) 0).val = t.val * 32 + r.val
      ∧ ((((cfg0.win 2).blk t).view.emb (ix2 r b)) 1).val = b.val := by
  obtain ⟨-, -, -, -, -, e5, e6⟩ := idx_facts t
  constructor
  · show win0_2.index t (0 : Fin 2) * 32 + 1 * r.val = _; omega
  · show win0_2.index t (1 : Fin 2) * 32 + 1 * b.val = _; omega

/-- What point t writes back to the first result is block t of the array's spatial sums. -/
theorem flushed1_eq (c : Dev nD) (t : Fin cfg0.N) :
    (dats m 0 c).flushed 1 t = ((cfg0.win 1).blk t).view.read (Elt Ideal) (sumArr (V m c main_v0)) := by
  show (cfg0.win 1).cut (grid0.coords t) ((dats m 0 c).after 1 t) = _
  rw [after0_1]
  unfold outsAt0
  funext j
  obtain ⟨r, b, rfl⟩ : ∃ (r b : Fin 32), j = ix2 r b := ⟨j 0, j 1, eq_ix2 j⟩
  show out0_A_1 c (grid0.coords t) (ms0_0 t) (hs0_0 t) (ms0_1 t) (hs0_1 t) (ms0_2 t) (hs0_2 t) scM0_0 (Memref.isWhole_whole _) scM0_1 (Memref.isWhole_whole _) (iblk m c 0 t) (ix2 r b)
    = sumArr (V m c main_v0) (((cfg0.win 1).blk t).view.emb (ix2 r b))
  refine (out1_apply c (grid0.coords t) (ms0_0 t) (hs0_0 t) (ms0_1 t) (hs0_1 t) (ms0_2 t) (hs0_2 t) scM0_0 (Memref.isWhole_whole _) scM0_1 (Memref.isWhole_whole _) (iblk m c 0 t) r b).trans ?_
  unfold rowSum sumArr
  refine Finset.sum_congr rfl fun k _ => ?_
  exact (iblk_apply m c t _).trans (congrArg (V m c main_v0) (in_emb t b r k _ (out1_emb t r b).1 (out1_emb t r b).2))

/-- What point t writes back to the second result is block t of the array's spatial sums of squares. -/
theorem flushed2_eq (c : Dev nD) (t : Fin cfg0.N) :
    (dats m 0 c).flushed 2 t = ((cfg0.win 2).blk t).view.read (Elt Ideal) (sumSqArr (V m c main_v0)) := by
  show (cfg0.win 2).cut (grid0.coords t) ((dats m 0 c).after 2 t) = _
  rw [after0_2]
  unfold outsAt0
  funext j
  obtain ⟨r, b, rfl⟩ : ∃ (r b : Fin 32), j = ix2 r b := ⟨j 0, j 1, eq_ix2 j⟩
  show out0_A_2 c (grid0.coords t) (ms0_0 t) (hs0_0 t) (ms0_1 t) (hs0_1 t) (ms0_2 t) (hs0_2 t) scM0_0 (Memref.isWhole_whole _) scM0_1 (Memref.isWhole_whole _) (iblk m c 0 t) (ix2 r b)
    = sumSqArr (V m c main_v0) (((cfg0.win 2).blk t).view.emb (ix2 r b))
  refine (out2_apply c (grid0.coords t) (ms0_0 t) (hs0_0 t) (ms0_1 t) (hs0_1 t) (ms0_2 t) (hs0_2 t) scM0_0 (Memref.isWhole_whole _) scM0_1 (Memref.isWhole_whole _) (iblk m c 0 t) r b).trans ?_
  unfold rowSumSq sumSqArr
  refine Finset.sum_congr rfl fun k _ => ?_
  have e := (iblk_apply m c t _).trans (congrArg (V m c main_v0) (in_emb t b r k _ (out2_emb t r b).1 (out2_emb t r b).2))
  exact congrArg₂ (· * ·) e e

/-- An index of a result array is in point t's block iff its row is in the band 32t … 32t+31. -/
theorem mem_blk1 (t : Fin cfg0.N) (i : S512x32.Idx) :
    i ∈ ((cfg0.win 1).blk t).view.set ↔ ∀ a : Fin 2, win0_1.index t a * S32x32.size a ≤ (i a).val ∧ (i a).val < win0_1.index t a * S32x32.size a + S32x32.size a := by
  show i ∈ ((View.whole main_v1_0).slice (win0_1.rect t)).set ↔ _
  rw [View.set_slice_whole, Rect.mem_set_unit]
  exact Iff.rfl

theorem mem_blk2 (t : Fin cfg0.N) (i : S512x32.Idx) :
    i ∈ ((cfg0.win 2).blk t).view.set ↔ ∀ a : Fin 2, win0_2.index t a * S32x32.size a ≤ (i a).val ∧ (i a).val < win0_2.index t a * S32x32.size a + S32x32.size a := by
  show i ∈ ((View.whole main_v1_1).slice (win0_2.rect t)).set ↔ _
  rw [View.set_slice_whole, Rect.mem_set_unit]
  exact Iff.rfl

/-- The sixteen row bands cover a result array: row i lies in the band of point i / 32. -/
theorem cover1 (i : S512x32.Idx) : ∃ t : Fin cfg0.N, (cfg0.win 1).flush t = true ∧ i ∈ ((cfg0.win 1).blk t).view.set := by
  have hi0 : (i 0).val < 512 := (i 0).isLt
  have hi1 : (i 1).val < 32 := (i 1).isLt
  have hN : cfg0.N = 16 := N_0
  have ht : (i 0).val / 32 < cfg0.N := by rw [hN]; omega
  obtain ⟨-, -, -, e3, e4, -⟩ := idx_facts ⟨(i 0).val / 32, ht⟩
  refine ⟨⟨(i 0).val / 32, ht⟩, flush0_1 _, ?_⟩
  rw [mem_blk1]
  intro a
  match a with
  | ⟨0, _⟩ => show win0_1.index ⟨(i 0).val / 32, ht⟩ (0 : Fin 2) * 32 ≤ (i 0).val ∧ (i 0).val < win0_1.index ⟨(i 0).val / 32, ht⟩ (0 : Fin 2) * 32 + 32
              rw [e3]; show (i 0).val / 32 * 32 ≤ (i 0).val ∧ (i 0).val < (i 0).val / 32 * 32 + 32; omega
  | ⟨1, _⟩ => show win0_1.index ⟨(i 0).val / 32, ht⟩ (1 : Fin 2) * 32 ≤ (i 1).val ∧ (i 1).val < win0_1.index ⟨(i 0).val / 32, ht⟩ (1 : Fin 2) * 32 + 32
              rw [e4]; omega

theorem cover2 (i : S512x32.Idx) : ∃ t : Fin cfg0.N, (cfg0.win 2).flush t = true ∧ i ∈ ((cfg0.win 2).blk t).view.set := by
  have hi0 : (i 0).val < 512 := (i 0).isLt
  have hi1 : (i 1).val < 32 := (i 1).isLt
  have hN : cfg0.N = 16 := N_0
  have ht : (i 0).val / 32 < cfg0.N := by rw [hN]; omega
  obtain ⟨-, -, -, -, -, e5, e6⟩ := idx_facts ⟨(i 0).val / 32, ht⟩
  refine ⟨⟨(i 0).val / 32, ht⟩, flush0_2 _, ?_⟩
  rw [mem_blk2]
  intro a
  match a with
  | ⟨0, _⟩ => show win0_2.index ⟨(i 0).val / 32, ht⟩ (0 : Fin 2) * 32 ≤ (i 0).val ∧ (i 0).val < win0_2.index ⟨(i 0).val / 32, ht⟩ (0 : Fin 2) * 32 + 32
              rw [e5]; show (i 0).val / 32 * 32 ≤ (i 0).val ∧ (i 0).val < (i 0).val / 32 * 32 + 32; omega
  | ⟨1, _⟩ => show win0_2.index ⟨(i 0).val / 32, ht⟩ (1 : Fin 2) * 32 ≤ (i 1).val ∧ (i 1).val < win0_2.index ⟨(i 0).val / 32, ht⟩ (1 : Fin 2) * 32 + 32
              rw [e6]; omega

/-- The first result array after the run: the spatial sums of the array the region found. -/
theorem final1 (c : Dev nD) : (dats m 0 c).arrAt 1 cfg0.N = sumArr (V m c main_v0) :=
  (dats m 0 c).arrAt_eq_of_cover 1 (sumArr (V m c main_v0)) (fun t _ => flushed1_eq m c t) cover1

/-- The second result array after the run: the spatial sums of squares. -/
theorem final2 (c : Dev nD) : (dats m 0 c).arrAt 2 cfg0.N = sumSqArr (V m c main_v0) :=
  (dats m 0 c).arrAt_eq_of_cover 2 (sumSqArr (V m c main_v0)) (fun t _ => flushed2_eq m c t) cover2

/-- The array the region finds is the first argument regrouped: its two spatial axes read as one of 3136 positions. -/
theorem V_v0 (c : Dev nD) : (V m c main_v0 : S32x512x3136.Idx → Ideal .f32)
    = shapeCast S32x512x3136 (m ((c : Thread nD τ).loc main_arg0)) shapeCasts_S32x512x56x56_S32x512x3136 := by
  show StableHlo.after hostOps0 (fun b => m (c, b)) (Proc.devRef .tc main_v0) = _
  after_results
  rfl

end Cert.KernelIdeal.Arr

end
-- ==== Proof.LibAfterAppend.lean ====
/-
  The contents after a line of host operations run in stretches.

  The buffer contents after a list of host operations are a fold: each operation rewrites the buffers it writes, in order.
  So the contents after a concatenation are the contents after the second list, from the contents after the first; and the
  contents after a list of stretches joined into one line are the stretches' contents composed, first stretch innermost.
-/
import Idealize.ShloMosaic.Lib.StableHlo.Run

noncomputable section

namespace Cert.AfterAppend

open Idealize.ShloMosaic Idealize.ShloMosaic.StableHlo

variable {τ : Topo} {sig : RefSig} {Val : EltTy → Type}

/-- The contents after `l₁ ++ l₂` are the contents after `l₂`, from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after a first stretch followed by the rest of the stretches joined. -/
theorem after_flatten_cons (l : List (HloOp τ sig Val)) (L : List (List (HloOp τ sig Val))) (V : Valuation τ sig Val) :
    after (List.flatten (l :: L)) V = after (List.flatten L) (after l V) := by
  rw [List.flatten_cons, after_append]

/-- No stretches: the contents are unchanged. -/
theorem after_flatten_nil (V : Valuation τ sig Val) : after (List.flatten ([] : List (List (HloOp τ sig Val)))) V = V := rfl

end Cert.AfterAppend

end
-- ==== Proof.KernelTail.lean ====
/-
  What the program computes after the reduction, as one function of the two arrays of spatial sums and the other arguments.

  After the region the program transposes the [512, 32] arrays of sums, divides by 3136 (the spatial means of x and x²),
  evaluates the gate e = 1 / (1 + exp(−(relu(s·w1ᵀ)·w2ᵀ))), forms the per-channel batch mean of e·s and of e²·q over the 32
  batch rows, the clamped variance, the scale wt·rsqrt(var + ε), the normalised means, and adds the two halves of the
  channel axis. Here that chain is named (meanK, gateK, postK, tailK) and the buffer the program returns is shown to hold
  it, whatever the arrays the region left.
-/
import proofs.«122134_j12670153523753_2_alg».proof.Proof.KernelArray
import proofs.«122134_j12670153523753_2_alg».proof.Proof.LibAfterAppend
import Idealize.ShloMosaic.Lib.StableHlo.Run

noncomputable section

namespace Cert.KernelIdeal.Tail

open Cert.KernelIdeal Cert.KernelIdeal.Gen
open Idealize.ShloMosaic Idealize.ShloMosaic.TcCoe Idealize.ShloMosaic.StableHlo
open Idealize.SL Idealize.SL.Sem

/-- The per-(batch, channel) mean from a [512, 32] array of spatial sums: transposed and divided by 3136. -/
def meanK (S : FVec Ideal S512x32 .f32) : FVec Ideal S32x512 .f32 :=
  have v2 : FVec Ideal S32x512 .f32 := transpose S32x512 [1, 0] S transposes_S512x32_S32x512_1_0
  have cst : FVec Ideal S_ .f32 := constant (F := Ideal) S_ .f32 0x45440000#32
  have v3 : FVec Ideal S32x512 .f32 := broadcastInDim S32x512 ![] bcast_S_S32x512 cst
  Host.divf (F := Ideal) v2 v3

/-- The squeeze-excitation gate: sigmoid(relu(s·w1ᵀ)·w2ᵀ), the sigmoid as 1 / (1 + exp(−·)). -/
def gateK (s : FVec Ideal S32x512 .f32) (w1 : FVec Ideal S32x512 .f32) (w2 : FVec Ideal S512x32 .f32) : FVec Ideal S32x512 .f32 :=
  have v8 : FVec Ideal S512x32 .f32 := transpose S512x32 [1, 0] w1 transposes_S32x512_S512x32_1_0
  have v9 : FVec Ideal S32x32 .f32 := Host.dotGeneral (F := Ideal) dot_S32x512_S512x32_S32x32_1_0_0_1_n_n none s v8
  have r_cst : FVec Ideal S_ .f32 := constant (F := Ideal) S_ .f32 0x00000000#32
  have r_v0 : FVec Ideal S32x32 .f32 := broadcastInDim S32x32 ![] bcast_S_S32x32 r_cst
  have v10 : FVec Ideal S32x32 .f32 := maximumf v9 r_v0
  have v11 : FVec Ideal S32x512 .f32 := transpose S32x512 [1, 0] w2 transposes_S512x32_S32x512_1_0
  have v12 : FVec Ideal S32x512 .f32 := Host.dotGeneral (F := Ideal) dot_S32x32_S32x512_S32x512_1_0_0_1_n_n none v10 v11
  have v13 : FVec Ideal S32x512 .f32 := Host.negf (F := Ideal) v12
  have v14 : FVec Ideal S32x512 .f32 := Host.exp (F := Ideal) v13
  have cst_1 : FVec Ideal S_ .f32 := constant (F := Ideal) S_ .f32 0x3F800000#32
  have v15 : FVec Ideal S32x512 .f32 := broadcastInDim S32x512 ![] bcast_S_S32x512 cst_1
  have v16 : FVec Ideal S32x512 .f32 := addf v15 v14
  have cst_2 : FVec Ideal S_ .f32 := constant (F := Ideal) S_ .f32 0x3F800000#32
  have v17 : FVec Ideal S32x512 .f32 := broadcastInDim S32x512 ![] bcast_S_S32x512 cst_2
  Host.divf (F := Ideal) v17 v16

/-- From the gate and the spatial means of x and x²: the batch statistics per channel, the normalised spatial means,
    and the two halves of the channel axis added. -/
def postK (e s q : FVec Ideal S32x512 .f32) (wt bs : FVec Ideal S512 .f32) : FVec Ideal S32x256 .f32 :=
  have v19 : FVec Ideal S32x512 .f32 := mulf e s
  have cst_3 : FVec Ideal S_ .f32 := constant (F := Ideal) S_ .f32 0x00000000#32
  have v20 : FVec Ideal S512 .f32 := Host.reduceAdd (F := Ideal) v19 cst_3 reducesTo_S32x512_S512_d0 h_S_
  have cst_4 : FVec Ideal S_ .f32 := constant (F := Ideal) S_ .f32 0x42000000#32
  have v21 : FVec Ideal S512 .f32 := broadcastInDim S512 ![] bcast_S_S512 cst_4
  have v22 : FVec Ideal S512 .f32 := Host.divf (F := Ideal) v20 v21
  have v23 : FVec Ideal S32x512 .f32 := mulf e e
  have v24 : FVec Ideal S32x512 .f32 := mulf v23 q
  have cst_5 : FVec Ideal S_ .f32 := constant (F := Ideal) S_ .f32 0x00000000#32
  have v25 : FVec Ideal S512 .f32 := Host.reduceAdd (F := Ideal) v24 cst_5 reducesTo_S32x512_S512_d0 h_S_
  have cst_6 : FVec Ideal S_ .f32 := constant (F := Ideal) S_ .f32 0x42000000#32
  have v26 : FVec Ideal S512 .f32 := broadcastInDim S512 ![] bcast_S_S512 cst_6
  have v27 : FVec Ideal S512 .f32 := Host.divf (F := Ideal) v25 v26
  have v28 : FVec Ideal S512 .f32 := mulf v22 v22
  have v29 : FVec Ideal S512 .f32 := subf v27 v28
  have cst_7 : FVec Ideal S_ .f32 := constant (F := Ideal) S_ .f32 0x00000000#32
  have v30 : FVec Ideal S512 .f32 := broadcastInDim S512 ![] bcast_S_S512 cst_7
  have v31 : FVec Ideal S512 .f32 := maximumf v29 v30
  have cst_8 : FVec Ideal S_ .f32 := constant (F := Ideal) S_ .f32 0x3727C5AC#32
  have v32 : FVec Ideal S512 .f32 := broadcastInDim S512 ![] bcast_S_S512 cst_8
  have v33 : FVec Ideal S512 .f32 := addf v31 v32
  have v34 : FVec Ideal S512 .f32 := Host.rsqrt (F := Ideal) v33
  have v35 : FVec Ideal S512 .f32 := mulf wt v34
  have v36 : FVec Ideal S1x512 .f32 := broadcastInDim S1x512 ![1] bcast_S512_S1x512_1 v35
  have v37 : FVec Ideal S1x512 .f32 := broadcastInDim S1x512 ![1] bcast_S512_S1x512_1 v22
  have v38 : FVec Ideal S32x512 .f32 := broadcastInDim S32x512 ![0, 1] bcast_S1x512_S32x512_0_1 v37
  have v39 : FVec Ideal S32x512 .f32 := subf v19 v38
  have v40 : FVec Ideal S32x512 .f32 := broadcastInDim S32x512 ![0, 1] bcast_S1x512_S32x512_0_1 v36
  have v41 : FVec Ideal S32x512 .f32 := mulf v40 v39
  have v42 : FVec Ideal S1x512 .f32 := broadcastInDim S1x512 ![1] bcast_S512_S1x512_1 bs
  have v43 : FVec Ideal S32x512 .f32 := broadcastInDim S32x512 ![0, 1] bcast_S1x512_S32x512_0_1 v42
  have v44 : FVec Ideal S32x512 .f32 := addf v41 v43
  have v45 : FVec Ideal S32x256 .f32 := extractStridedSlice S32x256 ![0, 0] v44 slices_S32x512_S32x256_0_0
  have v46 : FVec Ideal S32x256 .f32 := extractStridedSlice S32x256 ![0, 256] v44 slices_S32x512_S32x256_0_256
  addf v45 v46

/-- Everything the program computes after the reduction, from the two [512, 32] arrays of spatial sums. -/
def tailK (S Q : FVec Ideal S512x32 .f32) (w1 : FVec Ideal S32x512 .f32) (w2 : FVec Ideal S512x32 .f32) (wt bs : FVec Ideal S512 .f32) :
    FVec Ideal S32x256 .f32 :=
  postK (gateK (meanK S) w1 w2) (meanK S) (meanK Q) wt bs

attribute [local irreducible] Host.reduceAdd in
set_option maxRecDepth 16384 in
set_option maxHeartbeats 40000000 in
/-- The three stretches of operations after the region, run from any buffer contents W, leave the returned buffer at the
    chain applied to W's two sum arrays and the four other arguments: each operation's result at its own buffer is its
    function of its operands' contents, and at every other buffer what was there. -/
theorem after_tail (W : Valuation τ sig (Elt Ideal)) :
    after hostOps1_2 (after hostOps1_1 (after hostOps1 W)) (main_v47 : DevRef τ sig)
      = tailK (W (main_v1_0 : DevRef τ sig)) (W (main_v1_1 : DevRef τ sig)) (W (main_arg1 : DevRef τ sig))
          (W (main_arg2 : DevRef τ sig)) (W (main_arg3 : DevRef τ sig)) (W (main_arg4 : DevRef τ sig)) := by
  dsimp only [hostOps1, hostOps1_1, hostOps1_2]
  after_results_simp
  rfl

end Cert.KernelIdeal.Tail

end
-- ==== Proof.Spec.lean ====
/-
  The two computations, entry by entry, over the extended reals.

  Both programs take x[b, c, h, w] (32 × 512 × 56 × 56), excitation weights, and batch-norm weight wt[c] and bias bs[c].
  From a gate e[b, c] (the same function of the per-(b, c) spatial means of x on both sides) they compute, per channel c,
  the batch statistics of y = x·e over all (b, h, w), normalise y, average over (h, w), and add the two halves of the
  channel axis (channels j and 256 + j).

  The reference does this on the full array: mean μ = Σ y / N, variance Σ (y − μ)² / N with N = 32·3136 (two passes), then
  z[b, c] = Σ_{h,w} ((y − μ)·(wt·rsqrt(var + ε)) + bs) / 3136.
  The kernel side works from the spatial means s[b, c] = Σ x / 3136 and q[b, c] = Σ x² / 3136 alone: μ = Σ_b e·s / 32,
  variance max(Σ_b e²·q / 32 − μ², 0) (one pass, clamped), then o[b, c] = (wt·rsqrt(var + ε))·(e·s − μ) + bs.
  The float constants are kept as their words: 3136, 32, 100352 = 32·3136 and ε.
-/
import Idealize.ShloMosaic.PureOps.Ideal
import Idealize.ShloMosaic.Lib.ValueIdx

noncomputable section

open scoped BigOperators

namespace Cert.Spec

open Idealize.ShloMosaic Idealize.ShloMosaic.ValueIdx

/-- The constants' words, read as extended reals. -/
abbrev c0 : EReal := Ideal.ofBits .f32 0x00000000#32
abbrev c3136 : EReal := Ideal.ofBits .f32 0x45440000#32
abbrev c32 : EReal := Ideal.ofBits .f32 0x42000000#32
abbrev cN : EReal := Ideal.ofBits .f32 0x47C40000#32
abbrev cEps : EReal := Ideal.ofBits .f32 0x3727C5AC#32

/-- Channel k·256 + j: column j of half k of the channel axis. -/
def chan (k : Fin 2) (j : Fin 256) : Fin 512 := ⟨k.val * 256 + j.val, by have := k.isLt; have := j.isLt; omega⟩

abbrev A4 := (⟨4, ![32, 512, 56, 56]⟩ : Shape).Idx → EReal
abbrev A2 := (⟨2, ![32, 512]⟩ : Shape).Idx → EReal
abbrev A1 := (⟨1, ![512]⟩ : Shape).Idx → EReal

/-! ## The reference, on the full array -/

/-- The gated array y = x·e. -/
def yR (e : A2) (x : A4) (b : Fin 32) (c : Fin 512) (h w : Fin 56) : EReal := x (ix4 b c h w) * e (ix2 b c)

/-- The channel's batch mean of y. -/
def muR (e : A2) (x : A4) (c : Fin 512) : EReal :=
  Ideal.div (c0 + ∑ b : Fin 32, ∑ h : Fin 56, ∑ w : Fin 56, yR e x b c h w) cN

/-- The channel's batch variance of y, two-pass; `d` is the divisor N − ddof as the program computes it. -/
def varR (e : A2) (x : A4) (d : EReal) (c : Fin 512) : EReal :=
  Ideal.div (c0 + ∑ b : Fin 32, ∑ h : Fin 56, ∑ w : Fin 56, (yR e x b c h w - muR e x c) * (yR e x b c h w - muR e x c)) d

/-- The channel's scale wt·rsqrt(var + ε). -/
def gR (e : A2) (x : A4) (d : EReal) (wt : A1) (c : Fin 512) : EReal :=
  wt (ix1 c) * Ideal.rsqrt (varR e x d c + cEps)

/-- The spatial mean of the normalised array at (b, c). -/
def zR (e : A2) (x : A4) (d : EReal) (wt bs : A1) (b : Fin 32) (c : Fin 512) : EReal :=
  Ideal.div (c0 + ∑ h : Fin 56, ∑ w : Fin 56, ((yR e x b c h w - muR e x c) * gR e x d wt c + bs (ix1 c))) c3136

/-- The reference's result at (b, j): the two halves of the channel axis added, from zero. -/
def outR (e : A2) (x : A4) (d : EReal) (wt bs : A1) (b : Fin 32) (j : Fin 256) : EReal :=
  c0 + ∑ k : Fin 2, zR e x d wt bs b (chan k j)

/-! ## The kernel side, from the spatial means -/

/-- The spatial mean of x at (b, c). -/
def sS (x : A4) : A2 := fun i => Ideal.div (∑ h : Fin 56, ∑ w : Fin 56, x (ix4 (i 0) (i 1) h w)) c3136

/-- The spatial mean of x² at (b, c). -/
def qS (x : A4) : A2 :=
  fun i => Ideal.div (∑ h : Fin 56, ∑ w : Fin 56, x (ix4 (i 0) (i 1) h w) * x (ix4 (i 0) (i 1) h w)) c3136

/-- m = e·s, the spatial mean of y at (b, c). -/
def mK (e s : A2) (b : Fin 32) (c : Fin 512) : EReal := e (ix2 b c) * s (ix2 b c)

/-- The channel's batch mean. -/
def muK (e s : A2) (c : Fin 512) : EReal := Ideal.div (c0 + ∑ b : Fin 32, mK e s b c) c32

/-- The channel's batch mean of y². -/
def m2K (e q : A2) (c : Fin 512) : EReal :=
  Ideal.div (c0 + ∑ b : Fin 32, (e (ix2 b c) * e (ix2 b c)) * q (ix2 b c)) c32

/-- The channel's variance, one-pass and clamped at zero. -/
def varK (e s q : A2) (c : Fin 512) : EReal := max (m2K e q c - muK e s c * muK e s c) c0

/-- The channel's scale. -/
def gK (e s q : A2) (wt : A1) (c : Fin 512) : EReal := wt (ix1 c) * Ideal.rsqrt (varK e s q c + cEps)

/-- The normalised spatial mean at (b, c). -/
def oK (e s q : A2) (wt bs : A1) (b : Fin 32) (c : Fin 512) : EReal :=
  gK e s q wt c * (mK e s b c - muK e s c) + bs (ix1 c)

/-- The kernel side's result at (b, j). -/
def outK (e s q : A2) (wt bs : A1) (b : Fin 32) (j : Fin 256) : EReal :=
  oK e s q wt bs b (chan 0 j) + oK e s q wt bs b (chan 1 j)

end Cert.Spec

end
-- ==== Proof.LibFibreSums.lean ====
/-
  The host's float sum over several axes, read at an entry.

  Reducing an array over some of its axes leaves an array indexed by the kept coordinates. The source indices lying
  over one entry of the result (its fibre) are exactly those whose kept coordinates are the entry's, the reduced
  coordinates ranging freely; so a sum over the fibre, in any commutative additive monoid, is the iterated sum over the
  reduced coordinates. Hence the host's float sum over those axes, at that entry, is the initial value plus that
  iterated sum. This file states it for the shapes and axes

    [a, b, c, d] over axes [2, 3] and over axes [0, 2, 3],   [a, b, c, d, e] over axes [3, 4],
    [a, b, c] over axis [1],   [a, b] over axis [0],

  all as instances of one general fact (`sum_filter_of_fibre`): if the indices satisfying a predicate are exactly the
  values of a function `g` that has a left inverse, the sum over them is the sum over `g`'s domain. Beside these: a
  sum over a rank-4 or rank-5 index set is the iterated sum over its coordinates (`sum_idx4`, `sum_idx5`), and a sum
  over `Fin (m * n)` is the double sum over rows and columns in row-major order (`sum_rowMajor`).
-/
import Idealize.ShloMosaic.PureOps.Ideal.Laws
import Idealize.ShloMosaic.PureOps.Reduce
import Idealize.ShloMosaic.Lib.ValueIdx

noncomputable section

open scoped BigOperators

namespace Cert.FibreSums

open Idealize.ShloMosaic Idealize.ShloMosaic.ValueIdx

variable {a b c d e : ℕ}

/-! ## Sums over rank-4 and rank-5 index sets -/

/-- A rank-4 index set is the product of its four coordinate ranges … -/
def idxEquiv4 : (⟨4, ![a, b, c, d]⟩ : Shape).Idx ≃ Fin a × Fin b × Fin c × Fin d where
  toFun i := (i 0, i 1, i 2, i 3)
  invFun κ := ix4 κ.1 κ.2.1 κ.2.2.1 κ.2.2.2
  left_inv i := (eq_ix4 i).symm
  right_inv _ := rfl

/-- … so a sum over it, in any commutative additive monoid, is the fourfold sum over the coordinates. -/
theorem sum_idx4 {M : Type*} [AddCommMonoid M] (f : (⟨4, ![a, b, c, d]⟩ : Shape).Idx → M) :
    ∑ i, f i = ∑ p : Fin a, ∑ q : Fin b, ∑ r : Fin c, ∑ s : Fin d, f (ix4 p q r s) := by
  rw [← Equiv.sum_comp (idxEquiv4 (a := a) (b := b) (c := c) (d := d)).symm f, Fintype.sum_prod_type]
  refine Finset.sum_congr rfl fun p _ => ?_
  rw [Fintype.sum_prod_type]
  refine Finset.sum_congr rfl fun q _ => ?_
  rw [Fintype.sum_prod_type]
  rfl

/-- A rank-5 index set is the product of its five coordinate ranges … -/
def idxEquiv5 : (⟨5, ![a, b, c, d, e]⟩ : Shape).Idx ≃ Fin a × Fin b × Fin c × Fin d × Fin e where
  toFun i := (i 0, i 1, i 2, i 3, i 4)
  invFun κ := ix5 κ.1 κ.2.1 κ.2.2.1 κ.2.2.2.1 κ.2.2.2.2
  left_inv i := (eq_ix5 i).symm
  right_inv _ := rfl

/-- … so a sum over it is the fivefold sum over the coordinates. -/
theorem sum_idx5 {M : Type*} [AddCommMonoid M] (f : (⟨5, ![a, b, c, d, e]⟩ : Shape).Idx → M) :
    ∑ i, f i = ∑ p : Fin a, ∑ q : Fin b, ∑ r : Fin c, ∑ s : Fin d, ∑ t : Fin e, f (ix5 p q r s t) := by
  rw [← Equiv.sum_comp (idxEquiv5 (a := a) (b := b) (c := c) (d := d) (e := e)).symm f, Fintype.sum_prod_type]
  refine Finset.sum_congr rfl fun p _ => ?_
  rw [Fintype.sum_prod_type]
  refine Finset.sum_congr rfl fun q _ => ?_
  rw [Fintype.sum_prod_type]
  refine Finset.sum_congr rfl fun r _ => ?_
  rw [Fintype.sum_prod_type]
  rfl

/-! ## The general fibre sum -/

/-- If every index satisfying `P` is `g` of its image under `k`, every value of `g` satisfies `P`, and `k` undoes `g`,
    then the indices satisfying `P` are in bijection with `g`'s domain, and a sum over them is the sum over that
    domain. -/
theorem sum_filter_of_fibre {I K M : Type} [Fintype I] [Fintype K] [AddCommMonoid M] (P : I → Prop) [DecidablePred P]
    (g : K → I) (k : I → K) (hk : ∀ i, P i → g (k i) = i) (hP : ∀ κ, P (g κ)) (hg : ∀ κ, k (g κ) = κ) (f : I → M) :
    (∑ i ∈ Finset.univ.filter P, f i) = ∑ κ, f (g κ) := by
  refine Finset.sum_nbij' k g ?_ ?_ ?_ ?_ ?_
  · intro i _; exact Finset.mem_univ _
  · intro κ _; exact Finset.mem_filter.2 ⟨Finset.mem_univ _, hP κ⟩
  · intro i hi; exact hk i (Finset.mem_filter.1 hi).2
  · intro κ _; exact hg κ
  · intro i hi; rw [hk i (Finset.mem_filter.1 hi).2]

/-! ## [a, b, c, d] over axes [2, 3] -/

/-- The source indices over entry `(p, q)` are the `(p, q, r, s)`. -/
theorem sum_fibre_r4_23 {M : Type} [AddCommMonoid M] (h : (⟨4, ![a, b, c, d]⟩ : Shape).ReducesTo [2, 3] ⟨2, ![a, b]⟩)
    (f : (⟨4, ![a, b, c, d]⟩ : Shape).Idx → M) (p : Fin a) (q : Fin b) [DecidablePred fun i => h.drop i = ix2 p q] :
    (∑ i ∈ Finset.univ.filter (fun i => h.drop i = ix2 p q), f i) = ∑ r : Fin c, ∑ s : Fin d, f (ix4 p q r s) := by
  have hv0 : ∀ i, (h.drop i 0 : ℕ) = i 0 := fun _ => rfl
  have hv1 : ∀ i, (h.drop i 1 : ℕ) = i 1 := fun _ => rfl
  rw [sum_filter_of_fibre (fun i => h.drop i = ix2 p q) (fun κ : Fin c × Fin d => ix4 p q κ.1 κ.2)
    (fun i => (i 2, i 3)) ?_ ?_ (fun _ => rfl) f, Fintype.sum_prod_type]
  · intro i e
    have h0 : i 0 = p := Fin.ext ((hv0 i).symm.trans (congrArg Fin.val (congrFun e 0)))
    have h1 : i 1 = q := Fin.ext ((hv1 i).symm.trans (congrArg Fin.val (congrFun e 1)))
    funext t
    match t with
    | ⟨0, _⟩ => exact h0.symm
    | ⟨1, _⟩ => exact h1.symm
    | ⟨2, _⟩ => rfl
    | ⟨3, _⟩ => rfl
  · intro κ
    funext t
    match t with
    | ⟨0, _⟩ => exact Fin.ext (hv0 _)
    | ⟨1, _⟩ => exact Fin.ext (hv1 _)

/-- The host's float sum over the last two axes of a rank-4 array, at entry `(p, q)`. -/
theorem hostReduceAdd_r4_23 (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ r : Fin c, ∑ s : Fin d, x (ix4 p q r s) := by
  unfold Ideal.hostReduceAdd
  rw [sum_fibre_r4_23]

/-! ## [a, b, c, d] over axes [0, 2, 3] -/

/-- The source indices over entry `q` are the `(p, q, r, s)`: only the second coordinate is kept. -/
theorem sum_fibre_r4_023 {M : Type} [AddCommMonoid M] (h : (⟨4, ![a, b, c, d]⟩ : Shape).ReducesTo [0, 2, 3] ⟨1, ![b]⟩)
    (f : (⟨4, ![a, b, c, d]⟩ : Shape).Idx → M) (q : Fin b) [DecidablePred fun i => h.drop i = ix1 q] :
    (∑ i ∈ Finset.univ.filter (fun i => h.drop i = ix1 q), f i)
      = ∑ p : Fin a, ∑ r : Fin c, ∑ s : Fin d, f (ix4 p q r s) := by
  have hv : ∀ i, (h.drop i 0 : ℕ) = i 1 := fun _ => rfl
  rw [sum_filter_of_fibre (fun i => h.drop i = ix1 q) (fun κ : Fin a × Fin c × Fin d => ix4 κ.1 q κ.2.1 κ.2.2)
    (fun i => (i 0, i 2, i 3)) ?_ ?_ (fun _ => rfl) f, Fintype.sum_prod_type]
  · refine Finset.sum_congr rfl fun p _ => ?_
    rw [Fintype.sum_prod_type]
  · intro i e
    have h1 : i 1 = q := Fin.ext ((hv i).symm.trans (congrArg Fin.val (congrFun e 0)))
    funext t
    match t with
    | ⟨0, _⟩ => rfl
    | ⟨1, _⟩ => exact h1.symm
    | ⟨2, _⟩ => rfl
    | ⟨3, _⟩ => rfl
  · intro κ
    funext t
    match t with
    | ⟨0, _⟩ => exact Fin.ext (hv _)

/-- The host's float sum over the first, third and fourth axes of a rank-4 array, at entry `q`. -/
theorem hostReduceAdd_r4_023 (h : (⟨4, ![a, b, c, d]⟩ : Shape).ReducesTo [0, 2, 3] ⟨1, ![b]⟩)
    (x : (⟨4, ![a, b, c, d]⟩ : Shape).Idx → EReal) (init : EReal) (q : Fin b) :
    Ideal.hostReduceAdd h x init (ix1 q) = init + ∑ p : Fin a, ∑ r : Fin c, ∑ s : Fin d, x (ix4 p q r s) := by
  unfold Ideal.hostReduceAdd
  rw [sum_fibre_r4_023]

/-! ## [a, b, c, d, e] over axes [3, 4] -/

/-- The source indices over entry `(p, q, r)` are the `(p, q, r, s, t)`. -/
theorem sum_fibre_r5_34 {M : Type} [AddCommMonoid M]
    (h : (⟨5, ![a, b, c, d, e]⟩ : Shape).ReducesTo [3, 4] ⟨3, ![a, b, c]⟩)
    (f : (⟨5, ![a, b, c, d, e]⟩ : Shape).Idx → M) (p : Fin a) (q : Fin b) (r : Fin c)
    [DecidablePred fun i => h.drop i = ix3 p q r] :
    (∑ i ∈ Finset.univ.filter (fun i => h.drop i = ix3 p q r), f i)
      = ∑ s : Fin d, ∑ t : Fin e, f (ix5 p q r s t) := by
  have hv0 : ∀ i, (h.drop i 0 : ℕ) = i 0 := fun _ => rfl
  have hv1 : ∀ i, (h.drop i 1 : ℕ) = i 1 := fun _ => rfl
  have hv2 : ∀ i, (h.drop i 2 : ℕ) = i 2 := fun _ => rfl
  rw [sum_filter_of_fibre (fun i => h.drop i = ix3 p q r) (fun κ : Fin d × Fin e => ix5 p q r κ.1 κ.2)
    (fun i => (i 3, i 4)) ?_ ?_ (fun _ => rfl) f, Fintype.sum_prod_type]
  · intro i e'
    have h0 : i 0 = p := Fin.ext ((hv0 i).symm.trans (congrArg Fin.val (congrFun e' 0)))
    have h1 : i 1 = q := Fin.ext ((hv1 i).symm.trans (congrArg Fin.val (congrFun e' 1)))
    have h2 : i 2 = r := Fin.ext ((hv2 i).symm.trans (congrArg Fin.val (congrFun e' 2)))
    funext u
    match u with
    | ⟨0, _⟩ => exact h0.symm
    | ⟨1, _⟩ => exact h1.symm
    | ⟨2, _⟩ => exact h2.symm
    | ⟨3, _⟩ => rfl
    | ⟨4, _⟩ => rfl
  · intro κ
    funext u
    match u with
    | ⟨0, _⟩ => exact Fin.ext (hv0 _)
    | ⟨1, _⟩ => exact Fin.ext (hv1 _)
    | ⟨2, _⟩ => exact Fin.ext (hv2 _)

/-- The host's float sum over the last two axes of a rank-5 array, at entry `(p, q, r)`. -/
theorem hostReduceAdd_r5_34 (h : (⟨5, ![a, b, c, d, e]⟩ : Shape).ReducesTo [3, 4] ⟨3, ![a, b, c]⟩)
    (x : (⟨5, ![a, b, c, d, e]⟩ : Shape).Idx → EReal) (init : EReal) (p : Fin a) (q : Fin b) (r : Fin c) :
    Ideal.hostReduceAdd h x init (ix3 p q r) = init + ∑ s : Fin d, ∑ t : Fin e, x (ix5 p q r s t) := by
  unfold Ideal.hostReduceAdd
  rw [sum_fibre_r5_34]

/-! ## [a, b, c] over axis [1] -/

/-- The source indices over entry `(p, r)` are the `(p, q, r)`. -/
theorem sum_fibre_r3_1 {M : Type} [AddCommMonoid M] (h : (⟨3, ![a, b, c]⟩ : Shape).ReducesTo [1] ⟨2, ![a, c]⟩)
    (f : (⟨3, ![a, b, c]⟩ : Shape).Idx → M) (p : Fin a) (r : Fin c) [DecidablePred fun i => h.drop i = ix2 p r] :
    (∑ i ∈ Finset.univ.filter (fun i => h.drop i = ix2 p r), f i) = ∑ q : Fin b, f (ix3 p q r) := by
  have hv0 : ∀ i, (h.drop i 0 : ℕ) = i 0 := fun _ => rfl
  have hv1 : ∀ i, (h.drop i 1 : ℕ) = i 2 := fun _ => rfl
  rw [sum_filter_of_fibre (fun i => h.drop i = ix2 p r) (fun κ : Fin b => ix3 p κ r) (fun i => i 1) ?_ ?_
    (fun _ => rfl) f]
  · intro i e
    have h0 : i 0 = p := Fin.ext ((hv0 i).symm.trans (congrArg Fin.val (congrFun e 0)))
    have h2 : i 2 = r := Fin.ext ((hv1 i).symm.trans (congrArg Fin.val (congrFun e 1)))
    funext t
    match t with
    | ⟨0, _⟩ => exact h0.symm
    | ⟨1, _⟩ => rfl
    | ⟨2, _⟩ => exact h2.symm
  · intro κ
    funext t
    match t with
    | ⟨0, _⟩ => exact Fin.ext (hv0 _)
    | ⟨1, _⟩ => exact Fin.ext (hv1 _)

/-- The host's float sum over the middle axis of a rank-3 array, at entry `(p, r)`. -/
theorem hostReduceAdd_r3_1 (h : (⟨3, ![a, b, c]⟩ : Shape).ReducesTo [1] ⟨2, ![a, c]⟩)
    (x : (⟨3, ![a, b, c]⟩ : Shape).Idx → EReal) (init : EReal) (p : Fin a) (r : Fin c) :
    Ideal.hostReduceAdd h x init (ix2 p r) = init + ∑ q : Fin b, x (ix3 p q r) := by
  unfold Ideal.hostReduceAdd
  rw [sum_fibre_r3_1]

/-! ## [a, b] over axis [0] -/

/-- The source indices over entry `q` are the `(p, q)`. -/
theorem sum_fibre_r2_0 {M : Type} [AddCommMonoid M] (h : (⟨2, ![a, b]⟩ : Shape).ReducesTo [0] ⟨1, ![b]⟩)
    (f : (⟨2, ![a, b]⟩ : Shape).Idx → M) (q : Fin b) [DecidablePred fun i => h.drop i = ix1 q] :
    (∑ i ∈ Finset.univ.filter (fun i => h.drop i = ix1 q), f i) = ∑ p : Fin a, f (ix2 p q) := by
  have hv : ∀ i, (h.drop i 0 : ℕ) = i 1 := fun _ => rfl
  rw [sum_filter_of_fibre (fun i => h.drop i = ix1 q) (fun κ : Fin a => ix2 κ q) (fun i => i 0) ?_ ?_
    (fun _ => rfl) f]
  · intro i e
    have h1 : i 1 = q := Fin.ext ((hv i).symm.trans (congrArg Fin.val (congrFun e 0)))
    funext t
    match t with
    | ⟨0, _⟩ => rfl
    | ⟨1, _⟩ => exact h1.symm
  · intro κ
    funext t
    match t with
    | ⟨0, _⟩ => exact Fin.ext (hv _)

/-- The host's float sum over the first axis of a rank-2 array (its column sums), at entry `q`. -/
theorem hostReduceAdd_r2_0 (h : (⟨2, ![a, b]⟩ : Shape).ReducesTo [0] ⟨1, ![b]⟩)
    (x : (⟨2, ![a, b]⟩ : Shape).Idx → EReal) (init : EReal) (q : Fin b) :
    Ideal.hostReduceAdd h x init (ix1 q) = init + ∑ p : Fin a, x (ix2 p q) := by
  unfold Ideal.hostReduceAdd
  rw [sum_fibre_r2_0]

/-! ## A sum over `Fin (m * n)` in row-major order -/

/-- Position `h * n + w` of row `h`, column `w` lies below `m * n`. -/
theorem rowMajor_lt {m n : ℕ} (h : Fin m) (w : Fin n) : h.val * n + w.val < m * n :=
  calc h.val * n + w.val < h.val * n + n := Nat.add_lt_add_left w.isLt _
    _ = (h.val + 1) * n := (Nat.succ_mul _ _).symm
    _ ≤ m * n := Nat.mul_le_mul_right _ h.isLt

/-- Every position below `m * n` is `h * n + w` for exactly one row `h` and column `w`, so a sum over the positions
    is the double sum over rows and columns. -/
theorem sum_rowMajor {M : Type} [AddCommMonoid M] (m n : ℕ) (g : Fin (m * n) → M) :
    ∑ k, g k = ∑ h : Fin m, ∑ w : Fin n, g ⟨h.val * n + w.val, rowMajor_lt h w⟩ := by
  rw [← Equiv.sum_comp finProdFinEquiv g, Fintype.sum_prod_type]
  refine Finset.sum_congr rfl fun h _ => Finset.sum_congr rfl fun w _ => congrArg g (Fin.ext ?_)
  show w.val + n * h.val = h.val * n + w.val
  rw [Nat.mul_comm, Nat.add_comm]

end Cert.FibreSums

end
-- ==== Proof.KernelRun.lean ====
/-
  The kernel program's run, read: the returned buffer as a function of the arguments.

  The region leaves the two [512, 32] arrays at the spatial sums, and sums of squares, of the first argument regrouped
  to [32, 512, 3136]; position k = 56h + w of the regrouped array is position (h, w) of the argument, so a sum over k is
  the double sum over (h, w), and the means the program takes of those arrays are the spatial means sS x, qS x of the
  specification. The operations after the region then give postK (gateK (sS x) w1 w2) (sS x) (qS x) wt bs.
-/
import proofs.«122134_j12670153523753_2_alg».proof.Proof.KernelTail
import proofs.«122134_j12670153523753_2_alg».proof.Proof.Spec
import proofs.«122134_j12670153523753_2_alg».proof.Proof.LibFibreSums
import Idealize.ShloMosaic.Lib.Pipeline.Value

set_option maxRecDepth 16384

noncomputable section

namespace Cert.KernelIdeal.Run

open Cert.KernelIdeal Cert.KernelIdeal.Gen Cert.KernelIdeal.Arr Cert.KernelIdeal.Tail
open Idealize.ShloMosaic Idealize.ShloMosaic.TcCoe Idealize.ShloMosaic.ValueIdx Idealize.ShloMosaic.StableHlo
open Idealize.SL Idealize.SL.Sem
open Idealize.ShloMosaic.Pipeline (Dat)

/-- Position 56h + w of the regrouped array is position (h, w) of the argument. -/
theorem regroup_apply (x : FVec Ideal S32x512x56x56 .f32) (b : Fin 32) (c : Fin 512) (h w : Fin 56) :
    shapeCast S32x512x3136 x shapeCasts_S32x512x56x56_S32x512x3136
        (ix3 b c ⟨h.val * 56 + w.val, Cert.FibreSums.rowMajor_lt h w⟩) = x (ix4 b c h w) := by
  refine shapeCast_apply x _ _ (ix4 b c h w) ?_
  rw [Shape.rowMajor_val_four, Shape.rowMajor_val_three]
  show ((b.val * 512 + c.val) * 56 + h.val) * 56 + w.val = (b.val * 512 + c.val) * 3136 + (h.val * 56 + w.val)
  omega

/-- The mean the program takes of a [512, 32] array of sums, at (b, c): the sum at (c, b) over 3136. -/
theorem meanK_apply (S : FVec Ideal S512x32 .f32) (b : Fin 32) (c : Fin 512) :
    meanK S (ix2 b c) = Ideal.div (S (ix2 c b)) Cert.Spec.c3136 := by
  unfold meanK
  show Ideal.div (transpose S32x512 [1, 0] S transposes_S512x32_S32x512_1_0 (ix2 b c)) _ = _
  rw [transpose_apply [1, 0] S transposes_S512x32_S32x512_1_0 (ix2 b c) (ix2 c b) (fun a => by
    match a with
    | ⟨0, _⟩ => rfl
    | ⟨1, _⟩ => rfl)]
  rfl

/-- The means of the region's first result are the spatial means of the argument. -/
theorem meanK_sum (x : FVec Ideal S32x512x56x56 .f32) :
    meanK (sumArr (shapeCast S32x512x3136 x shapeCasts_S32x512x56x56_S32x512x3136)) = Cert.Spec.sS x := by
  funext i
  obtain ⟨b, c, rfl⟩ : ∃ (b : Fin 32) (c : Fin 512), i = ix2 b c := ⟨i 0, i 1, eq_ix2 i⟩
  rw [meanK_apply]
  unfold Cert.Spec.sS sumArr
  refine congrArg (fun t => Ideal.div t Cert.Spec.c3136) ?_
  refine (Cert.FibreSums.sum_rowMajor 56 56 (fun k => shapeCast S32x512x3136 x shapeCasts_S32x512x56x56_S32x512x3136 (ix3 b c k))).trans ?_
  exact Finset.sum_congr rfl fun h _ => Finset.sum_congr rfl fun w _ => regroup_apply x b c h w

/-- The means of the region's second result are the spatial means of the argument's squares. -/
theorem meanK_sumSq (x : FVec Ideal S32x512x56x56 .f32) :
    meanK (sumSqArr (shapeCast S32x512x3136 x shapeCasts_S32x512x56x56_S32x512x3136)) = Cert.Spec.qS x := by
  funext i
  obtain ⟨b, c, rfl⟩ : ∃ (b : Fin 32) (c : Fin 512), i = ix2 b c := ⟨i 0, i 1, eq_ix2 i⟩
  rw [meanK_apply]
  unfold Cert.Spec.qS sumSqArr
  refine congrArg (fun t => Ideal.div t Cert.Spec.c3136) ?_
  refine (Cert.FibreSums.sum_rowMajor 56 56 (fun k => shapeCast S32x512x3136 x shapeCasts_S32x512x56x56_S32x512x3136 (ix3 b c k)
      * shapeCast S32x512x3136 x shapeCasts_S32x512x56x56_S32x512x3136 (ix3 b c k))).trans ?_
  exact Finset.sum_congr rfl fun h _ => Finset.sum_congr rfl fun w _ =>
    congrArg₂ (· * ·) (regroup_apply x b c h w) (regroup_apply x b c h w)

variable (m : (ℓ : Loc nD τ sig) → Buf (Elt Ideal) ℓ) (ρ : Dev nD → PrngReg)

/-- The buffer contents the operations after the region start from: the region's arrays, every other buffer as before. -/
abbrev W (c : Dev nD) : Valuation τ sig (Elt Ideal) :=
  Pipeline.withArrays spec0 c (V0 m c) fun w => (dats m 0 c).arrAt w cfg0.N

theorem W_v1_0 (c : Dev nD) : W m c (main_v1_0 : DevRef τ sig)
    = sumArr (shapeCast S32x512x3136 (m ((c : Thread nD τ).loc main_arg0)) shapeCasts_S32x512x56x56_S32x512x3136) :=
  (Pipeline.withArrays_arr spec0 launch0.win.arr_inj c _ _ 1).trans ((final1 m c).trans (congrArg sumArr (V_v0 m c)))

theorem W_v1_1 (c : Dev nD) : W m c (main_v1_1 : DevRef τ sig)
    = sumSqArr (shapeCast S32x512x3136 (m ((c : Thread nD τ).loc main_arg0)) shapeCasts_S32x512x56x56_S32x512x3136) :=
  (Pipeline.withArrays_arr spec0 launch0.win.arr_inj c _ _ 2).trans ((final2 m c).trans (congrArg sumSqArr (V_v0 m c)))

theorem W_arg1 (c : Dev nD) : W m c (main_arg1 : DevRef τ sig) = m ((c : Thread nD τ).loc main_arg1) :=
  (Pipeline.withArrays_of_ne spec0 c (V0 m c) _ main_arg1 (by exact (by decide : ∀ w, Pipeline.arrRef spec0 w ≠ main_arg1))).trans (V_main_arg1 m c)
theorem W_arg2 (c : Dev nD) : W m c (main_arg2 : DevRef τ sig) = m ((c : Thread nD τ).loc main_arg2) :=
  (Pipeline.withArrays_of_ne spec0 c (V0 m c) _ main_arg2 (by exact (by decide : ∀ w, Pipeline.arrRef spec0 w ≠ main_arg2))).trans (V_main_arg2 m c)
theorem W_arg3 (c : Dev nD) : W m c (main_arg3 : DevRef τ sig) = m ((c : Thread nD τ).loc main_arg3) :=
  (Pipeline.withArrays_of_ne spec0 c (V0 m c) _ main_arg3 (by exact (by decide : ∀ w, Pipeline.arrRef spec0 w ≠ main_arg3))).trans (V_main_arg3 m c)
theorem W_arg4 (c : Dev nD) : W m c (main_arg4 : DevRef τ sig) = m ((c : Thread nD τ).loc main_arg4) :=
  (Pipeline.withArrays_of_ne spec0 c (V0 m c) _ main_arg4 (by exact (by decide : ∀ w, Pipeline.arrRef spec0 w ≠ main_arg4))).trans (V_main_arg4 m c)

/-- What the returned buffer holds after the run, as a function of the arguments. -/
def result (c : Dev nD) : FVec Ideal S32x256 .f32 :=
  postK (gateK (Cert.Spec.sS (m ((c : Thread nD τ).loc main_arg0))) (m ((c : Thread nD τ).loc main_arg1)) (m ((c : Thread nD τ).loc main_arg2)))
    (Cert.Spec.sS (m ((c : Thread nD τ).loc main_arg0))) (Cert.Spec.qS (m ((c : Thread nD τ).loc main_arg0)))
    (m ((c : Thread nD τ).loc main_arg3)) (m ((c : Thread nD τ).loc main_arg4))

theorem tail_eq (c : Dev nD) :
    Pipeline.afterTail₀ cfgs (dats m) 0 (V0 m) [hostOps1, hostOps1_1, hostOps1_2] c main_v47 = result m c := by
  unfold Pipeline.afterTail₀
  show after (List.flatten [hostOps1, hostOps1_1, hostOps1_2]) (W m c) (main_v47 : DevRef τ sig) = _
  rw [Cert.AfterAppend.after_flatten_cons, Cert.AfterAppend.after_flatten_cons, Cert.AfterAppend.after_flatten_cons,
    Cert.AfterAppend.after_flatten_nil, after_tail, W_v1_0, W_v1_1, W_arg1, W_arg2, W_arg3, W_arg4]
  unfold tailK result
  rw [meanK_sum, meanK_sumSq]

/-- The run, read: the returned buffer at `result`, the arguments unchanged. -/
theorem run : θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(((h c).2 main_v47 (Pipeline.mem_restRefs_of main_v47 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Run

end
-- ==== Proof.KernelRead.lean ====
/-
  The operations after the gate, read at an entry: they are the specification's kernel side.

  With e the gate, s and q the spatial means of x and x², the program forms, per channel c, the batch mean of e·s and of
  e²·q over the 32 batch rows (each a sum from zero divided by 32), the variance clamped at zero, the scale
  wt·rsqrt(var + ε), then (scale)·(e·s − mean) + bias at every (b, c), and adds columns j and 256 + j. Read at an entry,
  each step is the corresponding definition of the specification; nothing is asked of the entries.
-/
import proofs.«122134_j12670153523753_2_alg».proof.Proof.KernelTail
import proofs.«122134_j12670153523753_2_alg».proof.Proof.Spec
import proofs.«122134_j12670153523753_2_alg».proof.Proof.LibFibreSums
import Idealize.ShloMosaic.Lib.Pipeline.Value
import Idealize.ShloMosaic.Lib.IdealHost

noncomputable section

namespace Cert.KernelIdeal.Read

open Cert.KernelIdeal Cert.KernelIdeal.Gen Cert.KernelIdeal.Tail
open Idealize.ShloMosaic Idealize.ShloMosaic.ValueIdx

/-- A sum over the batch axis from the zero word, at channel c. -/
theorem colsum_apply (v : FVec Ideal S32x512 .f32) (c : Fin 512) :
    Host.reduceAdd (F := Ideal) v (constant (F := Ideal) S_ .f32 0x00000000#32) reducesTo_S32x512_S512_d0 h_S_ (ix1 c)
      = Cert.Spec.c0 + ∑ b : Fin 32, v (ix2 b c) := by
  rw [hostReduceAdd_apply, Cert.FibreSums.hostReduceAdd_r2_0]
  rfl

/-- A per-channel vector repeated along the batch axis, at (b, c): the vector at c. -/
theorem rows_apply (v : FVec Ideal S512 .f32) (b : Fin 32) (c : Fin 512) :
    broadcastInDim S32x512 ![0, 1] bcast_S1x512_S32x512_0_1 (broadcastInDim S1x512 ![1] bcast_S512_S1x512_1 v) (ix2 b c)
      = v (ix1 c) := by
  refine (broadcastInDim_apply _ bcast_S1x512_S32x512_0_1 _ (ix2 b c) (ix2 (0 : Fin 1) c) (fun a => by
    match a with
    | ⟨0, _⟩ => rfl
    | ⟨1, _⟩ => rfl)).trans ?_
  exact broadcastInDim_apply _ bcast_S512_S1x512_1 v (ix2 (0 : Fin 1) c) (ix1 c) (fun a => by
    match a with
    | ⟨0, _⟩ => rfl)

/-- The channel means of e·s. -/
def muArr (e s : FVec Ideal S32x512 .f32) : FVec Ideal S512 .f32 :=
  Host.divf (F := Ideal) (Host.reduceAdd (F := Ideal) (mulf e s) (constant (F := Ideal) S_ .f32 0x00000000#32) reducesTo_S32x512_S512_d0 h_S_)
    (broadcastInDim S512 ![] bcast_S_S512 (constant (F := Ideal) S_ .f32 0x42000000#32))

theorem muArr_apply (e s : FVec Ideal S32x512 .f32) (c : Fin 512) : muArr e s (ix1 c) = Cert.Spec.muK e s c := by
  unfold muArr Cert.Spec.muK
  show Ideal.div (Host.reduceAdd (F := Ideal) (mulf e s) _ reducesTo_S32x512_S512_d0 h_S_ (ix1 c)) Cert.Spec.c32 = _
  rw [colsum_apply]
  rfl

/-- The clamped channel variances. -/
def varArr (e s q : FVec Ideal S32x512 .f32) : FVec Ideal S512 .f32 :=
  maximumf
    (subf (Host.divf (F := Ideal) (Host.reduceAdd (F := Ideal) (mulf (mulf e e) q) (constant (F := Ideal) S_ .f32 0x00000000#32) reducesTo_S32x512_S512_d0 h_S_)
        (broadcastInDim S512 ![] bcast_S_S512 (constant (F := Ideal) S_ .f32 0x42000000#32)))
      (mulf (muArr e s) (muArr e s)))
    (broadcastInDim S512 ![] bcast_S_S512 (constant (F := Ideal) S_ .f32 0x00000000#32))

theorem varArr_apply (e s q : FVec Ideal S32x512 .f32) (c : Fin 512) : varArr e s q (ix1 c) = Cert.Spec.varK e s q c := by
  unfold varArr Cert.Spec.varK Cert.Spec.m2K
  show max (Ideal.div (Host.reduceAdd (F := Ideal) (mulf (mulf e e) q) _ reducesTo_S32x512_S512_d0 h_S_ (ix1 c)) Cert.Spec.c32
      - muArr e s (ix1 c) * muArr e s (ix1 c)) Cert.Spec.c0 = _
  rw [colsum_apply, muArr_apply]
  rfl

/-- The channel scales. -/
def scaleArr (e s q : FVec Ideal S32x512 .f32) (wt : FVec Ideal S512 .f32) : FVec Ideal S512 .f32 :=
  mulf wt (Host.rsqrt (F := Ideal) (addf (varArr e s q) (broadcastInDim S512 ![] bcast_S_S512 (constant (F := Ideal) S_ .f32 0x3727C5AC#32))))

theorem scaleArr_apply (e s q : FVec Ideal S32x512 .f32) (wt : FVec Ideal S512 .f32) (c : Fin 512) :
    scaleArr e s q wt (ix1 c) = Cert.Spec.gK e s q wt c := by
  unfold scaleArr Cert.Spec.gK
  show wt (ix1 c) * Ideal.rsqrt (varArr e s q (ix1 c) + Cert.Spec.cEps) = _
  rw [varArr_apply]

/-- The normalised means at every (b, c). -/
def normArr (e s q : FVec Ideal S32x512 .f32) (wt bs : FVec Ideal S512 .f32) : FVec Ideal S32x512 .f32 :=
  addf (mulf (broadcastInDim S32x512 ![0, 1] bcast_S1x512_S32x512_0_1 (broadcastInDim S1x512 ![1] bcast_S512_S1x512_1 (scaleArr e s q wt)))
      (subf (mulf e s) (broadcastInDim S32x512 ![0, 1] bcast_S1x512_S32x512_0_1 (broadcastInDim S1x512 ![1] bcast_S512_S1x512_1 (muArr e s)))))
    (broadcastInDim S32x512 ![0, 1] bcast_S1x512_S32x512_0_1 (broadcastInDim S1x512 ![1] bcast_S512_S1x512_1 bs))

theorem normArr_apply (e s q : FVec Ideal S32x512 .f32) (wt bs : FVec Ideal S512 .f32) (b : Fin 32) (c : Fin 512) :
    normArr e s q wt bs (ix2 b c) = Cert.Spec.oK e s q wt bs b c := by
  unfold normArr Cert.Spec.oK Cert.Spec.mK
  show broadcastInDim S32x512 ![0, 1] bcast_S1x512_S32x512_0_1 (broadcastInDim S1x512 ![1] bcast_S512_S1x512_1 (scaleArr e s q wt)) (ix2 b c)
      * (e (ix2 b c) * s (ix2 b c)
        - broadcastInDim S32x512 ![0, 1] bcast_S1x512_S32x512_0_1 (broadcastInDim S1x512 ![1] bcast_S512_S1x512_1 (muArr e s)) (ix2 b c))
      + broadcastInDim S32x512 ![0, 1] bcast_S1x512_S32x512_0_1 (broadcastInDim S1x512 ![1] bcast_S512_S1x512_1 bs) (ix2 b c) = _
  rw [rows_apply, rows_apply, rows_apply, scaleArr_apply, muArr_apply]

/-- The program's chain after the gate is the two column halves of the normalised means added. -/
theorem postK_eq (e s q : FVec Ideal S32x512 .f32) (wt bs : FVec Ideal S512 .f32) :
    postK e s q wt bs
      = addf (extractStridedSlice S32x256 ![0, 0] (normArr e s q wt bs) slices_S32x512_S32x256_0_0)
          (extractStridedSlice S32x256 ![0, 256] (normArr e s q wt bs) slices_S32x512_S32x256_0_256) := rfl

/-- The chain after the gate, at (b, j): the specification's kernel side. -/
theorem postK_apply (e s q : FVec Ideal S32x512 .f32) (wt bs : FVec Ideal S512 .f32) (b : Fin 32) (j : Fin 256) :
    postK e s q wt bs (ix2 b j) = Cert.Spec.outK e s q wt bs b j := by
  rw [postK_eq]
  unfold Cert.Spec.outK
  show extractStridedSlice S32x256 ![0, 0] (normArr e s q wt bs) slices_S32x512_S32x256_0_0 (ix2 b j)
      + extractStridedSlice S32x256 ![0, 256] (normArr e s q wt bs) slices_S32x512_S32x256_0_256 (ix2 b j) = _
  rw [extractStridedSlice_apply ![0, 0] (normArr e s q wt bs) slices_S32x512_S32x256_0_0 (ix2 b j) (ix2 b (Cert.Spec.chan 0 j)) (fun a => by
      match a with
      | ⟨0, _⟩ => show b.val = 0 + b.val; omega
      | ⟨1, _⟩ => show 0 * 256 + j.val = 0 + j.val; omega),
    extractStridedSlice_apply ![0, 256] (normArr e s q wt bs) slices_S32x512_S32x256_0_256 (ix2 b j) (ix2 b (Cert.Spec.chan 1 j)) (fun a => by
      match a with
      | ⟨0, _⟩ => show b.val = 0 + b.val; omega
      | ⟨1, _⟩ => show 1 * 256 + j.val = 256 + j.val; omega),
    normArr_apply, normArr_apply]

end Cert.KernelIdeal.Read

end
-- ==== Proof.LibRealEntries.lean ====
/-
  EVERY ENTRY IS A REAL NUMBER: the calculus of one graph-convolution layer's host operations.

  On the extended reals multiplication does not distribute over addition at an infinity, so the two ways of
  writing a batch-norm step, h·(γ·s) + (β − (μ·γ)·s) and ((h − μ)·s)·γ + β, agree only where every quantity is a real
  number. This file carries "every entry is a real number" (and, where a reciprocal square root needs it, "every entry
  is a nonnegative / positive real number, or a real number at least one") through each operation of a layer: a
  constant and its broadcasts, re-indexings (broadcast, reshape, slice, gather: an entry of the result IS an entry of
  the operand, whatever the start indices), sums, differences and products entry by entry, a scatter-add and a sum
  along an axis (an entry plus a finite sum of entries), a quotient by a nonzero real, a maximum, a selection, a
  contraction (a finite sum of products), and the reciprocal square root of a positive real. Every statement is over an
  arbitrary shape and an arbitrary dimension record, so it serves both programs and every layer width.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost

noncomputable section

namespace Cert.GcnReal

open Idealize.ShloMosaic
open scoped BigOperators

/-! ## The four predicates -/

/-- Every entry is a real number. -/
def AllReal {S : Shape} (v : S.Idx → EReal) : Prop := ∀ i, ∃ r : ℝ, v i = (r : EReal)

/-- Every entry is a nonnegative real number. -/
def NonnegReal {S : Shape} (v : S.Idx → EReal) : Prop := ∀ i, ∃ r : ℝ, 0 ≤ r ∧ v i = (r : EReal)

/-- Every entry is a positive real number. -/
def PosReal {S : Shape} (v : S.Idx → EReal) : Prop := ∀ i, ∃ r : ℝ, 0 < r ∧ v i = (r : EReal)

/-- Every entry is a real number at least one. -/
def GeOneReal {S : Shape} (v : S.Idx → EReal) : Prop := ∀ i, ∃ r : ℝ, 1 ≤ r ∧ v i = (r : EReal)

/-- Every entry is a nonzero real number. -/
def NonzeroReal {S : Shape} (v : S.Idx → EReal) : Prop := ∀ i, ∃ r : ℝ, r ≠ 0 ∧ v i = (r : EReal)

theorem NonnegReal.allReal {S : Shape} {v : S.Idx → EReal} (h : NonnegReal v) : AllReal v :=
  fun i => let ⟨r, _, e⟩ := h i; ⟨r, e⟩

theorem PosReal.nonnegReal {S : Shape} {v : S.Idx → EReal} (h : PosReal v) : NonnegReal v :=
  fun i => let ⟨r, hr, e⟩ := h i; ⟨r, hr.le, e⟩

theorem PosReal.allReal {S : Shape} {v : S.Idx → EReal} (h : PosReal v) : AllReal v := h.nonnegReal.allReal

theorem PosReal.nonzeroReal {S : Shape} {v : S.Idx → EReal} (h : PosReal v) : NonzeroReal v :=
  fun i => let ⟨r, hr, e⟩ := h i; ⟨r, hr.ne', e⟩

theorem GeOneReal.posReal {S : Shape} {v : S.Idx → EReal} (h : GeOneReal v) : PosReal v :=
  fun i => let ⟨r, hr, e⟩ := h i; ⟨r, lt_of_lt_of_le one_pos hr, e⟩

theorem GeOneReal.allReal {S : Shape} {v : S.Idx → EReal} (h : GeOneReal v) : AllReal v := h.posReal.allReal

theorem NonzeroReal.allReal {S : Shape} {v : S.Idx → EReal} (h : NonzeroReal v) : AllReal v :=
  fun i => let ⟨r, _, e⟩ := h i; ⟨r, e⟩

/-! ## Finite sums of real numbers -/

/-- The inclusion of the reals in the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number: the sum of the witnesses. -/
theorem sum_real {ι : Type*} (s : Finset ι) (f : ι → EReal) (g : ι → ℝ) (h : ∀ i, f i = (g i : EReal)) :
    ∑ i ∈ s, f i = ((∑ i ∈ s, g i : ℝ) : EReal) := by
  rw [coe_finset_sum]; exact Finset.sum_congr rfl fun i _ => h i

/-! ## Re-indexings: an entry of the result is an entry of the operand

A broadcast, a reshape, a slice and a gather all read the operand at an index computed from the result's index (for a
gather, from the start indices too, clamped into range): whatever that index is, the entry there is an entry of the
operand. -/

theorem AllReal.reindex {S T : Shape} {v : S.Idx → EReal} (h : AllReal v) (f : T.Idx → S.Idx) :
    AllReal (S := T) fun j => v (f j) := fun j => h (f j)
theorem NonnegReal.reindex {S T : Shape} {v : S.Idx → EReal} (h : NonnegReal v) (f : T.Idx → S.Idx) :
    NonnegReal (S := T) fun j => v (f j) := fun j => h (f j)
theorem PosReal.reindex {S T : Shape} {v : S.Idx → EReal} (h : PosReal v) (f : T.Idx → S.Idx) :
    PosReal (S := T) fun j => v (f j) := fun j => h (f j)
theorem GeOneReal.reindex {S T : Shape} {v : S.Idx → EReal} (h : GeOneReal v) (f : T.Idx → S.Idx) :
    GeOneReal (S := T) fun j => v (f j) := fun j => h (f j)
theorem NonzeroReal.reindex {S T : Shape} {v : S.Idx → EReal} (h : NonzeroReal v) (f : T.Idx → S.Idx) :
    NonzeroReal (S := T) fun j => v (f j) := fun j => h (f j)

section Layout
variable {S T : Shape} {v : S.Idx → EReal}

/-- A broadcast along any axes (every broadcast record). -/
theorem AllReal.broadcastInDim (h : AllReal v) (dims : Fin S.rank → Fin T.rank) (hb : S.BroadcastsInDim T dims) :
    AllReal (broadcastInDim T dims hb v) := fun _ => h _
theorem NonnegReal.broadcastInDim (h : NonnegReal v) (dims : Fin S.rank → Fin T.rank) (hb : S.BroadcastsInDim T dims) :
    NonnegReal (broadcastInDim T dims hb v) := fun _ => h _
theorem PosReal.broadcastInDim (h : PosReal v) (dims : Fin S.rank → Fin T.rank) (hb : S.BroadcastsInDim T dims) :
    PosReal (broadcastInDim T dims hb v) := fun _ => h _
theorem GeOneReal.broadcastInDim (h : GeOneReal v) (dims : Fin S.rank → Fin T.rank) (hb : S.BroadcastsInDim T dims) :
    GeOneReal (broadcastInDim T dims hb v) := fun _ => h _
theorem NonzeroReal.broadcastInDim (h : NonzeroReal v) (dims : Fin S.rank → Fin T.rank) (hb : S.BroadcastsInDim T dims) :
    NonzeroReal (broadcastInDim T dims hb v) := fun _ => h _

/-- A reshape (every shape-cast record). -/
theorem AllReal.shapeCast (h : AllReal v) (hc : S.ShapeCasts T) : AllReal (shapeCast T v hc) := fun _ => h _
theorem NonnegReal.shapeCast (h : NonnegReal v) (hc : S.ShapeCasts T) : NonnegReal (shapeCast T v hc) := fun _ => h _
theorem PosReal.shapeCast (h : PosReal v) (hc : S.ShapeCasts T) : PosReal (shapeCast T v hc) := fun _ => h _

/-- A gather: each entry of the result is the operand's entry at the clamped start plus the offset. -/
theorem AllReal.gather {si : Shape} {w : Nat} (h : AllReal v) (d : GatherDims S si T) (idx : IVec si w) :
    AllReal (Host.gather d v idx) := fun _ => h _
theorem NonnegReal.gather {si : Shape} {w : Nat} (h : NonnegReal v) (d : GatherDims S si T) (idx : IVec si w) :
    NonnegReal (Host.gather d v idx) := fun _ => h _
theorem PosReal.gather {si : Shape} {w : Nat} (h : PosReal v) (d : GatherDims S si T) (idx : IVec si w) :
    PosReal (Host.gather d v idx) := fun _ => h _

end Layout

/-! ## Constants

A constant array holds one word everywhere; which real number the word denotes is a fact about the word. -/

/-- The single-precision word of one is the real number one. -/
theorem ofBits_one_f32_coe : Ideal.ofBits .f32 0x3F800000#32 = ((1 : ℝ) : EReal) := by
  rw [Ideal.ofBits_one_f32, EReal.coe_one]

/-- The all-zero single-precision word is the real number zero. -/
theorem ofBits_zero_f32_coe : Ideal.ofBits .f32 0x00000000#32 = ((0 : ℝ) : EReal) := by
  rw [Ideal.ofBits_zero_f32, EReal.coe_zero]

/-- The word 0x47435000 (exponent 142, fraction 4411392) is the real number 12800000 · 2⁻⁸ = 50000: the number of rows
    a column mean divides by. -/
theorem ofBits_rows_f32_coe : Ideal.ofBits .f32 0x47435000#32 = ((50000 : ℝ) : EReal) := by
  simp [Ideal.ofBits, Ideal.ieee, -EReal.coe_mul]; norm_num

/-- The word 0x3727C5AC (exponent 110, fraction 2606508) is a positive real number, 10995116 · 2⁻⁴⁰: the ε a variance
    is shifted by before its reciprocal square root. -/
theorem ofBits_eps_f32_pos : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

section Constants
variable {S : Shape} {φ : FTy} {b : BitVec φ.bits}

theorem AllReal.constant (h : ∃ r : ℝ, Ideal.ofBits φ b = (r : EReal)) : AllReal (constant (F := Ideal) S φ b) :=
  fun _ => h
theorem NonnegReal.constant (h : ∃ r : ℝ, 0 ≤ r ∧ Ideal.ofBits φ b = (r : EReal)) :
    NonnegReal (constant (F := Ideal) S φ b) := fun _ => h
theorem PosReal.constant (h : ∃ r : ℝ, 0 < r ∧ Ideal.ofBits φ b = (r : EReal)) :
    PosReal (constant (F := Ideal) S φ b) := fun _ => h
theorem GeOneReal.constant (h : ∃ r : ℝ, 1 ≤ r ∧ Ideal.ofBits φ b = (r : EReal)) :
    GeOneReal (constant (F := Ideal) S φ b) := fun _ => h

end Constants

/-- The constant one: every entry is a real number at least one. -/
theorem geOneReal_one (S : Shape) : GeOneReal (constant (F := Ideal) S .f32 0x3F800000#32) :=
  GeOneReal.constant ⟨1, le_refl _, ofBits_one_f32_coe⟩
/-- The constant zero: every entry is a nonnegative real number. -/
theorem nonnegReal_zero (S : Shape) : NonnegReal (constant (F := Ideal) S .f32 0x00000000#32) :=
  NonnegReal.constant ⟨0, le_refl _, ofBits_zero_f32_coe⟩
/-- The constant 50000: every entry is a positive real number. -/
theorem posReal_rows (S : Shape) : PosReal (constant (F := Ideal) S .f32 0x47435000#32) :=
  PosReal.constant ⟨50000, by norm_num, ofBits_rows_f32_coe⟩
/-- The constant ε: every entry is a positive real number. -/
theorem posReal_eps (S : Shape) : PosReal (constant (F := Ideal) S .f32 0x3727C5AC#32) :=
  PosReal.constant ofBits_eps_f32_pos

/-- An integer read as a float is that integer, a real number. -/
theorem allReal_sitofp {S : Shape} {w : Nat} (φ : FTy) (x : IVec S w) : AllReal (sitofp (F := Ideal) φ x) :=
  fun i => ⟨((x i).toInt : ℝ), rfl⟩

/-- The integer zero read as a float is the real number zero. -/
theorem sitofp_zero_apply {S : Shape} (φ : FTy) (i : S.Idx) :
    sitofp (F := Ideal) φ (constantI S 32 0#32) i = ((0 : ℝ) : EReal) := by
  show ((((0#32 : BitVec 32).toInt : ℤ) : ℝ) : EReal) = _
  norm_num

/-! ## Sums, differences and products entry by entry -/

section Pointwise
variable {S : Shape} {φ : FTy} {x y : FVec Ideal S φ}

theorem AllReal.addf (hx : AllReal x) (hy : AllReal y) : AllReal (addf (F := Ideal) x y) := fun i => by
  obtain ⟨a, ha⟩ := hx i; obtain ⟨b, hb⟩ := hy i
  exact ⟨a + b, by show x i + y i = _; rw [ha, hb, EReal.coe_add]⟩

theorem AllReal.subf (hx : AllReal x) (hy : AllReal y) : AllReal (subf (F := Ideal) x y) := fun i => by
  obtain ⟨a, ha⟩ := hx i; obtain ⟨b, hb⟩ := hy i
  exact ⟨a - b, by show x i - y i = _; rw [ha, hb, EReal.coe_sub]⟩

theorem AllReal.mulf (hx : AllReal x) (hy : AllReal y) : AllReal (mulf (F := Ideal) x y) := fun i => by
  obtain ⟨a, ha⟩ := hx i; obtain ⟨b, hb⟩ := hy i
  exact ⟨a * b, by show x i * y i = _; rw [ha, hb, EReal.coe_mul]⟩

theorem NonnegReal.addf (hx : NonnegReal x) (hy : NonnegReal y) : NonnegReal (addf (F := Ideal) x y) := fun i => by
  obtain ⟨a, ha0, ha⟩ := hx i; obtain ⟨b, hb0, hb⟩ := hy i
  exact ⟨a + b, add_nonneg ha0 hb0, by show x i + y i = _; rw [ha, hb, EReal.coe_add]⟩

theorem NonnegReal.mulf (hx : NonnegReal x) (hy : NonnegReal y) : NonnegReal (mulf (F := Ideal) x y) := fun i => by
  obtain ⟨a, ha0, ha⟩ := hx i; obtain ⟨b, hb0, hb⟩ := hy i
  exact ⟨a * b, mul_nonneg ha0 hb0, by show x i * y i = _; rw [ha, hb, EReal.coe_mul]⟩

theorem PosReal.mulf (hx : PosReal x) (hy : PosReal y) : PosReal (mulf (F := Ideal) x y) := fun i => by
  obtain ⟨a, ha0, ha⟩ := hx i; obtain ⟨b, hb0, hb⟩ := hy i
  exact ⟨a * b, mul_pos ha0 hb0, by show x i * y i = _; rw [ha, hb, EReal.coe_mul]⟩

/-- The square of a real number is a nonnegative real number. -/
theorem AllReal.mulf_self (hx : AllReal x) : NonnegReal (Idealize.ShloMosaic.mulf (F := Ideal) x x) := fun i => by
  obtain ⟨a, ha⟩ := hx i
  exact ⟨a * a, mul_self_nonneg a, by show x i * x i = _; rw [ha, EReal.coe_mul]⟩

/-- A nonnegative real number plus a real number at least one is at least one: a count plus the self-loop's one. -/
theorem NonnegReal.addf_geOne (hx : NonnegReal x) (hy : GeOneReal y) :
    GeOneReal (Idealize.ShloMosaic.addf (F := Ideal) x y) := fun i => by
  obtain ⟨a, ha0, ha⟩ := hx i; obtain ⟨b, hb1, hb⟩ := hy i
  exact ⟨a + b, by linarith, by show x i + y i = _; rw [ha, hb, EReal.coe_add]⟩

/-- A nonnegative real number plus a positive one is positive: a variance plus ε. -/
theorem NonnegReal.addf_pos (hx : NonnegReal x) (hy : PosReal y) :
    PosReal (Idealize.ShloMosaic.addf (F := Ideal) x y) := fun i => by
  obtain ⟨a, ha0, ha⟩ := hx i; obtain ⟨b, hb0, hb⟩ := hy i
  exact ⟨a + b, by linarith, by show x i + y i = _; rw [ha, hb, EReal.coe_add]⟩

/-- A positive real number minus zero is positive: the row count minus the zero degrees of freedom. -/
theorem PosReal.subf_zero (hx : PosReal x) (hy : ∀ i, y i = ((0 : ℝ) : EReal)) : PosReal (subf (F := Ideal) x y) :=
  fun i => by
    obtain ⟨a, ha0, ha⟩ := hx i
    exact ⟨a - 0, by linarith, by show x i - y i = _; rw [ha, hy i, EReal.coe_sub]⟩

/-! ## A maximum and a selection -/

/-- The larger of two real numbers, taken among the extended reals, is the larger taken among the reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem AllReal.maximumf (hx : AllReal x) (hy : AllReal y) : AllReal (maximumf (F := Ideal) x y) := fun i => by
  obtain ⟨a, ha⟩ := hx i; obtain ⟨b, hb⟩ := hy i
  exact ⟨max a b, by show max (x i) (y i) = _; rw [ha, hb, max_coe]⟩

/-- The larger of a real number and a nonnegative one (the rectifier's zero) is nonnegative. -/
theorem AllReal.maximumf_nonneg (hx : AllReal x) (hy : NonnegReal y) :
    NonnegReal (Idealize.ShloMosaic.maximumf (F := Ideal) x y) :=
  fun i => by
    obtain ⟨a, ha⟩ := hx i; obtain ⟨b, hb0, hb⟩ := hy i
    exact ⟨max a b, le_trans hb0 (le_max_right a b), by show max (x i) (y i) = _; rw [ha, hb, max_coe]⟩

end Pointwise

section Select
variable {S : Shape}

/-- A selection between two arrays of real numbers, under any predicate, is an array of real numbers. -/
theorem AllReal.select {a b : S.Idx → EReal} (c : IVec S 1) (ha : AllReal a) (hb : AllReal b) :
    AllReal (select c a b) := fun i => by
  show ∃ r : ℝ, (if c i = 1 then a i else b i) = (r : EReal)
  split
  · exact ha i
  · exact hb i

/-- Where the predicate holds everywhere, a selection IS its first branch, whatever the second holds (a junk value,
    for instance). -/
theorem select_eq_left {α : Type} (c : IVec S 1) (a b : S.Idx → α) (hc : ∀ i, c i = 1#1) : select c a b = a :=
  funext fun i => by
    show (if c i = 1 then a i else b i) = a i
    exact if_pos (hc i)

/-- A broadcast of a predicate that holds everywhere holds everywhere. -/
theorem broadcastInDim_eq_one {T : Shape} (p : IVec S 1) (dims : Fin S.rank → Fin T.rank)
    (hb : S.BroadcastsInDim T dims) (hp : ∀ i, p i = 1#1) (j : T.Idx) : broadcastInDim T dims hb p j = 1#1 := hp _

/-- "Greater than" between a positive real number and zero holds. -/
theorem cmpf_ogt_pos_zero {φ : FTy} {x y : FVec Ideal S φ} (hx : PosReal x) (hy : ∀ i, y i = 0) (i : S.Idx) :
    cmpf (F := Ideal) .ogt x y i = 1#1 := by
  obtain ⟨a, ha0, ha⟩ := hx i
  have hlt : y i < x i := by rw [hy i, ha]; exact EReal.coe_pos.mpr ha0
  show BitVec.ofBool (decide (y i < x i)) = 1#1
  rw [decide_eq_true hlt]; rfl

end Select

/-! ## An entry plus a finite sum of entries: a scatter-add and a sum along an axis

At an index, a scatter-add is the operand's entry plus the sum of the updates that land there (none, if every start index
falls outside), and a sum along an axis is the initial value plus the sum of the entries that reduce there. Which
updates land where depends on the integer operands; that the result is a real number does not. -/

/-- A real number plus a finite sum of real numbers is a real number. -/
theorem add_sum_isReal {ι : Type*} (s : Finset ι) (f : ι → EReal) (x : EReal) (hx : ∃ a : ℝ, x = (a : EReal))
    (hf : ∀ i, ∃ r : ℝ, f i = (r : EReal)) : ∃ r : ℝ, x + ∑ i ∈ s, f i = (r : EReal) := by
  obtain ⟨a, ha⟩ := hx
  choose g hg using hf
  exact ⟨a + ∑ i ∈ s, g i, by rw [ha, sum_real s f g hg, EReal.coe_add]⟩

/-- A nonnegative real number plus a finite sum of nonnegative real numbers is a nonnegative real number. -/
theorem add_sum_isNonnegReal {ι : Type*} (s : Finset ι) (f : ι → EReal) (x : EReal)
    (hx : ∃ a : ℝ, 0 ≤ a ∧ x = (a : EReal)) (hf : ∀ i, ∃ r : ℝ, 0 ≤ r ∧ f i = (r : EReal)) :
    ∃ r : ℝ, 0 ≤ r ∧ x + ∑ i ∈ s, f i = (r : EReal) := by
  obtain ⟨a, ha0, ha⟩ := hx
  choose g hg0 hg using hf
  exact ⟨a + ∑ i ∈ s, g i, add_nonneg ha0 (Finset.sum_nonneg fun i _ => hg0 i),
    by rw [ha, sum_real s f g hg, EReal.coe_add]⟩

section ScatterReduce
variable {S T U si su : Shape} {φ : FTy} {w : Nat}

/-- A scatter-add of real updates into a real operand, at any start indices (every scatter record). -/
theorem AllReal.scatterAdd {x : FVec Ideal S φ} {upd : FVec Ideal su φ} (hx : AllReal x) (hu : AllReal upd)
    (d : ScatterDims S si su) (idx : IVec si w) : AllReal (Host.scatterAdd (F := Ideal) d x idx upd) := fun i => by
  show ∃ r : ℝ, Ideal.hostScatterAdd d x idx upd i = (r : EReal)
  unfold Ideal.hostScatterAdd
  exact add_sum_isReal _ _ _ (hx i) hu

/-- A scatter-add of nonnegative real updates into a nonnegative real operand, at any start indices: a count. -/
theorem NonnegReal.scatterAdd {x : FVec Ideal S φ} {upd : FVec Ideal su φ} (hx : NonnegReal x) (hu : NonnegReal upd)
    (d : ScatterDims S si su) (idx : IVec si w) : NonnegReal (Host.scatterAdd (F := Ideal) d x idx upd) := fun i => by
  show ∃ r : ℝ, 0 ≤ r ∧ Ideal.hostScatterAdd d x idx upd i = (r : EReal)
  unfold Ideal.hostScatterAdd
  exact add_sum_isNonnegReal _ _ _ (hx i) hu

/-- A sum of real numbers along any axes from a real initial value (every reduce record). -/
theorem AllReal.reduceAdd {axes : List (Fin S.rank)} {x : FVec Ideal S φ} {init : U.Idx → Ideal φ} (hx : AllReal x)
    (hi : AllReal init) (h : S.ReducesTo axes T) (hu : 0 < U.numel) :
    AllReal (Host.reduceAdd (F := Ideal) x init h hu) := fun j => by
  show ∃ r : ℝ, Ideal.hostReduceAdd h x (init (Shape.Idx.first hu)) j = (r : EReal)
  unfold Ideal.hostReduceAdd
  exact add_sum_isReal _ _ _ (hi _) hx

/-- A sum of nonnegative real numbers along any axes from a nonnegative real initial value. -/
theorem NonnegReal.reduceAdd {axes : List (Fin S.rank)} {x : FVec Ideal S φ} {init : U.Idx → Ideal φ}
    (hx : NonnegReal x) (hi : NonnegReal init) (h : S.ReducesTo axes T) (hu : 0 < U.numel) :
    NonnegReal (Host.reduceAdd (F := Ideal) x init h hu) := fun j => by
  show ∃ r : ℝ, 0 ≤ r ∧ Ideal.hostReduceAdd h x (init (Shape.Idx.first hu)) j = (r : EReal)
  unfold Ideal.hostReduceAdd
  exact add_sum_isNonnegReal _ _ _ (hi _) hx

end ScatterReduce

/-! ## A quotient by a nonzero real number, and the reciprocal square root of a positive one -/

section DivRsqrt
variable {S : Shape} {φ : FTy} {x y : FVec Ideal S φ}

/-- A real number over a nonzero real number is their real quotient. -/
theorem AllReal.hostDivf (hx : AllReal x) (hy : NonzeroReal y) : AllReal (Host.divf (F := Ideal) x y) := fun i => by
  obtain ⟨a, ha⟩ := hx i; obtain ⟨b, hb0, hb⟩ := hy i
  refine ⟨a * (1 / b), ?_⟩
  show Ideal.div (x i) (y i) = _
  rw [ha, hb, Ideal.div_coe hb0, EReal.coe_mul]

/-- A nonnegative real number over a positive one is nonnegative. -/
theorem NonnegReal.hostDivf (hx : NonnegReal x) (hy : PosReal y) : NonnegReal (Host.divf (F := Ideal) x y) :=
  fun i => by
    obtain ⟨a, ha0, ha⟩ := hx i; obtain ⟨b, hb0, hb⟩ := hy i
    refine ⟨a * (1 / b), mul_nonneg ha0 (one_div_nonneg.mpr hb0.le), ?_⟩
    show Ideal.div (x i) (y i) = _
    rw [ha, hb, Ideal.div_coe hb0.ne', EReal.coe_mul]

/-- The reciprocal square root of a positive real number r is the positive real number (√r)⁻¹ (at zero it would be +∞,
    below zero a junk value). -/
theorem rsqrt_pos_coe {a : ℝ} (ha : 0 < a) : Ideal.rsqrt (a : EReal) = (((Real.sqrt a)⁻¹ : ℝ) : EReal) := by
  rw [Ideal.rsqrt_coe, if_neg (not_lt.mpr ha.le), if_neg ha.ne']

/-- The host's reciprocal square root of positive real numbers: positive real numbers. -/
theorem PosReal.hostRsqrt (hx : PosReal x) : PosReal (Host.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, rsqrt_pos_coe ha0]

/-- A kernel body's reciprocal square root of positive real numbers, likewise. -/
theorem PosReal.rsqrt (hx : PosReal x) : PosReal (Idealize.ShloMosaic.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, rsqrt_pos_coe ha0]

end DivRsqrt

/-! ## A contraction: a finite sum of products -/

/-- A finite sum of products of real numbers is a real number. -/
theorem sum_mul_isReal {ι : Type*} (s : Finset ι) (f g : ι → EReal) (hf : ∀ k, ∃ r : ℝ, f k = (r : EReal))
    (hg : ∀ k, ∃ r : ℝ, g k = (r : EReal)) : ∃ r : ℝ, ∑ k ∈ s, f k * g k = (r : EReal) := by
  choose a ha using hf
  choose b hb using hg
  exact ⟨∑ k ∈ s, a k * b k, sum_real s _ _ fun k => by rw [ha k, hb k, EReal.coe_mul]⟩

/-- A matrix product written as a sum over the inner coordinate: entry (r, q) of x·w is a real number. -/
theorem AllReal.dot_ix2 {m k n : Nat} {x : (⟨2, ![m, k]⟩ : Shape).Idx → EReal}
    {w : (⟨2, ![k, n]⟩ : Shape).Idx → EReal} (hx : AllReal x) (hw : AllReal w) (r : Fin m) (q : Fin n) :
    ∃ s : ℝ, ∑ t : Fin k, x (ValueIdx.ix2 r t) * w (ValueIdx.ix2 t q) = (s : EReal) :=
  sum_mul_isReal _ _ _ (fun _ => hx _) (fun _ => hw _)

section Contraction
variable {sl sr so : Shape}

/-- A matrix unit's product into an accumulator, over any contraction record. -/
theorem AllReal.matmul {lhs : sl.Idx → EReal} {rhs : sr.Idx → EReal} {acc : so.Idx → EReal} (hl : AllReal lhs)
    (hr : AllReal rhs) (ha : AllReal acc) (d : DotDims sl sr so) : AllReal (Ideal.matmul d lhs rhs acc) := fun j => by
  obtain ⟨a, ha'⟩ := ha j
  obtain ⟨p, hp⟩ := sum_mul_isReal Finset.univ (fun k => lhs (d.lhsIdx j k)) (fun k => rhs (d.rhsIdx j k))
    (fun _ => hl _) (fun _ => hr _)
  exact ⟨a + p, by unfold Ideal.matmul; rw [ha', hp, EReal.coe_add]⟩

/-- A matrix unit's pass with no accumulator, over any contraction record. -/
theorem AllReal.mxuPass {lhs : sl.Idx → EReal} {rhs : sr.Idx → EReal} (hl : AllReal lhs) (hr : AllReal rhs)
    (d : DotDims sl sr so) : AllReal (Ideal.mxuPass d lhs rhs) := fun j => by
  unfold Ideal.mxuPass
  exact sum_mul_isReal Finset.univ (fun k => lhs (d.lhsIdx j k)) (fun k => rhs (d.rhsIdx j k)) (fun _ => hl _)
    (fun _ => hr _)

/-- The host's general contraction, over any contraction record, precision and schedule. -/
theorem AllReal.dotGeneral {φ₁ φ₂ : FTy} {lhs : FVec Ideal sl φ₁} {rhs : FVec Ideal sr φ₂} (hl : AllReal lhs)
    (hr : AllReal rhs) (d : DotDims sl sr so) (prec : Option ContractPrecision) (sched : HostSchedule) :
    AllReal (FloatOps.dotGeneral d prec sched lhs rhs) := fun j => by
  rw [Ideal.dotGeneral_apply]
  exact sum_mul_isReal Finset.univ (fun k => lhs (d.lhsIdx j k)) (fun k => rhs (d.rhsIdx j k)) (fun _ => hl _)
    (fun _ => hr _)

end Contraction

/-! ## The two positivity facts a layer needs

(i) A node's degree is a count of edges plus one for its self-loop, so it is at least one and its reciprocal square root
is a positive real number, whatever the edge list. (ii) A column's variance, the mean of squared deviations from any
real centre, is a nonnegative real number, so after the shift by a positive ε its reciprocal square root is a positive
real number. -/

section Degree
variable {S si su : Shape} {φ : FTy} {w : Nat} {zeros ones' : FVec Ideal S φ} {ones : FVec Ideal su φ}

/-- A count (a scatter-add of nonnegative numbers into nonnegative numbers, at any indices) plus a number at least one
    is at least one. -/
theorem geOneReal_degree (d : ScatterDims S si su) (idx : IVec si w) (hz : NonnegReal zeros) (ho : NonnegReal ones)
    (ho' : GeOneReal ones') :
    GeOneReal (addf (F := Ideal) (Host.scatterAdd (F := Ideal) d zeros idx ones) ones') :=
  (hz.scatterAdd ho d idx).addf_geOne ho'

/-- The reciprocal square root of a degree is a positive real number. -/
theorem posReal_rsqrt_degree (d : ScatterDims S si su) (idx : IVec si w) (hz : NonnegReal zeros) (ho : NonnegReal ones)
    (ho' : GeOneReal ones') :
    PosReal (Host.rsqrt (F := Ideal) (addf (F := Ideal) (Host.scatterAdd (F := Ideal) d zeros idx ones) ones')) :=
  (geOneReal_degree d idx hz ho ho').posReal.hostRsqrt

end Degree

/-- The same with the operands as a layer writes them: zeros and ones are broadcasts of the constant words, under any
    broadcast records. -/
theorem posReal_rsqrt_degree_of_constants {S0 S si su : Shape} {w : Nat} (d : ScatterDims S si su) (idx : IVec si w)
    (dz : Fin S0.rank → Fin S.rank) (bz : S0.BroadcastsInDim S dz) (du : Fin S0.rank → Fin su.rank)
    (bu : S0.BroadcastsInDim su du) :
    PosReal (Host.rsqrt (F := Ideal) (addf (F := Ideal)
      (Host.scatterAdd (F := Ideal) d (broadcastInDim S dz bz (constant (F := Ideal) S0 .f32 0x00000000#32)) idx
        (broadcastInDim su du bu (constant (F := Ideal) S0 .f32 0x3F800000#32)))
      (broadcastInDim S dz bz (constant (F := Ideal) S0 .f32 0x3F800000#32)))) :=
  posReal_rsqrt_degree d idx ((nonnegReal_zero S0).broadcastInDim dz bz)
    ((geOneReal_one S0).posReal.nonnegReal.broadcastInDim du bu) ((geOneReal_one S0).broadcastInDim dz bz)

section Variance
variable {S T U : Shape} {φ : FTy} {axes : List (Fin S.rank)} {a m : FVec Ideal S φ} {init : U.Idx → Ideal φ}
  {n e : FVec Ideal T φ}

/-- A column mean: the sum of real entries from a real initial value, over a nonzero real count, is a real number. -/
theorem allReal_mean (h : S.ReducesTo axes T) (hu : 0 < U.numel) (ha : AllReal a) (hi : AllReal init)
    (hn : NonzeroReal n) : AllReal (Host.divf (F := Ideal) (Host.reduceAdd (F := Ideal) a init h hu) n) :=
  (ha.reduceAdd hi h hu).hostDivf hn

/-- A column variance: the sum of the squared deviations of real entries from any real centre, from a nonnegative
    initial value, over a positive real count, is a nonnegative real number. -/
theorem nonnegReal_variance (h : S.ReducesTo axes T) (hu : 0 < U.numel) (ha : AllReal a) (hm : AllReal m)
    (hi : NonnegReal init) (hn : PosReal n) :
    NonnegReal (Host.divf (F := Ideal)
      (Host.reduceAdd (F := Ideal) (mulf (F := Ideal) (subf (F := Ideal) a m) (subf (F := Ideal) a m)) init h hu) n) :=
  ((ha.subf hm).mulf_self.reduceAdd hi h hu).hostDivf hn

/-- The reciprocal square root of a nonnegative real number shifted by a positive one is a positive real number. -/
theorem posReal_rsqrt_shifted {v : FVec Ideal T φ} (hv : NonnegReal v) (he : PosReal e) :
    PosReal (Host.rsqrt (F := Ideal) (addf (F := Ideal) v e)) := (hv.addf_pos he).hostRsqrt

/-- The reciprocal standard deviation of a column: the reciprocal square root of its variance plus a positive ε is a
    positive real number. -/
theorem posReal_rsqrt_variance_eps (h : S.ReducesTo axes T) (hu : 0 < U.numel) (ha : AllReal a) (hm : AllReal m)
    (hi : NonnegReal init) (hn : PosReal n) (he : PosReal e) :
    PosReal (Host.rsqrt (F := Ideal) (addf (F := Ideal) (Host.divf (F := Ideal)
      (Host.reduceAdd (F := Ideal) (mulf (F := Ideal) (subf (F := Ideal) a m) (subf (F := Ideal) a m)) init h hu) n) e)) :=
  posReal_rsqrt_shifted (nonnegReal_variance h hu ha hm hi hn) he

end Variance

end Cert.GcnReal
-- ==== Proof.GateReal.lean ====
/-
  The gate, and the spatial means, are real where the inputs are.

  On the extended reals the algebra that joins the two programs (distributing a factor over a sum, cancelling a divisor)
  holds only at real numbers, so "every entry is a real number" is carried from the arguments through the spatial means,
  the two contractions of the excitation, the rectifier, and the sigmoid 1 / (1 + exp(−t)): exp of a real is a positive
  real, one plus it is a positive real, and its reciprocal is a real.
-/
import proofs.«122134_j12670153523753_2_alg».proof.Proof.KernelTail
import proofs.«122134_j12670153523753_2_alg».proof.Proof.LibRealEntries

noncomputable section

namespace Cert.KernelIdeal.Tail

open Cert.KernelIdeal Cert.KernelIdeal.Gen Cert.GcnReal
open Idealize.ShloMosaic

/-- The negative of real entries: real entries. -/
theorem allReal_neg {S : Shape} {x : FVec Ideal S .f32} (hx : AllReal x) : AllReal (Host.negf (F := Ideal) x) := fun i => by
  obtain ⟨a, ha⟩ := hx i
  exact ⟨-a, by show -(x i) = _; rw [ha, EReal.coe_neg]⟩

/-- The exponential of real entries: positive real entries. -/
theorem posReal_exp {S : Shape} {x : FVec Ideal S .f32} (hx : AllReal x) : PosReal (Host.exp (F := Ideal) x) := fun i => by
  obtain ⟨a, ha⟩ := hx i
  refine ⟨Real.exp a, Real.exp_pos a, ?_⟩
  show Ideal.exp (x i) = _
  rw [ha, Ideal.exp_coe]

/-- A transpose of real entries: real entries. -/
theorem allReal_transpose {S T : Shape} {x : FVec Ideal S .f32} (hx : AllReal x) (perm : List (Fin S.rank))
    (h : S.Transposes perm T) : AllReal (transpose T perm x h) := fun _ => hx _

/-- The gate of real means and real weights has real entries. -/
theorem allReal_gateK {s : FVec Ideal S32x512 .f32} {w1 : FVec Ideal S32x512 .f32} {w2 : FVec Ideal S512x32 .f32}
    (hs : AllReal s) (h1 : AllReal w1) (h2 : AllReal w2) : AllReal (gateK s w1 w2) := by
  have hv8 := allReal_transpose h1 [1, 0] transposes_S32x512_S512x32_1_0
  have hv9 := AllReal.dotGeneral (φ₁ := .f32) (φ₂ := .f32) hs hv8 dot_S32x512_S512x32_S32x32_1_0_0_1_n_n none .single
  have hr0 : AllReal (broadcastInDim S32x32 ![] bcast_S_S32x32 (constant (F := Ideal) S_ .f32 0x00000000#32)) :=
    (AllReal.constant ⟨0, ofBits_zero_f32_coe⟩).broadcastInDim _ _
  have hv10 := AllReal.maximumf hv9 hr0
  have hv11 := allReal_transpose h2 [1, 0] transposes_S512x32_S32x512_1_0
  have hv12 := AllReal.dotGeneral (φ₁ := .f32) (φ₂ := .f32) hv10 hv11 dot_S32x32_S32x512_S32x512_1_0_0_1_n_n none .single
  have hv14 := posReal_exp (allReal_neg hv12)
  have hone : GeOneReal (broadcastInDim S32x512 ![] bcast_S_S32x512 (constant (F := Ideal) S_ .f32 0x3F800000#32)) :=
    (geOneReal_one S_).broadcastInDim _ _
  have hv16 : PosReal (addf (F := Ideal) (broadcastInDim S32x512 ![] bcast_S_S32x512 (constant (F := Ideal) S_ .f32 0x3F800000#32))
      (Host.exp (F := Ideal) (Host.negf (F := Ideal) (Host.dotGeneral (F := Ideal) dot_S32x32_S32x512_S32x512_1_0_0_1_n_n none
        (maximumf (Host.dotGeneral (F := Ideal) dot_S32x512_S512x32_S32x32_1_0_0_1_n_n none s (transpose S512x32 [1, 0] w1 transposes_S32x512_S512x32_1_0))
          (broadcastInDim S32x32 ![] bcast_S_S32x32 (constant (F := Ideal) S_ .f32 0x00000000#32)))
        (transpose S32x512 [1, 0] w2 transposes_S512x32_S32x512_1_0))))) := fun i => by
    obtain ⟨a, ha1, ha⟩ := hone i
    obtain ⟨b, hb0, hb⟩ := hv14 i
    exact ⟨a + b, by linarith, by show _ + _ = _; rw [ha, hb, EReal.coe_add]⟩
  exact AllReal.hostDivf hone.allReal hv16.nonzeroReal

end Cert.KernelIdeal.Tail

end
-- ==== Proof.RefRun.lean ====
/-
  The reference program's run, read back.

  The reference computes, for an input x of shape 32×512×56×56 (batch, channel, height, width):
    * the squeeze: s = the mean of x over the 56·56 = 3136 spatial positions, per (batch, channel);
    * the excitation gate: e = 1 / (1 + exp (-(relu (s · w1ᵀ) · w2ᵀ))), a sigmoid of a two-layer
      perceptron of the squeezed vector, relu u = max u 0;
    * the gated input y = x · e (e repeated over the spatial positions);
    * the batch-norm statistics of y per channel over the 32·56·56 = 100352 (batch, position) pairs:
      the mean μ = Σ y / 100352 and the variance σ² = Σ (y - μ)² / (100352 - 0), the divisor's
      correction term 0 converted from an integer, the quotient kept where the divisor is positive
      and replaced by a not-a-number constant otherwise;
    * the normalized, scaled and shifted tensor (y - μ) · (wt · rsqrt (σ² + ε)) + bs, ε = 1e-5;
    * its mean over the spatial positions, the 512 channels read as 2 × 256, summed over the 2.

  Below: that result named as a composition of the program's own operations (sR, gate, postR,
  refOut); the program's operations as one list, the two outlined functions (and the function one
  of them calls) written out at their call sites; and the statement that every weakly fair
  execution ends with the result buffer at refOut of the arguments and the arguments unchanged.
-/
import proofs.«122134_j12670153523753_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The result as a composition -/

/-- The squeeze: the sum of x over the two spatial axes divided by 3136 = 56 · 56 (the constant
    0x45440000), per batch and channel. -/
def sR (x : FVec F S32x512x56x56 .f32) : FVec F S32x512 .f32 :=
  have cst : FVec F S_ .f32 := constant S_ .f32 0x00000000#32
  have v0 : FVec F S32x512 .f32 := Host.reduceAdd x cst reducesTo_S32x512x56x56_S32x512_d2_3 h_S_
  have cst_0 : FVec F S_ .f32 := constant S_ .f32 0x45440000#32
  have v1 : FVec F S32x512 .f32 := broadcastInDim S32x512 ![] bcast_S_S32x512 cst_0
  Host.divf v0 v1

/-- The excitation gate: 1 / (1 + exp (-(max (s · w1ᵀ) 0 · w2ᵀ))), the sigmoid of the two-layer
    perceptron, the products contracting the 512 channels and then the 32 hidden units. -/
def gate (s : FVec F S32x512 .f32) (w1 : FVec F S32x512 .f32) (w2 : FVec F S512x32 .f32) : FVec F S32x512 .f32 :=
  have v3 : FVec F S512x32 .f32 := transpose S512x32 [1, 0] w1 transposes_S32x512_S512x32_1_0
  have v4 : FVec F S32x32 .f32 := Host.dotGeneral dot_S32x512_S512x32_S32x32_1_0_0_1_n_n none s v3
  -- relu: the maximum with the zero constant repeated
  have r_cst : FVec F S_ .f32 := constant S_ .f32 0x00000000#32
  have r_v0 : FVec F S32x32 .f32 := broadcastInDim S32x32 ![] bcast_S_S32x32 r_cst
  have v5 : FVec F S32x32 .f32 := maximumf v4 r_v0
  have v6 : FVec F S32x512 .f32 := transpose S32x512 [1, 0] w2 transposes_S512x32_S32x512_1_0
  have v7 : FVec F S32x512 .f32 := Host.dotGeneral dot_S32x32_S32x512_S32x512_1_0_0_1_n_n none v5 v6
  have v8 : FVec F S32x512 .f32 := Host.negf v7
  have v9 : FVec F S32x512 .f32 := Host.exp v8
  have cst_1 : FVec F S_ .f32 := constant S_ .f32 0x3F800000#32
  have v10 : FVec F S32x512 .f32 := broadcastInDim S32x512 ![] bcast_S_S32x512 cst_1
  have v11 : FVec F S32x512 .f32 := addf v10 v9
  have cst_2 : FVec F S_ .f32 := constant S_ .f32 0x3F800000#32
  have v12 : FVec F S32x512 .f32 := broadcastInDim S32x512 ![] bcast_S_S32x512 cst_2
  Host.divf v12 v11

/-- From the gate e on: the gated input y = x · e, its per-channel mean and variance over batch and
    positions (100352 = 32 · 56 · 56, the constant 0x47C40000), the normalization
    (y - μ) · (wt · rsqrt (σ² + ε)) + bs, and the mean over positions summed over the pairs of channels
    k and k + 256. -/
def postR (e : FVec F S32x512 .f32) (x : FVec F S32x512x56x56 .f32) (wt bs : FVec F S512 .f32) : FVec F S32x256 .f32 :=
  have v14 : FVec F S32x512x1x1 .f32 := broadcastInDim S32x512x1x1 ![0, 1] bcast_S32x512_S32x512x1x1_0_1 e
  have v15 : FVec F S32x512x56x56 .f32 := broadcastInDim S32x512x56x56 ![0, 1, 2, 3] bcast_S32x512x1x1_S32x512x56x56_0_1_2_3 v14
  have v16 : FVec F S32x512x56x56 .f32 := mulf x v15
  -- the mean μ of y per channel
  have cst_3 : FVec F S_ .f32 := constant S_ .f32 0x00000000#32
  have v17 : FVec F S512 .f32 := Host.reduceAdd v16 cst_3 reducesTo_S32x512x56x56_S512_d0_2_3 h_S_
  have cst_4 : FVec F S_ .f32 := constant S_ .f32 0x47C40000#32
  have v18 : FVec F S512 .f32 := broadcastInDim S512 ![] bcast_S_S512 cst_4
  have v19 : FVec F S512 .f32 := Host.divf v17 v18
  have c : IVec S_ 32 := constantI S_ 32 0#32
  -- the variance of y per channel, with correction term c = 0: Σ (y - mean y)² / (100352 - c)
  have q_cst : FVec F S_ .f32 := constant S_ .f32 0x00000000#32
  have q_v0 : FVec F S512 .f32 := Host.reduceAdd v16 q_cst reducesTo_S32x512x56x56_S512_d0_2_3 h_S_
  have q_v1 : FVec F S1x512x1x1 .f32 := broadcastInDim S1x512x1x1 ![1] bcast_S512_S1x512x1x1_1 q_v0
  have q_cst_0 : FVec F S_ .f32 := constant S_ .f32 0x47C40000#32
  have q_v2 : FVec F S1x512x1x1 .f32 := broadcastInDim S1x512x1x1 ![] bcast_S_S1x512x1x1 q_cst_0
  have q_v3 : FVec F S1x512x1x1 .f32 := Host.divf q_v1 q_v2
  have q_v4 : FVec F S32x512x56x56 .f32 := broadcastInDim S32x512x56x56 ![0, 1, 2, 3] bcast_S1x512x1x1_S32x512x56x56_0_1_2_3 q_v3
  have q_v5 : FVec F S32x512x56x56 .f32 := subf v16 q_v4
  have q_v6 : FVec F S32x512x56x56 .f32 := mulf q_v5 q_v5
  have q_v7 : FVec F S_ .f32 := sitofp .f32 c
  have q_cst_1 : FVec F S_ .f32 := constant S_ .f32 0x47C40000#32
  have q_v8 : FVec F S_ .f32 := subf q_cst_1 q_v7
  have q_cst_2 : FVec F S_ .f32 := constant S_ .f32 0x00000000#32
  have q_v9 : FVec F S512 .f32 := Host.reduceAdd q_v6 q_cst_2 reducesTo_S32x512x56x56_S512_d0_2_3 h_S_
  have q_v10 : FVec F S512 .f32 := broadcastInDim S512 ![] bcast_S_S512 q_v8
  have q_v11 : FVec F S512 .f32 := Host.divf q_v9 q_v10
  have q_cst_3 : FVec F S_ .f32 := constant S_ .f32 0x00000000#32
  have q_v12 : IVec S_ 1 := cmpf .ogt q_v8 q_cst_3
  have q_cst_4 : FVec F S_ .f32 := constant S_ .f32 0x7FC00000#32
  -- the quotient where the divisor is positive, the not-a-number constant elsewhere
  have w_v0 : FVec F S_ .f32 := id q_cst_4
  have w_v1 : FVec F S512 .f32 := broadcastInDim S512 ![] bcast_S_S512 w_v0
  have v20 : FVec F S512 .f32 := select (broadcastInDim S512 ![] bcast_S_S512 q_v12) q_v11 w_v1
  -- the normalization
  have v21 : FVec F S1x512x1x1 .f32 := broadcastInDim S1x512x1x1 ![1] bcast_S512_S1x512x1x1_1 v19
  have v22 : FVec F S32x512x56x56 .f32 := broadcastInDim S32x512x56x56 ![0, 1, 2, 3] bcast_S1x512x1x1_S32x512x56x56_0_1_2_3 v21
  have v23 : FVec F S32x512x56x56 .f32 := subf v16 v22
  have v24 : FVec F S1x512x1x1 .f32 := broadcastInDim S1x512x1x1 ![1] bcast_S512_S1x512x1x1_1 wt
  have cst_5 : FVec F S_ .f32 := constant S_ .f32 0x3727C5AC#32
  have v25 : FVec F S512 .f32 := broadcastInDim S512 ![] bcast_S_S512 cst_5
  have v26 : FVec F S512 .f32 := addf v20 v25
  have v27 : FVec F S512 .f32 := Host.rsqrt v26
  have v28 : FVec F S1x512x1x1 .f32 := broadcastInDim S1x512x1x1 ![1] bcast_S512_S1x512x1x1_1 v27
  have v29 : FVec F S1x512x1x1 .f32 := mulf v24 v28
  have v30 : FVec F S32x512x56x56 .f32 := broadcastInDim S32x512x56x56 ![0, 1, 2, 3] bcast_S1x512x1x1_S32x512x56x56_0_1_2_3 v29
  have v31 : FVec F S32x512x56x56 .f32 := mulf v23 v30
  have v32 : FVec F S1x512x1x1 .f32 := broadcastInDim S1x512x1x1 ![1] bcast_S512_S1x512x1x1_1 bs
  have v33 : FVec F S32x512x56x56 .f32 := broadcastInDim S32x512x56x56 ![0, 1, 2, 3] bcast_S1x512x1x1_S32x512x56x56_0_1_2_3 v32
  have v34 : FVec F S32x512x56x56 .f32 := addf v31 v33
  -- the 512 channels read as 2 × 256; the mean over positions; the sum over the 2
  have v35 : FVec F S32x2x256x56x56 .f32 := shapeCast S32x2x256x56x56 v34 shapeCasts_S32x512x56x56_S32x2x256x56x56
  have cst_6 : FVec F S_ .f32 := constant S_ .f32 0x00000000#32
  have v36 : FVec F S32x2x256 .f32 := Host.reduceAdd v35 cst_6 reducesTo_S32x2x256x56x56_S32x2x256_d3_4 h_S_
  have cst_7 : FVec F S_ .f32 := constant S_ .f32 0x45440000#32
  have v37 : FVec F S32x2x256 .f32 := broadcastInDim S32x2x256 ![] bcast_S_S32x2x256 cst_7
  have v38 : FVec F S32x2x256 .f32 := Host.divf v36 v37
  have cst_8 : FVec F S_ .f32 := constant S_ .f32 0x00000000#32
  Host.reduceAdd v38 cst_8 reducesTo_S32x2x256_S32x256_d1 h_S_

/-- The reference's result: the squeeze, the gate, then everything after the gate. -/
def refOut (x : FVec F S32x512x56x56 .f32) (w1 : FVec F S32x512 .f32) (w2 : FVec F S512x32 .f32)
    (wt bs : FVec F S512 .f32) : FVec F S32x256 .f32 :=
  postR (gate (sR x) w1 w2) x wt bs

/-! ## The program as a list of operations -/

/-- The program's 74 operations, in order, the calls written out: relu's three (the zero, its repetition, the
    maximum) over the record main_call0 after the first product; the variance's nineteen over main_call1 after
    the integer zero, followed by the selection's three (the constant kept at its type, its repetition, the
    select) over main_call1.call0. -/
abbrev ops : List (HloOp τ sig (Elt F)) :=
  [ nullary main_cst (constant S_ .f32 0x00000000#32),
    binary main_arg0 main_cst main_v0 ((fun x v => Host.reduceAdd x v reducesTo_S32x512x56x56_S32x512_d2_3 h_S_) : (⟨S32x512x56x56, .f32⟩ : BufTy).Contents (Elt F) → (⟨S_, .f32⟩ : BufTy).Contents (Elt F) → (⟨S32x512, .f32⟩ : BufTy).Contents (Elt F)),
    nullary main_cst_0 (constant S_ .f32 0x45440000#32),
    unary main_cst_0 main_v1 (broadcastInDim S32x512 ![] bcast_S_S32x512 : (⟨S_, .f32⟩ : BufTy).Contents (Elt F) → (⟨S32x512, .f32⟩ : BufTy).Contents (Elt F)),
    binary main_v0 main_v1 main_v2 (Host.divf : (⟨S32x512, .f32⟩ : BufTy).Contents (Elt F) → (⟨S32x512, .f32⟩ : BufTy).Contents (Elt F) → (⟨S32x512, .f32⟩ : BufTy).Contents (Elt F)),
    unary main_arg1 main_v3 ((transpose S512x32 [1, 0] · transposes_S32x512_S512x32_1_0) : (⟨S32x512, .f32⟩ : BufTy).Contents (Elt F) → (⟨S512x32, .f32⟩ : BufTy).Contents (Elt F)),
    binary main_v2 main_v3 main_v4 ((fun l r => Host.dotGeneral dot_S32x512_S512x32_S32x32_1_0_0_1_n_n none l r) : (⟨S32x512, .f32⟩ : BufTy).Contents (Elt F) → (⟨S512x32, .f32⟩ : BufTy).Contents (Elt F) → (⟨S32x32, .f32⟩ : BufTy).Contents (Elt F)),
    TRef.nullary main_call0.cst (constant S_ .f32 0x00000000#32),
    TRef.unary main_call0.cst main_call0.v0 (broadcastInDim S32x32 ![] bcast_S_S32x32),
    TRef.binary (.of main_v4) main_call0.v0 main_call0.v1 maximumf,
    unary main_arg2 main_v6 ((transpose S32x512 [1, 0] · transposes_S512x32_S32x512_1_0) : (⟨S512x32, .f32⟩ : BufTy).Contents (Elt F) → (⟨S32x512, .f32⟩ : BufTy).Contents (Elt F)),
    binary main_v5 main_v6 main_v7 ((fun l r => Host.dotGeneral dot_S32x32_S32x512_S32x512_1_0_0_1_n_n none l r) : (⟨S32x32, .f32⟩ : BufTy).Contents (Elt F) → (⟨S32x512, .f32⟩ : BufTy).Contents (Elt F) → (⟨S32x512, .f32⟩ : BufTy).Contents (Elt F)),
    unary main_v7 main_v8 (Host.negf : (⟨S32x512, .f32⟩ : BufTy).Contents (Elt F) → (⟨S32x512, .f32⟩ : BufTy).Contents (Elt F)),
    unary main_v8 main_v9 (Host.exp : (⟨S32x512, .f32⟩ : BufTy).Contents (Elt F) → (⟨S32x512, .f32⟩ : BufTy).Contents (Elt F)),
    nullary main_cst_1 (constant S_ .f32 0x3F800000#32),
    unary main_cst_1 main_v10 (broadcastInDim S32x512 ![] bcast_S_S32x512 : (⟨S_, .f32⟩ : BufTy).Contents (Elt F) → (⟨S32x512, .f32⟩ : BufTy).Contents (Elt F)),
    binary main_v10 main_v9 main_v11 (addf : (⟨S32x512, .f32⟩ : BufTy).Contents (Elt F) → (⟨S32x512, .f32⟩ : BufTy).Contents (Elt F) → (⟨S32x512, .f32⟩ : BufTy).Contents (Elt F)),
    nullary main_cst_2 (constant S_ .f32 0x3F800000#32),
    unary main_cst_2 main_v12 (broadcastInDim S32x512 ![] bcast_S_S32x512 : (⟨S_, .f32⟩ : BufTy).Contents (Elt F) → (⟨S32x512, .f32⟩ : BufTy).Contents (Elt F)),
    binary main_v12 main_v11 main_v13 (Host.divf : (⟨S32x512, .f32⟩ : BufTy).Contents (Elt F) → (⟨S32x512, .f32⟩ : BufTy).Contents (Elt F) → (⟨S32x512, .f32⟩ : BufTy).Contents (Elt F)),
    unary main_v13 main_v14 (broadcastInDim S32x512x1x1 ![0, 1] bcast_S32x512_S32x512x1x1_0_1 : (⟨S32x512, .f32⟩ : BufTy).Contents (Elt F) → (⟨S32x512x1x1, .f32⟩ : BufTy).Contents (Elt F)),
    unary main_v14 main_v15 (broadcastInDim S32x512x56x56 ![0, 1, 2, 3] bcast_S32x512x1x1_S32x512x56x56_0_1_2_3 : (⟨S32x512x1x1, .f32⟩ : BufTy).Contents (Elt F) → (⟨S32x512x56x56, .f32⟩ : BufTy).Contents (Elt F)),
    binary main_arg0 main_v15 main_v16 (mulf : (⟨S32x512x56x56, .f32⟩ : BufTy).Contents (Elt F) → (⟨S32x512x56x56, .f32⟩ : BufTy).Contents (Elt F) → (⟨S32x512x56x56, .f32⟩ : BufTy).Contents (Elt F)),
    nullary main_cst_3 (constant S_ .f32 0x00000000#32),
    binary main_v16 main_cst_3 main_v17 ((fun x v => Host.reduceAdd x v reducesTo_S32x512x56x56_S512_d0_2_3 h_S_) : (⟨S32x512x56x56, .f32⟩ : BufTy).Contents (Elt F) → (⟨S_, .f32⟩ : BufTy).Contents (Elt F) → (⟨S512, .f32⟩ : BufTy).Contents (Elt F)),
    nullary main_cst_4 (constant S_ .f32 0x47C40000#32),
    unary main_cst_4 main_v18 (broadcastInDim S512 ![] bcast_S_S512 : (⟨S_, .f32⟩ : BufTy).Contents (Elt F) → (⟨S512, .f32⟩ : BufTy).Contents (Elt F)),
    binary main_v17 main_v18 main_v19 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary main_call1.cst (constant S_ .f32 0x00000000#32),
    TRef.binary (.of main_v16) main_call1.cst main_call1.v0 (fun x v => Host.reduceAdd x v reducesTo_S32x512x56x56_S512_d0_2_3 h_S_),
    TRef.unary main_call1.v0 main_call1.v1 (broadcastInDim S1x512x1x1 ![1] bcast_S512_S1x512x1x1_1),
    TRef.nullary main_call1.cst_0 (constant S_ .f32 0x47C40000#32),
    TRef.unary main_call1.cst_0 main_call1.v2 (broadcastInDim S1x512x1x1 ![] bcast_S_S1x512x1x1),
    TRef.binary main_call1.v1 main_call1.v2 main_call1.v3 Host.divf,
    TRef.unary main_call1.v3 main_call1.v4 (broadcastInDim S32x512x56x56 ![0, 1, 2, 3] bcast_S1x512x1x1_S32x512x56x56_0_1_2_3),
    TRef.binary (.of main_v16) main_call1.v4 main_call1.v5 subf,
    TRef.binary main_call1.v5 main_call1.v5 main_call1.v6 mulf,
    TRef.unary (.of main_c) main_call1.v7 (sitofp .f32),
    TRef.nullary main_call1.cst_1 (constant S_ .f32 0x47C40000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x512x56x56_S512_d0_2_3 h_S_),
    TRef.unary main_call1.v8 main_call1.v10 (broadcastInDim S512 ![] bcast_S_S512),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S512 ![] bcast_S_S512),
    TRef.ternary main_call1.v12 main_call1.v11 main_call1.call0.v1 main_call1.call0.v2 (fun p a b => select (broadcastInDim S512 ![] bcast_S_S512 p) a b),
    unary main_v19 main_v21 (broadcastInDim S1x512x1x1 ![1] bcast_S512_S1x512x1x1_1 : (⟨S512, .f32⟩ : BufTy).Contents (Elt F) → (⟨S1x512x1x1, .f32⟩ : BufTy).Contents (Elt F)),
    unary main_v21 main_v22 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v16 main_v22 main_v23 (subf : (⟨S32x512x56x56, .f32⟩ : BufTy).Contents (Elt F) → (⟨S32x512x56x56, .f32⟩ : BufTy).Contents (Elt F) → (⟨S32x512x56x56, .f32⟩ : BufTy).Contents (Elt F)),
    unary main_arg3 main_v24 (broadcastInDim S1x512x1x1 ![1] bcast_S512_S1x512x1x1_1 : (⟨S512, .f32⟩ : BufTy).Contents (Elt F) → (⟨S1x512x1x1, .f32⟩ : BufTy).Contents (Elt F)),
    nullary main_cst_5 (constant S_ .f32 0x3727C5AC#32),
    unary main_cst_5 main_v25 (broadcastInDim S512 ![] bcast_S_S512 : (⟨S_, .f32⟩ : BufTy).Contents (Elt F) → (⟨S512, .f32⟩ : BufTy).Contents (Elt F)),
    binary main_v20 main_v25 main_v26 (addf : (⟨S512, .f32⟩ : BufTy).Contents (Elt F) → (⟨S512, .f32⟩ : BufTy).Contents (Elt F) → (⟨S512, .f32⟩ : BufTy).Contents (Elt F)),
    unary main_v26 main_v27 (Host.rsqrt : (⟨S512, .f32⟩ : BufTy).Contents (Elt F) → (⟨S512, .f32⟩ : BufTy).Contents (Elt F)),
    unary main_v27 main_v28 (broadcastInDim S1x512x1x1 ![1] bcast_S512_S1x512x1x1_1 : (⟨S512, .f32⟩ : BufTy).Contents (Elt F) → (⟨S1x512x1x1, .f32⟩ : BufTy).Contents (Elt F)),
    binary main_v24 main_v28 main_v29 (mulf : (⟨S1x512x1x1, .f32⟩ : BufTy).Contents (Elt F) → (⟨S1x512x1x1, .f32⟩ : BufTy).Contents (Elt F) → (⟨S1x512x1x1, .f32⟩ : BufTy).Contents (Elt F)),
    unary main_v29 main_v30 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v23 main_v30 main_v31 (mulf : (⟨S32x512x56x56, .f32⟩ : BufTy).Contents (Elt F) → (⟨S32x512x56x56, .f32⟩ : BufTy).Contents (Elt F) → (⟨S32x512x56x56, .f32⟩ : BufTy).Contents (Elt F)),
    unary main_arg4 main_v32 (broadcastInDim S1x512x1x1 ![1] bcast_S512_S1x512x1x1_1 : (⟨S512, .f32⟩ : BufTy).Contents (Elt F) → (⟨S1x512x1x1, .f32⟩ : BufTy).Contents (Elt F)),
    unary main_v32 main_v33 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v31 main_v33 main_v34 (addf : (⟨S32x512x56x56, .f32⟩ : BufTy).Contents (Elt F) → (⟨S32x512x56x56, .f32⟩ : BufTy).Contents (Elt F) → (⟨S32x512x56x56, .f32⟩ : BufTy).Contents (Elt F)),
    reshape main_v34 main_v35 rfl shapeCasts_S32x512x56x56_S32x2x256x56x56,
    nullary main_cst_6 (constant S_ .f32 0x00000000#32),
    binary main_v35 main_cst_6 main_v36 ((fun x v => Host.reduceAdd x v reducesTo_S32x2x256x56x56_S32x2x256_d3_4 h_S_) : (⟨S32x2x256x56x56, .f32⟩ : BufTy).Contents (Elt F) → (⟨S_, .f32⟩ : BufTy).Contents (Elt F) → (⟨S32x2x256, .f32⟩ : BufTy).Contents (Elt F)),
    nullary main_cst_7 (constant S_ .f32 0x45440000#32),
    unary main_cst_7 main_v37 (broadcastInDim S32x2x256 ![] bcast_S_S32x2x256 : (⟨S_, .f32⟩ : BufTy).Contents (Elt F) → (⟨S32x2x256, .f32⟩ : BufTy).Contents (Elt F)),
    binary main_v36 main_v37 main_v38 (Host.divf : (⟨S32x2x256, .f32⟩ : BufTy).Contents (Elt F) → (⟨S32x2x256, .f32⟩ : BufTy).Contents (Elt F) → (⟨S32x2x256, .f32⟩ : BufTy).Contents (Elt F)),
    nullary main_cst_8 (constant S_ .f32 0x00000000#32),
    binary main_v38 main_cst_8 main_v39 ((fun x v => Host.reduceAdd x v reducesTo_S32x2x256_S32x256_d1 h_S_) : (⟨S32x2x256, .f32⟩ : BufTy).Contents (Elt F) → (⟨S_, .f32⟩ : BufTy).Contents (Elt F) → (⟨S32x256, .f32⟩ : BufTy).Contents (Elt F)) ]

-- seventy-four binds re-associated: the rewriting under the chain recurses once per statement
set_option maxRecDepth 8192 in
set_option maxHeartbeats 1600000 in
/-- The program is that straight line: the three functions' definitions unfolded at their calls and the
    records at their fields, both sides are one chain of steps once sequencing is re-associated. -/
theorem main_eq (c : Dev nD) : main (F := F) c = seq ops := by
  simp only [main, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., nullary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., nullary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    reshape_bufs_sub .., nullary_bufs_sub .., binary_bufs_sub .., nullary_bufs_sub .., unary_bufs_sub .., binary_bufs_sub ..,
    nullary_bufs_sub .., binary_bufs_sub ..⟩

/-! ## What the buffers hold after the operations -/

attribute [local irreducible] Host.reduceAdd in
set_option maxRecDepth 16384 in
set_option maxHeartbeats 40000000 in
/-- The fold at the result buffer is the composition, by computation: each operation's result at its own
    buffer is its function at its operands' contents, at every other buffer what was there; at these literal
    buffers the typed references' transports are the identity. The reductions stay folded meanwhile: the
    equation never looks inside them. -/
theorem out_eq (V : Valuation τ sig (Elt F)) :
    after ops V (main_v39 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 16384 in
set_option maxHeartbeats 40000000 in
/-- No operation writes argument 0's buffer. -/
theorem arg0_eq (V : Valuation τ sig (Elt F)) :
    after ops V (main_arg0 : DevRef τ sig) = V (main_arg0 : DevRef τ sig) := by
  after_results_simp

set_option maxRecDepth 16384 in
set_option maxHeartbeats 40000000 in
/-- No operation writes argument 1's buffer. -/
theorem arg1_eq (V : Valuation τ sig (Elt F)) :
    after ops V (main_arg1 : DevRef τ sig) = V (main_arg1 : DevRef τ sig) := by
  after_results_simp

set_option maxRecDepth 16384 in
set_option maxHeartbeats 40000000 in
/-- No operation writes argument 2's buffer. -/
theorem arg2_eq (V : Valuation τ sig (Elt F)) :
    after ops V (main_arg2 : DevRef τ sig) = V (main_arg2 : DevRef τ sig) := by
  after_results_simp

set_option maxRecDepth 16384 in
set_option maxHeartbeats 40000000 in
/-- No operation writes argument 3's buffer. -/
theorem arg3_eq (V : Valuation τ sig (Elt F)) :
    after ops V (main_arg3 : DevRef τ sig) = V (main_arg3 : DevRef τ sig) := by
  after_results_simp

set_option maxRecDepth 16384 in
set_option maxHeartbeats 40000000 in
/-- No operation writes argument 4's buffer. -/
theorem arg4_eq (V : Valuation τ sig (Elt F)) :
    after ops V (main_arg4 : DevRef τ sig) = V (main_arg4 : DevRef τ sig) := by
  after_results_simp

/-! ## The run -/

set_option maxRecDepth 16384 in
set_option maxHeartbeats 4000000 in
/-- On every device, for any float values, from any memory with zero counters: every weakly fair execution of
    the program terminates with the result buffer at the composition of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v39).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.Hand

end
-- ==== Proof.Consts.lean ====
/-
  The constants' words as numbers.

  The programs keep their float constants as single-precision words. Read as extended reals they are
  0, 1, 32 (the batch size), 3136 = 56 · 56 (the spatial positions), 100352 = 32 · 3136 (the batch and
  position pairs of one channel) and a positive ε: each word is sign 0, an exponent field E and a fraction
  field f, denoting (1 + f / 2²³) · 2^(E − 127).
-/
import Idealize.ShloMosaic.PureOps.Ideal
import Idealize.ShloMosaic.PureOps.Ideal.Laws
import Idealize.ShloMosaic.Lib.IdealHost
import proofs.«122134_j12670153523753_2_alg».proof.Proof.Spec

noncomputable section

namespace Cert.Consts

open Idealize.ShloMosaic

/-- The all-zero single-precision word is zero. -/
theorem c0_eq : Cert.Spec.c0 = 0 := Ideal.ofBits_zero_f32

/-- The word 0x45440000 (exponent 138, fraction 4456448) is 1.53125 · 2¹¹ = 3136 = 56 · 56: the number of
    spatial positions a spatial mean divides by. -/
theorem c3136_eq : Cert.Spec.c3136 = ((3136 : ℝ) : EReal) := by
  simp [Ideal.ofBits, Ideal.ieee, -EReal.coe_mul]; norm_num

/-- The word 0x42000000 (exponent 132, fraction 0) is 2⁵ = 32: the batch size. -/
theorem c32_eq : Cert.Spec.c32 = ((32 : ℝ) : EReal) := by
  simp [Ideal.ofBits, Ideal.ieee, -EReal.coe_mul]; norm_num

/-- The word 0x47C40000 (exponent 143, fraction 4456448) is 1.53125 · 2¹⁶ = 100352 = 32 · 3136: the number of
    (batch, position) pairs a channel's statistics divide by. -/
theorem cN_eq : Cert.Spec.cN = ((100352 : ℝ) : EReal) := by
  simp [Ideal.ofBits, Ideal.ieee, -EReal.coe_mul]; norm_num

/-- The single-precision word of one is the real number one. -/
theorem c1_eq : Ideal.ofBits .f32 0x3F800000#32 = ((1 : ℝ) : EReal) := by
  rw [Ideal.ofBits_one_f32, EReal.coe_one]

/-- The word 0x3727C5AC (exponent 110, fraction 2606508) is a positive real number, 10995116 · 2⁻⁴⁰: the ε a
    variance is shifted by before its reciprocal square root. -/
theorem cEps_pos : ∃ r : ℝ, 0 < r ∧ Cert.Spec.cEps = (r : EReal) := by
  refine ⟨10995116 * (2 : ℝ) ^ (-40 : ℤ), by positivity, ?_⟩
  simp [Ideal.ofBits, Ideal.ieee, -EReal.coe_mul]

end Cert.Consts

end
-- ==== Proof.RefRead.lean ====
/-
  The reference's two array computations read at an entry, over the extended reals.

  At the ideal values a float is an extended real and every operation its textbook one, so an entry of the
  reference's result is an explicit expression in entries of its arguments: a sum along axes is the initial
  value plus the finite sum over the fibre of the index; a repetition along axes and a reshape read an entry
  of their operand; the pointwise operations act entry by entry. Nothing here needs a finiteness assumption:
  a finite sum is re-indexed in an additive commutative monoid, never re-associated through an infinity.

  sR_apply: the squeeze at (b, c) is (0 + Σ_{h,w} x[b,c,h,w]) / 3136.
  postR_apply: everything after the gate e, at (b, j), is 0 + Σ_{k<2} z[b, 256 k + j], where for a channel c
    y = x · e,  μ_c = (0 + Σ_{b,h,w} y) / 100352,  σ²_c = (0 + Σ_{b,h,w} (y − μ_c)²) / 100352,
    g_c = wt_c · rsqrt (σ²_c + ε),  z[b,c] = (0 + Σ_{h,w} ((y − μ_c) · g_c + bs_c)) / 3136.
  The variance's divisor is computed as 100352 − 0, the 0 an integer read as a float, and guarded by a
  selection on "divisor > 0": the divisor is 100352, the guard holds, and the selection is its first branch.
-/
import proofs.«122134_j12670153523753_2_alg».proof.Proof.RefRun
import proofs.«122134_j12670153523753_2_alg».proof.Proof.Spec
import proofs.«122134_j12670153523753_2_alg».proof.Proof.Consts
import proofs.«122134_j12670153523753_2_alg».proof.Proof.LibRealEntries
import proofs.«122134_j12670153523753_2_alg».proof.Proof.LibFibreSums
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Cert.ReferenceIdeal.Hand Idealize.ShloMosaic Idealize.ShloMosaic.ValueIdx
open scoped BigOperators

/-! ## Re-indexings: an entry of the result is an entry of the operand -/

section Reindex
variable {α : Type}

/-- A per-(batch, channel) array repeated over the spatial positions, read at (b, c, h, w), is the array at (b, c). -/
theorem bcast_bc (H1 : S32x512.BroadcastsInDim S32x512x1x1 (![0, 1] : Fin 2 → Fin S32x512x1x1.rank))
    (H2 : S32x512x1x1.BroadcastsInDim S32x512x56x56 (![0, 1, 2, 3] : Fin 4 → Fin S32x512x56x56.rank))
    (u : S32x512.Idx → α) (b : Fin 32) (c : Fin 512) (h w : Fin 56) :
    broadcastInDim S32x512x56x56 ![0, 1, 2, 3] H2 (broadcastInDim S32x512x1x1 ![0, 1] H1 u) (ix4 b c h w) = u (ix2 b c) := by
  rw [broadcastInDim_apply _ H2 _ _ (ix4 b c 0 0) (by intro a; fin_cases a <;> rfl),
    broadcastInDim_apply _ H1 _ _ (ix2 b c) (by intro a; fin_cases a <;> rfl)]

/-- A per-channel array placed on the channel axis of a 1 × 512 × 1 × 1 array, read at channel c, is the array at c. -/
theorem bcast_c1 (H1 : S512.BroadcastsInDim S1x512x1x1 (![1] : Fin 1 → Fin S1x512x1x1.rank))
    (u : S512.Idx → α) (c : Fin 512) :
    broadcastInDim S1x512x1x1 ![1] H1 u (ix4 0 c 0 0) = u (ix1 c) :=
  broadcastInDim_apply _ H1 _ _ (ix1 c) (by intro a; fin_cases a; rfl)

/-- A 1 × 512 × 1 × 1 array repeated over batch and positions, read at (b, c, h, w), is the array at channel c. -/
theorem bcast_c4 (H2 : S1x512x1x1.BroadcastsInDim S32x512x56x56 (![0, 1, 2, 3] : Fin 4 → Fin S32x512x56x56.rank))
    (u : S1x512x1x1.Idx → α) (b : Fin 32) (c : Fin 512) (h w : Fin 56) :
    broadcastInDim S32x512x56x56 ![0, 1, 2, 3] H2 u (ix4 b c h w) = u (ix4 0 c 0 0) :=
  broadcastInDim_apply _ H2 _ _ (ix4 0 c 0 0) (by intro a; fin_cases a <;> rfl)

/-- The channel axis read as 2 × 256: entry (b, k, j, h, w) of the reshaped array is entry (b, 256 k + j, h, w). -/
theorem reshape_chan (H : S32x512x56x56.ShapeCasts S32x2x256x56x56) (u : S32x512x56x56.Idx → α)
    (b : Fin 32) (k : Fin 2) (j : Fin 256) (h w : Fin 56) :
    shapeCast S32x2x256x56x56 u H (ix5 b k j h w) = u (ix4 b (Spec.chan k j) h w) :=
  shapeCast_apply u H _ (ix4 b (Spec.chan k j) h w) (by
    rw [Shape.rowMajor_val_four, Shape.rowMajor_val_five]
    show ((b.val * 512 + (k.val * 256 + j.val)) * 56 + h.val) * 56 + w.val
      = (((b.val * 2 + k.val) * 256 + j.val) * 56 + h.val) * 56 + w.val
    ring)

end Reindex

/-! ## The stages of the computation after the gate -/

section Stages
variable (e : FVec Ideal S32x512 .f32) (x : FVec Ideal S32x512x56x56 .f32) (wt bs : FVec Ideal S512 .f32)

/-- The gated input y = x · e. -/
def yA : FVec Ideal S32x512x56x56 .f32 :=
  mulf x (broadcastInDim S32x512x56x56 ![0, 1, 2, 3] bcast_S32x512x1x1_S32x512x56x56_0_1_2_3
    (broadcastInDim S32x512x1x1 ![0, 1] bcast_S32x512_S32x512x1x1_0_1 e))

/-- A channel's sum over batch and positions, from zero. -/
def sumA (u : FVec Ideal S32x512x56x56 .f32) : FVec Ideal S512 .f32 :=
  Host.reduceAdd u (constant S_ .f32 0x00000000#32) reducesTo_S32x512x56x56_S512_d0_2_3 h_S_

/-- The channel mean μ of y. -/
def muA : FVec Ideal S512 .f32 :=
  Host.divf (sumA (yA e x)) (broadcastInDim S512 ![] bcast_S_S512 (constant S_ .f32 0x47C40000#32))

/-- The same mean, computed on the channel axis of a 1 × 512 × 1 × 1 array (as the variance does). -/
def mu1A : FVec Ideal S1x512x1x1 .f32 :=
  Host.divf (broadcastInDim S1x512x1x1 ![1] bcast_S512_S1x512x1x1_1 (sumA (yA e x)))
    (broadcastInDim S1x512x1x1 ![] bcast_S_S1x512x1x1 (constant S_ .f32 0x47C40000#32))

/-- The deviation y − μ. -/
def devA : FVec Ideal S32x512x56x56 .f32 :=
  subf (yA e x) (broadcastInDim S32x512x56x56 ![0, 1, 2, 3] bcast_S1x512x1x1_S32x512x56x56_0_1_2_3 (mu1A e x))

/-- The variance's divisor: 100352 minus the correction term 0 read as a float. -/
def dA : FVec Ideal S_ .f32 :=
  subf (constant S_ .f32 0x47C40000#32) (sitofp .f32 (constantI S_ 32 0#32))

/-- The channel variance: Σ (y − μ)² over the divisor where the divisor is positive, a constant elsewhere. -/
def varA : FVec Ideal S512 .f32 :=
  select (broadcastInDim S512 ![] bcast_S_S512 (cmpf .ogt dA (constant S_ .f32 0x00000000#32)))
    (Host.divf (sumA (mulf (devA e x) (devA e x))) (broadcastInDim S512 ![] bcast_S_S512 dA))
    (broadcastInDim S512 ![] bcast_S_S512 (id (constant S_ .f32 0x7FC00000#32)))

/-- The channel scale wt · rsqrt (σ² + ε), on the channel axis of a 1 × 512 × 1 × 1 array. -/
def gA : FVec Ideal S1x512x1x1 .f32 :=
  mulf (broadcastInDim S1x512x1x1 ![1] bcast_S512_S1x512x1x1_1 wt)
    (broadcastInDim S1x512x1x1 ![1] bcast_S512_S1x512x1x1_1
      (Host.rsqrt (addf (varA e x) (broadcastInDim S512 ![] bcast_S_S512 (constant S_ .f32 0x3727C5AC#32)))))

/-- The normalized array (y − μ) · scale + bs. -/
def nA : FVec Ideal S32x512x56x56 .f32 :=
  addf
    (mulf
      (subf (yA e x) (broadcastInDim S32x512x56x56 ![0, 1, 2, 3] bcast_S1x512x1x1_S32x512x56x56_0_1_2_3
        (broadcastInDim S1x512x1x1 ![1] bcast_S512_S1x512x1x1_1 (muA e x))))
      (broadcastInDim S32x512x56x56 ![0, 1, 2, 3] bcast_S1x512x1x1_S32x512x56x56_0_1_2_3 (gA e x wt)))
    (broadcastInDim S32x512x56x56 ![0, 1, 2, 3] bcast_S1x512x1x1_S32x512x56x56_0_1_2_3
      (broadcastInDim S1x512x1x1 ![1] bcast_S512_S1x512x1x1_1 bs))

/-- Its spatial mean, the channel axis read as 2 × 256. -/
def zA : FVec Ideal S32x2x256 .f32 :=
  Host.divf
    (Host.reduceAdd (shapeCast S32x2x256x56x56 (nA e x wt bs) shapeCasts_S32x512x56x56_S32x2x256x56x56)
      (constant S_ .f32 0x00000000#32) reducesTo_S32x2x256x56x56_S32x2x256_d3_4 h_S_)
    (broadcastInDim S32x2x256 ![] bcast_S_S32x2x256 (constant S_ .f32 0x45440000#32))

/-- Everything after the gate is the sum over the two halves of the channel axis of that spatial mean: the
    same operations, grouped. -/
theorem postR_eq : postR (F := Ideal) e x wt bs
    = Host.reduceAdd (zA e x wt bs) (constant S_ .f32 0x00000000#32) reducesTo_S32x2x256_S32x256_d1 h_S_ := rfl

/-! ## Each stage at an entry -/

theorem yA_apply (b : Fin 32) (c : Fin 512) (h w : Fin 56) : yA e x (ix4 b c h w) = Spec.yR e x b c h w :=
  congrArg (x (ix4 b c h w) * ·) (bcast_bc _ _ e b c h w)

theorem sumA_apply (u : FVec Ideal S32x512x56x56 .f32) (c : Fin 512) :
    sumA u (ix1 c) = Spec.c0 + ∑ b : Fin 32, ∑ h : Fin 56, ∑ w : Fin 56, u (ix4 b c h w) :=
  Cert.FibreSums.hostReduceAdd_r4_023 _ u _ c

theorem muA_apply (c : Fin 512) : muA e x (ix1 c) = Spec.muR e x c := by
  show Ideal.div (sumA (yA e x) (ix1 c)) Spec.cN
    = Ideal.div (Spec.c0 + ∑ b : Fin 32, ∑ h : Fin 56, ∑ w : Fin 56, Spec.yR e x b c h w) Spec.cN
  rw [sumA_apply]
  simp only [yA_apply]

theorem mu1A_apply (c : Fin 512) : mu1A e x (ix4 0 c 0 0) = Spec.muR e x c := by
  show Ideal.div (broadcastInDim S1x512x1x1 ![1] _ (sumA (yA e x)) (ix4 0 c 0 0)) Spec.cN
    = Ideal.div (Spec.c0 + ∑ b : Fin 32, ∑ h : Fin 56, ∑ w : Fin 56, Spec.yR e x b c h w) Spec.cN
  rw [bcast_c1, sumA_apply]
  simp only [yA_apply]

theorem devA_apply (b : Fin 32) (c : Fin 512) (h w : Fin 56) :
    devA e x (ix4 b c h w) = Spec.yR e x b c h w - Spec.muR e x c := by
  show yA e x (ix4 b c h w) - broadcastInDim S32x512x56x56 ![0, 1, 2, 3] _ (mu1A e x) (ix4 b c h w) = _
  rw [bcast_c4, mu1A_apply, yA_apply]

/-- The divisor is 100352: the correction term is the integer zero. -/
theorem dA_apply (i : S_.Idx) : dA i = Spec.cN := by
  show Spec.cN - sitofp (F := Ideal) .f32 (constantI S_ 32 0#32) i = Spec.cN
  rw [Cert.GcnReal.sitofp_zero_apply, EReal.coe_zero, sub_zero]

theorem dA_pos : Cert.GcnReal.PosReal dA :=
  fun i => ⟨100352, by norm_num, (dA_apply i).trans Cert.Consts.cN_eq⟩

/-- The divisor being positive, the selection keeps the quotient: the constant of the other branch is never read. -/
theorem varA_apply (c : Fin 512) : varA e x (ix1 c) = Spec.varR e x Spec.cN c := by
  have hsel : varA e x
      = Host.divf (sumA (mulf (devA e x) (devA e x))) (broadcastInDim S512 ![] bcast_S_S512 dA) :=
    Cert.GcnReal.select_eq_left _ _ _ fun i =>
      Cert.GcnReal.broadcastInDim_eq_one (cmpf .ogt dA (constant S_ .f32 0x00000000#32)) _ bcast_S_S512
        (fun k => Cert.GcnReal.cmpf_ogt_pos_zero dA_pos (fun _ => Cert.Consts.c0_eq) k) i
  rw [hsel]
  show Ideal.div (sumA (mulf (devA e x) (devA e x)) (ix1 c)) (dA _)
    = Ideal.div (Spec.c0 + ∑ b : Fin 32, ∑ h : Fin 56, ∑ w : Fin 56,
        (Spec.yR e x b c h w - Spec.muR e x c) * (Spec.yR e x b c h w - Spec.muR e x c)) Spec.cN
  rw [sumA_apply, dA_apply]
  simp only [mulf_apply, devA_apply]

theorem gA_apply (c : Fin 512) : gA e x wt (ix4 0 c 0 0) = Spec.gR e x Spec.cN wt c := by
  show broadcastInDim S1x512x1x1 ![1] _ wt (ix4 0 c 0 0)
      * broadcastInDim S1x512x1x1 ![1] _ (Host.rsqrt (addf (varA e x) _)) (ix4 0 c 0 0)
    = wt (ix1 c) * Ideal.rsqrt (Spec.varR e x Spec.cN c + Spec.cEps)
  rw [bcast_c1, bcast_c1]
  show wt (ix1 c) * Ideal.rsqrt (varA e x (ix1 c) + Spec.cEps) = _
  rw [varA_apply]

theorem nA_apply (b : Fin 32) (c : Fin 512) (h w : Fin 56) :
    nA e x wt bs (ix4 b c h w)
      = (Spec.yR e x b c h w - Spec.muR e x c) * Spec.gR e x Spec.cN wt c + bs (ix1 c) := by
  show (yA e x (ix4 b c h w)
        - broadcastInDim S32x512x56x56 ![0, 1, 2, 3] _ (broadcastInDim S1x512x1x1 ![1] _ (muA e x)) (ix4 b c h w))
      * broadcastInDim S32x512x56x56 ![0, 1, 2, 3] _ (gA e x wt) (ix4 b c h w)
      + broadcastInDim S32x512x56x56 ![0, 1, 2, 3] _ (broadcastInDim S1x512x1x1 ![1] _ bs) (ix4 b c h w) = _
  rw [bcast_c4, bcast_c4, bcast_c4, bcast_c1, bcast_c1, muA_apply, gA_apply, yA_apply]

theorem zA_apply (b : Fin 32) (k : Fin 2) (j : Fin 256) :
    zA e x wt bs (ix3 b k j) = Spec.zR e x Spec.cN wt bs b (Spec.chan k j) := by
  show Ideal.div (Ideal.hostReduceAdd _ (shapeCast S32x2x256x56x56 (nA e x wt bs) _) Spec.c0 (ix3 b k j)) Spec.c3136
    = Ideal.div (Spec.c0 + ∑ h : Fin 56, ∑ w : Fin 56,
        ((Spec.yR e x b (Spec.chan k j) h w - Spec.muR e x (Spec.chan k j)) * Spec.gR e x Spec.cN wt (Spec.chan k j)
          + bs (ix1 (Spec.chan k j)))) Spec.c3136
  rw [Cert.FibreSums.hostReduceAdd_r5_34]
  simp only [reshape_chan, nA_apply]

end Stages

/-! ## The two read-backs -/

/-- The squeeze at (b, c): the sum of x over the positions, from zero, over 3136. -/
theorem sR_apply (x : FVec Ideal S32x512x56x56 .f32) (b : Fin 32) (c : Fin 512) :
    sR (F := Ideal) x (ix2 b c) = Ideal.div (Cert.Spec.c0 + ∑ h : Fin 56, ∑ w : Fin 56, x (ix4 b c h w)) Cert.Spec.c3136 := by
  show Ideal.div (Ideal.hostReduceAdd _ x Spec.c0 (ix2 b c)) Spec.c3136 = _
  rw [Cert.FibreSums.hostReduceAdd_r4_23]

/-- Everything after the gate at (b, j): the entry-by-entry statement, with divisor 100352. -/
theorem postR_apply (e : FVec Ideal S32x512 .f32) (x : FVec Ideal S32x512x56x56 .f32) (wt bs : FVec Ideal S512 .f32)
    (b : Fin 32) (j : Fin 256) :
    postR (F := Ideal) e x wt bs (ix2 b j) = Cert.Spec.outR e x Cert.Spec.cN wt bs b j := by
  rw [postR_eq]
  show Ideal.hostReduceAdd _ (zA e x wt bs) Spec.c0 (ix2 b j)
    = Spec.c0 + ∑ k : Fin 2, Spec.zR e x Spec.cN wt bs b (Spec.chan k j)
  rw [Cert.FibreSums.hostReduceAdd_r3_1]
  simp only [zA_apply]

end Cert.ReferenceIdeal.Read

end
-- ==== Proof.LibBatchNormReal.lean ====
import Mathlib.Algebra.BigOperators.Field
import Mathlib.Algebra.Order.BigOperators.Ring.Finset
import Mathlib.Data.Real.Basic
import Mathlib.Tactic

/-!
# Batch-norm statistics over the reals: one pass versus two passes

Fix one channel and let `y b p = X b p * E b`, where `b` ranges over a finite batch
index type `ι`, `p` over a finite type `P` of spatial positions, and `E b` is a per-batch
scale.  Write `nB` and `nP` for the (real) sizes of `ι` and `P`.

There are two ways to obtain the mean and the (biased) variance of `y` over all pairs
`(b, p)`:

* **two passes**: `μ = (∑ b, ∑ p, y b p) / (nB * nP)` and then
  `σ² = (∑ b, ∑ p, (y b p - μ) * (y b p - μ)) / (nB * nP)`;
* **one pass**: from the per-batch spatial means `s b = (∑ p, X b p) / nP` and
  `q b = (∑ p, X b p * X b p) / nP` take `μ = (∑ b, E b * s b) / nB` and
  `σ² = (∑ b, (E b * E b) * q b) / nB - μ * μ`.

Over the real numbers the two agree:

* `mean_eq`    : the two means coincide, because `E b` is constant in `p` and can be
  moved inside the inner sum, and dividing by `nP` and then by `nB` is dividing by
  `nB * nP`;
* `var_eq`     : the two variances coincide; this is the identity
  `E[(y - μ)²] = E[y²] - μ²`, obtained by expanding
  `(y - μ) * (y - μ) = y * y - 2 * μ * y + μ * μ`, summing, and using
  `∑ b, ∑ p, y b p = μ * (nB * nP)` together with
  `∑ b, ∑ p, μ * μ = nB * nP * (μ * μ)`;
* `var_nonneg` : the two-pass variance is a sum of squares divided by a positive number,
  hence non-negative (so clamping the one-pass value at `0` changes nothing);
* `out_eq`     : an affine map `t ↦ (t - μ) * g + β` commutes with taking the spatial
  mean, so normalising the per-batch mean equals the mean of the normalised values.
-/

open scoped BigOperators

namespace Cert.BatchNormReal

variable {ι P : Type} [Fintype ι] [Fintype P]

/-- The mean of the per-batch scaled spatial means is the mean over all `(b, p)`. -/
theorem mean_eq (nB nP : ℝ) (hB : nB ≠ 0) (hP : nP ≠ 0) (X : ι → P → ℝ) (E : ι → ℝ) :
    (∑ b, E b * ((∑ p, X b p) / nP)) / nB = (∑ b, ∑ p, X b p * E b) / (nB * nP) := by
  -- `E b` does not depend on `p`, so it moves inside the inner sum.
  have h : ∀ b, E b * ((∑ p, X b p) / nP) = (∑ p, X b p * E b) / nP := by
    intro b
    rw [← Finset.sum_mul]
    ring
  rw [Finset.sum_congr rfl (fun b _ => h b), ← Finset.sum_div, div_div, mul_comm nP nB]

/-- `E[y²] - μ² = E[(y - μ)²]` for `y b p = X b p * E b` and `μ` the mean of `y`. -/
theorem var_eq (nB nP : ℝ) (hBc : (Fintype.card ι : ℝ) = nB) (hPc : (Fintype.card P : ℝ) = nP) (hB : nB ≠ 0) (hP : nP ≠ 0)
    (X : ι → P → ℝ) (E : ι → ℝ) (μ : ℝ) (hμ : μ = (∑ b, ∑ p, X b p * E b) / (nB * nP)) :
    (∑ b, (E b * E b) * ((∑ p, X b p * X b p) / nP)) / nB - μ * μ
      = (∑ b, ∑ p, (X b p * E b - μ) * (X b p * E b - μ)) / (nB * nP) := by
  -- the total of `y` is `μ * (nB * nP)`
  have hS1 : (∑ b, ∑ p, X b p * E b) = μ * (nB * nP) := by
    rw [hμ]
    field_simp
  -- left side, per batch: `E b * E b` moves inside the sum of squares
  have hL : ∀ b, (E b * E b) * ((∑ p, X b p * X b p) / nP)
      = (∑ p, (X b p * E b) * (X b p * E b)) / nP := by
    intro b
    have hp : ∀ p, (X b p * E b) * (X b p * E b) = (X b p * X b p) * (E b * E b) :=
      fun p => by ring
    rw [Finset.sum_congr rfl (fun p _ => hp p), ← Finset.sum_mul]
    ring
  -- right side, per batch: expand the square and sum the three terms separately
  have hR : ∀ b, (∑ p, (X b p * E b - μ) * (X b p * E b - μ))
      = (∑ p, (X b p * E b) * (X b p * E b)) - 2 * μ * (∑ p, X b p * E b) + nP * (μ * μ) := by
    intro b
    have hp : ∀ p, (X b p * E b - μ) * (X b p * E b - μ)
        = (X b p * E b) * (X b p * E b) - 2 * μ * (X b p * E b) + μ * μ := fun p => by ring
    rw [Finset.sum_congr rfl (fun p _ => hp p), Finset.sum_add_distrib, Finset.sum_sub_distrib,
      ← Finset.mul_sum, Finset.sum_const, Finset.card_univ, nsmul_eq_mul, hPc]
  rw [Finset.sum_congr rfl (fun b _ => hL b), Finset.sum_congr rfl (fun b _ => hR b),
    Finset.sum_add_distrib, Finset.sum_sub_distrib, ← Finset.mul_sum, Finset.sum_const,
    Finset.card_univ, nsmul_eq_mul, hBc, ← Finset.sum_div, hS1]
  field_simp
  ring

/-- A sum of squares divided by a positive number is non-negative. -/
theorem var_nonneg (nB nP : ℝ) (hB : 0 < nB) (hP : 0 < nP) (X : ι → P → ℝ) (E : ι → ℝ) (μ : ℝ) :
    0 ≤ (∑ b, ∑ p, (X b p * E b - μ) * (X b p * E b - μ)) / (nB * nP) :=
  div_nonneg
    (Finset.sum_nonneg fun _ _ => Finset.sum_nonneg fun _ _ => mul_self_nonneg _)
    (mul_pos hB hP).le

/-- Normalising the spatial mean equals the spatial mean of the normalised values. -/
theorem out_eq (nP : ℝ) (hPc : (Fintype.card P : ℝ) = nP) (hP : nP ≠ 0) (Xb : P → ℝ) (e μ g β : ℝ) :
    g * (e * ((∑ p, Xb p) / nP) - μ) + β = (∑ p, ((Xb p * e - μ) * g + β)) / nP := by
  -- split each summand into a part linear in `Xb p` and a constant
  have hS : (∑ p, ((Xb p * e - μ) * g + β)) = (∑ p, Xb p) * (e * g) + nP * (β - μ * g) := by
    have hp : ∀ p, (Xb p * e - μ) * g + β = Xb p * (e * g) + (β - μ * g) := fun p => by ring
    rw [Finset.sum_congr rfl (fun p _ => hp p), Finset.sum_add_distrib, ← Finset.sum_mul,
      Finset.sum_const, Finset.card_univ, nsmul_eq_mul, hPc]
  rw [hS]
  field_simp
  ring

end Cert.BatchNormReal
-- ==== Proof.SpecBridge.lean ====
/-
  The kernel side's computation and the reference's agree, entry by entry, when every input is a real number.

  Both compute, per channel, the batch statistics of y = x·e over all (b, h, w), normalise, average over (h, w) and add
  the two halves of the channel axis. The reference takes the mean μ = Σ y / N and the variance Σ (y − μ)² / N in two
  passes over the full array (N = 32 · 3136 = 100352); the kernel side takes them in one pass from the spatial means
  s = Σ x / 3136 and q = Σ x² / 3136 alone: μ = Σ_b e·s / 32 and the variance max(Σ_b e²·q / 32 − μ², 0).

  Over the real numbers these agree: e does not depend on (h, w), so Σ_b e·s / 32 is the mean of y; the variance is
  the mean of y² minus μ², a mean of squares and so not negative, which makes the clamp at zero the identity; and an
  affine map commutes with the spatial mean, so normalising the mean e·s is the mean of the normalised values.

  Among the extended reals, sums, differences and products of real numbers, quotients by nonzero real numbers, the
  maximum, and the reciprocal square root of a positive real number are computed as among the reals. So this file
  (1) writes real-number copies `Re.*` of every quantity of the two computations, (2) proves the agreement for the
  copies from the general batch-norm identities, (3) shows that each quantity, at real inputs and with the constants at
  their values 0, 3136, 32, 100352 and a positive ε, is the inclusion of its copy, and (4) concludes.
-/
import proofs.«122134_j12670153523753_2_alg».proof.Proof.Spec
import proofs.«122134_j12670153523753_2_alg».proof.Proof.LibBatchNormReal
import proofs.«122134_j12670153523753_2_alg».proof.Proof.LibRealEntries
import Idealize.ShloMosaic.PureOps.Ideal

noncomputable section

open scoped BigOperators

namespace Cert.SpecBridge

open Idealize.ShloMosaic Idealize.ShloMosaic.ValueIdx Cert.Spec

/-! ## Tools: finite sums and quotients of real numbers among the extended reals -/

/-- A finite sum of real numbers, taken among the extended reals, is the real sum. -/
theorem sum1_coe {ι : Type} [Fintype ι] {f : ι → EReal} {g : ι → ℝ} (h : ∀ i, f i = (g i : EReal)) :
    ∑ i, f i = ((∑ i, g i : ℝ) : EReal) :=
  Cert.GcnReal.sum_real Finset.univ f g h

/-- The same for a double sum … -/
theorem sum2_coe {ι κ : Type} [Fintype ι] [Fintype κ] {f : ι → κ → EReal} {g : ι → κ → ℝ}
    (h : ∀ i j, f i j = (g i j : EReal)) : ∑ i, ∑ j, f i j = ((∑ i, ∑ j, g i j : ℝ) : EReal) :=
  sum1_coe fun i => sum1_coe (h i)

/-- … and a triple sum. -/
theorem sum3_coe {ι κ τ : Type} [Fintype ι] [Fintype κ] [Fintype τ] {f : ι → κ → τ → EReal} {g : ι → κ → τ → ℝ}
    (h : ∀ i j k, f i j k = (g i j k : EReal)) :
    ∑ i, ∑ j, ∑ k, f i j k = ((∑ i, ∑ j, ∑ k, g i j k : ℝ) : EReal) :=
  sum1_coe fun i => sum2_coe (h i)

/-- A real number divided by a nonzero real number, among the extended reals, is the real quotient. -/
theorem div_coe_real (n : ℝ) (hn : n ≠ 0) (a : ℝ) : Ideal.div (a : EReal) (n : EReal) = ((a / n : ℝ) : EReal) := by
  rw [Ideal.div_coe hn, ← EReal.coe_mul, mul_one_div]

/-! ## The two computations over the real numbers

Real-number copies of the quantities of the two computations, from real arrays `Er`, `Xr`, `Wr`, `Br` and a real `ε`,
with the constants at their values 3136, 32 and 100352 = 32 · 3136. -/

abbrev I4 := (⟨4, ![32, 512, 56, 56]⟩ : Shape).Idx
abbrev I2 := (⟨2, ![32, 512]⟩ : Shape).Idx
abbrev I1 := (⟨1, ![512]⟩ : Shape).Idx

namespace Re

variable (Er : I2 → ℝ) (Xr : I4 → ℝ) (Wr Br : I1 → ℝ) (ε : ℝ)

def y (b : Fin 32) (c : Fin 512) (h w : Fin 56) : ℝ := Xr (ix4 b c h w) * Er (ix2 b c)
def muR (c : Fin 512) : ℝ := (∑ b : Fin 32, ∑ h : Fin 56, ∑ w : Fin 56, y Er Xr b c h w) / 100352
def varR (c : Fin 512) : ℝ :=
  (∑ b : Fin 32, ∑ h : Fin 56, ∑ w : Fin 56, (y Er Xr b c h w - muR Er Xr c) * (y Er Xr b c h w - muR Er Xr c)) / 100352
def gR (c : Fin 512) : ℝ := Wr (ix1 c) * (Real.sqrt (varR Er Xr c + ε))⁻¹
def zR (b : Fin 32) (c : Fin 512) : ℝ :=
  (∑ h : Fin 56, ∑ w : Fin 56, ((y Er Xr b c h w - muR Er Xr c) * gR Er Xr Wr ε c + Br (ix1 c))) / 3136
def s (b : Fin 32) (c : Fin 512) : ℝ := (∑ h : Fin 56, ∑ w : Fin 56, Xr (ix4 b c h w)) / 3136
def q (b : Fin 32) (c : Fin 512) : ℝ := (∑ h : Fin 56, ∑ w : Fin 56, Xr (ix4 b c h w) * Xr (ix4 b c h w)) / 3136
def mK (b : Fin 32) (c : Fin 512) : ℝ := Er (ix2 b c) * s Xr b c
def muK (c : Fin 512) : ℝ := (∑ b : Fin 32, mK Er Xr b c) / 32
def m2K (c : Fin 512) : ℝ := (∑ b : Fin 32, (Er (ix2 b c) * Er (ix2 b c)) * q Xr b c) / 32
def varK (c : Fin 512) : ℝ := max (m2K Er Xr c - muK Er Xr c * muK Er Xr c) 0
def gK (c : Fin 512) : ℝ := Wr (ix1 c) * (Real.sqrt (varK Er Xr c + ε))⁻¹
def oK (b : Fin 32) (c : Fin 512) : ℝ := gK Er Xr Wr ε c * (mK Er Xr b c - muK Er Xr c) + Br (ix1 c)

/-! ### Over the reals the two computations agree -/

/-- The one-pass mean is the two-pass mean. -/
theorem muK_eq_muR (c : Fin 512) : muK Er Xr c = muR Er Xr c := by
  have key := Cert.BatchNormReal.mean_eq (ι := Fin 32) (P := Fin 56 × Fin 56) 32 3136 (by norm_num) (by norm_num)
    (fun b p => Xr (ix4 b c p.1 p.2)) (fun b => Er (ix2 b c))
  simp only [Fintype.sum_prod_type] at key
  unfold muK muR mK s y
  rw [key]
  norm_num

/-- The one-pass variance (before clamping) is the two-pass variance. -/
theorem m2K_sub_eq_varR (c : Fin 512) : m2K Er Xr c - muR Er Xr c * muR Er Xr c = varR Er Xr c := by
  have hμ : muR Er Xr c
      = (∑ b : Fin 32, ∑ p : Fin 56 × Fin 56, Xr (ix4 b c p.1 p.2) * Er (ix2 b c)) / ((32 : ℝ) * 3136) := by
    simp only [Fintype.sum_prod_type]
    unfold muR y
    norm_num
  have key := Cert.BatchNormReal.var_eq (ι := Fin 32) (P := Fin 56 × Fin 56) 32 3136 (by simp) (by simp)
    (by norm_num) (by norm_num) (fun b p => Xr (ix4 b c p.1 p.2)) (fun b => Er (ix2 b c)) (muR Er Xr c) hμ
  simp only [Fintype.sum_prod_type] at key
  unfold m2K varR q y
  rw [key]
  norm_num

/-- The two-pass variance is a mean of squares, so it is not negative. -/
theorem varR_nonneg (c : Fin 512) : 0 ≤ varR Er Xr c := by
  unfold varR
  exact div_nonneg (Finset.sum_nonneg fun _ _ => Finset.sum_nonneg fun _ _ => Finset.sum_nonneg fun _ _ =>
    mul_self_nonneg _) (by norm_num)

/-- So clamping the one-pass variance at zero changes nothing, and the two variances agree. -/
theorem varK_eq_varR (c : Fin 512) : varK Er Xr c = varR Er Xr c := by
  unfold varK
  rw [muK_eq_muR, m2K_sub_eq_varR, max_eq_left (varR_nonneg Er Xr c)]

/-- The two scales agree. -/
theorem gK_eq_gR (c : Fin 512) : gK Er Xr Wr ε c = gR Er Xr Wr ε c := by
  unfold gK gR
  rw [varK_eq_varR]

/-- Normalising the spatial mean is the spatial mean of the normalised values. -/
theorem oK_eq_zR (b : Fin 32) (c : Fin 512) : oK Er Xr Wr Br ε b c = zR Er Xr Wr Br ε b c := by
  have key := Cert.BatchNormReal.out_eq (P := Fin 56 × Fin 56) 3136 (by simp) (by norm_num)
    (fun p => Xr (ix4 b c p.1 p.2)) (Er (ix2 b c)) (muR Er Xr c) (gR Er Xr Wr ε c) (Br (ix1 c))
  simp only [Fintype.sum_prod_type] at key
  unfold oK zR mK s y
  rw [gK_eq_gR, muK_eq_muR]
  exact key

end Re

/-! ## Every quantity of the two computations is the real one

From here `e`, `x`, `wt`, `bs` have real entries `Er`, `Xr`, `Wr`, `Br`, the constants are the real numbers 0, 3136, 32,
100352 and a positive `ε`; each quantity of the two computations is then the inclusion of its real copy, because sums,
differences and products of real numbers, quotients by nonzero real numbers, the maximum, and the reciprocal square root
of a positive real number are computed among the extended reals as among the reals. -/

section Coe

variable {e : A2} {x : A4} {wt bs : A1} {Er : I2 → ℝ} {Xr : I4 → ℝ} {Wr Br : I1 → ℝ} {ε : ℝ}

/-! ### The reference -/

theorem yR_coe (hE : ∀ i, e i = (Er i : EReal)) (hX : ∀ i, x i = (Xr i : EReal)) (b : Fin 32) (c : Fin 512)
    (h w : Fin 56) : yR e x b c h w = ((Re.y Er Xr b c h w : ℝ) : EReal) := by
  unfold yR Re.y
  rw [hX, hE, ← EReal.coe_mul]

theorem muR_coe (h0 : c0 = 0) (hN : cN = ((100352 : ℝ) : EReal)) (hE : ∀ i, e i = (Er i : EReal))
    (hX : ∀ i, x i = (Xr i : EReal)) (c : Fin 512) : muR e x c = ((Re.muR Er Xr c : ℝ) : EReal) := by
  unfold muR Re.muR
  rw [h0, zero_add, hN, sum3_coe (fun b h w => yR_coe hE hX b c h w), div_coe_real 100352 (by norm_num)]

theorem varR_coe (h0 : c0 = 0) (hN : cN = ((100352 : ℝ) : EReal)) (hE : ∀ i, e i = (Er i : EReal))
    (hX : ∀ i, x i = (Xr i : EReal)) (c : Fin 512) : varR e x cN c = ((Re.varR Er Xr c : ℝ) : EReal) := by
  have hterm : ∀ (b : Fin 32) (h w : Fin 56),
      (yR e x b c h w - muR e x c) * (yR e x b c h w - muR e x c)
        = (((Re.y Er Xr b c h w - Re.muR Er Xr c) * (Re.y Er Xr b c h w - Re.muR Er Xr c) : ℝ) : EReal) := by
    intro b h w
    rw [yR_coe hE hX, muR_coe h0 hN hE hX, ← EReal.coe_sub, ← EReal.coe_mul]
  unfold varR Re.varR
  rw [h0, zero_add, hN, sum3_coe hterm, div_coe_real 100352 (by norm_num)]

theorem gR_coe (h0 : c0 = 0) (hN : cN = ((100352 : ℝ) : EReal)) (hEps : cEps = (ε : EReal)) (hε : 0 < ε)
    (hE : ∀ i, e i = (Er i : EReal)) (hX : ∀ i, x i = (Xr i : EReal)) (hW : ∀ i, wt i = (Wr i : EReal))
    (c : Fin 512) : gR e x cN wt c = ((Re.gR Er Xr Wr ε c : ℝ) : EReal) := by
  unfold gR Re.gR
  rw [hW, varR_coe h0 hN hE hX, hEps, ← EReal.coe_add,
    Cert.GcnReal.rsqrt_pos_coe (add_pos_of_nonneg_of_pos (Re.varR_nonneg Er Xr c) hε), ← EReal.coe_mul]

theorem zR_coe (h0 : c0 = 0) (h3136 : c3136 = ((3136 : ℝ) : EReal)) (hN : cN = ((100352 : ℝ) : EReal))
    (hEps : cEps = (ε : EReal)) (hε : 0 < ε) (hE : ∀ i, e i = (Er i : EReal)) (hX : ∀ i, x i = (Xr i : EReal))
    (hW : ∀ i, wt i = (Wr i : EReal)) (hB : ∀ i, bs i = (Br i : EReal)) (b : Fin 32) (c : Fin 512) :
    zR e x cN wt bs b c = ((Re.zR Er Xr Wr Br ε b c : ℝ) : EReal) := by
  have hterm : ∀ (h w : Fin 56),
      (yR e x b c h w - muR e x c) * gR e x cN wt c + bs (ix1 c)
        = (((Re.y Er Xr b c h w - Re.muR Er Xr c) * Re.gR Er Xr Wr ε c + Br (ix1 c) : ℝ) : EReal) := by
    intro h w
    rw [yR_coe hE hX, muR_coe h0 hN hE hX, gR_coe h0 hN hEps hε hE hX hW, hB, ← EReal.coe_sub, ← EReal.coe_mul,
      ← EReal.coe_add]
  unfold zR Re.zR
  rw [h0, zero_add, h3136, sum2_coe hterm, div_coe_real 3136 (by norm_num)]

/-! ### The kernel side -/

theorem sS_coe (h3136 : c3136 = ((3136 : ℝ) : EReal)) (hX : ∀ i, x i = (Xr i : EReal)) (b : Fin 32) (c : Fin 512) :
    sS x (ix2 b c) = ((Re.s Xr b c : ℝ) : EReal) := by
  show Ideal.div (∑ h : Fin 56, ∑ w : Fin 56, x (ix4 b c h w)) c3136 = _
  unfold Re.s
  rw [h3136, sum2_coe (fun h w => hX (ix4 b c h w)), div_coe_real 3136 (by norm_num)]

theorem qS_coe (h3136 : c3136 = ((3136 : ℝ) : EReal)) (hX : ∀ i, x i = (Xr i : EReal)) (b : Fin 32) (c : Fin 512) :
    qS x (ix2 b c) = ((Re.q Xr b c : ℝ) : EReal) := by
  have hterm : ∀ (h w : Fin 56),
      x (ix4 b c h w) * x (ix4 b c h w) = ((Xr (ix4 b c h w) * Xr (ix4 b c h w) : ℝ) : EReal) := by
    intro h w
    rw [hX, ← EReal.coe_mul]
  show Ideal.div (∑ h : Fin 56, ∑ w : Fin 56, x (ix4 b c h w) * x (ix4 b c h w)) c3136 = _
  unfold Re.q
  rw [h3136, sum2_coe hterm, div_coe_real 3136 (by norm_num)]

theorem mK_coe (h3136 : c3136 = ((3136 : ℝ) : EReal)) (hE : ∀ i, e i = (Er i : EReal))
    (hX : ∀ i, x i = (Xr i : EReal)) (b : Fin 32) (c : Fin 512) :
    mK e (sS x) b c = ((Re.mK Er Xr b c : ℝ) : EReal) := by
  unfold mK Re.mK
  rw [hE, sS_coe h3136 hX, ← EReal.coe_mul]

theorem muK_coe (h0 : c0 = 0) (h3136 : c3136 = ((3136 : ℝ) : EReal)) (h32 : c32 = ((32 : ℝ) : EReal))
    (hE : ∀ i, e i = (Er i : EReal)) (hX : ∀ i, x i = (Xr i : EReal)) (c : Fin 512) :
    muK e (sS x) c = ((Re.muK Er Xr c : ℝ) : EReal) := by
  unfold muK Re.muK
  rw [h0, zero_add, h32, sum1_coe (fun b => mK_coe h3136 hE hX b c), div_coe_real 32 (by norm_num)]

theorem m2K_coe (h0 : c0 = 0) (h3136 : c3136 = ((3136 : ℝ) : EReal)) (h32 : c32 = ((32 : ℝ) : EReal))
    (hE : ∀ i, e i = (Er i : EReal)) (hX : ∀ i, x i = (Xr i : EReal)) (c : Fin 512) :
    m2K e (qS x) c = ((Re.m2K Er Xr c : ℝ) : EReal) := by
  have hterm : ∀ b : Fin 32, (e (ix2 b c) * e (ix2 b c)) * qS x (ix2 b c)
      = (((Er (ix2 b c) * Er (ix2 b c)) * Re.q Xr b c : ℝ) : EReal) := by
    intro b
    rw [hE, qS_coe h3136 hX, ← EReal.coe_mul, ← EReal.coe_mul]
  unfold m2K Re.m2K
  rw [h0, zero_add, h32, sum1_coe hterm, div_coe_real 32 (by norm_num)]

theorem varK_coe (h0 : c0 = 0) (h3136 : c3136 = ((3136 : ℝ) : EReal)) (h32 : c32 = ((32 : ℝ) : EReal))
    (hE : ∀ i, e i = (Er i : EReal)) (hX : ∀ i, x i = (Xr i : EReal)) (c : Fin 512) :
    varK e (sS x) (qS x) c = ((Re.varK Er Xr c : ℝ) : EReal) := by
  unfold varK Re.varK
  rw [m2K_coe h0 h3136 h32 hE hX, muK_coe h0 h3136 h32 hE hX, h0, ← EReal.coe_mul, ← EReal.coe_sub, ← EReal.coe_zero,
    Cert.GcnReal.max_coe]

theorem gK_coe (h0 : c0 = 0) (h3136 : c3136 = ((3136 : ℝ) : EReal)) (h32 : c32 = ((32 : ℝ) : EReal))
    (hEps : cEps = (ε : EReal)) (hε : 0 < ε) (hE : ∀ i, e i = (Er i : EReal)) (hX : ∀ i, x i = (Xr i : EReal))
    (hW : ∀ i, wt i = (Wr i : EReal)) (c : Fin 512) :
    gK e (sS x) (qS x) wt c = ((Re.gK Er Xr Wr ε c : ℝ) : EReal) := by
  have hpos : 0 < Re.varK Er Xr c + ε := add_pos_of_nonneg_of_pos (le_max_right _ _) hε
  unfold gK Re.gK
  rw [hW, varK_coe h0 h3136 h32 hE hX, hEps, ← EReal.coe_add, Cert.GcnReal.rsqrt_pos_coe hpos, ← EReal.coe_mul]

theorem oK_coe (h0 : c0 = 0) (h3136 : c3136 = ((3136 : ℝ) : EReal)) (h32 : c32 = ((32 : ℝ) : EReal))
    (hEps : cEps = (ε : EReal)) (hε : 0 < ε) (hE : ∀ i, e i = (Er i : EReal)) (hX : ∀ i, x i = (Xr i : EReal))
    (hW : ∀ i, wt i = (Wr i : EReal)) (hB : ∀ i, bs i = (Br i : EReal)) (b : Fin 32) (c : Fin 512) :
    oK e (sS x) (qS x) wt bs b c = ((Re.oK Er Xr Wr Br ε b c : ℝ) : EReal) := by
  unfold oK Re.oK
  rw [gK_coe h0 h3136 h32 hEps hε hE hX hW, mK_coe h3136 hE hX, muK_coe h0 h3136 h32 hE hX, hB, ← EReal.coe_sub,
    ← EReal.coe_mul, ← EReal.coe_add]

end Coe

/-! ## The two computations agree -/

/-- At every batch index and channel, the kernel side's normalised spatial mean is the reference's. -/
theorem oK_eq_zR {e : A2} {x : A4} {wt bs : A1} {Er : I2 → ℝ} {Xr : I4 → ℝ} {Wr Br : I1 → ℝ} {ε : ℝ}
    (h0 : c0 = 0) (h3136 : c3136 = ((3136 : ℝ) : EReal)) (h32 : c32 = ((32 : ℝ) : EReal))
    (hN : cN = ((100352 : ℝ) : EReal)) (hEps : cEps = (ε : EReal)) (hε : 0 < ε)
    (hE : ∀ i, e i = (Er i : EReal)) (hX : ∀ i, x i = (Xr i : EReal))
    (hW : ∀ i, wt i = (Wr i : EReal)) (hB : ∀ i, bs i = (Br i : EReal)) (b : Fin 32) (c : Fin 512) :
    oK e (sS x) (qS x) wt bs b c = zR e x cN wt bs b c := by
  rw [oK_coe h0 h3136 h32 hEps hε hE hX hW hB, zR_coe h0 h3136 hN hEps hε hE hX hW hB, Re.oK_eq_zR]

/-- THE BRIDGE: with real inputs and the constants at their values, the kernel side's result is the reference's. -/
theorem outK_eq_outR (h0 : Cert.Spec.c0 = 0) (h3136 : Cert.Spec.c3136 = ((3136 : ℝ) : EReal))
    (h32 : Cert.Spec.c32 = ((32 : ℝ) : EReal)) (hN : Cert.Spec.cN = ((100352 : ℝ) : EReal))
    (hEps : ∃ r : ℝ, 0 < r ∧ Cert.Spec.cEps = (r : EReal))
    (e : Cert.Spec.A2) (x : Cert.Spec.A4) (wt bs : Cert.Spec.A1)
    (he : ∀ i, ∃ r : ℝ, e i = (r : EReal)) (hx : ∀ i, ∃ r : ℝ, x i = (r : EReal))
    (hwt : ∀ i, ∃ r : ℝ, wt i = (r : EReal)) (hbs : ∀ i, ∃ r : ℝ, bs i = (r : EReal))
    (b : Fin 32) (j : Fin 256) :
    Cert.Spec.outK e (Cert.Spec.sS x) (Cert.Spec.qS x) wt bs b j = Cert.Spec.outR e x Cert.Spec.cN wt bs b j := by
  obtain ⟨ε, hε, hEps'⟩ := hEps
  choose Er hE using he
  choose Xr hX using hx
  choose Wr hW using hwt
  choose Br hB using hbs
  have hc : ∀ c : Fin 512, oK e (sS x) (qS x) wt bs b c = zR e x cN wt bs b c :=
    fun c => oK_eq_zR h0 h3136 h32 hN hEps' hε hE hX hW hB b c
  unfold outK outR
  rw [Fin.sum_univ_two, h0, zero_add, hc, hc]

end Cert.SpecBridge

end
-- ==== Proof.Bridge.lean ====
/-
  The bridge: for real inputs the kernel program's result is the reference's.

  Both programs first take the spatial means s of x (the kernel side through the reduction's sums regrouped, the reference
  by a sum over the two spatial axes from zero: the same number, 0 + t = t), then the SAME gate of s and the excitation
  weights, one chain of operations applied to equal inputs. After the gate the kernel side is the specification's outK and
  the reference its outR, entry by entry; for real x, weights, batch-norm weight and bias the gate is real, and the two
  specifications agree (the one-pass variance is the two-pass one and is nonnegative, so the clamp is the identity; the
  scale and the bias commute with the spatial mean).
-/
import proofs.«122134_j12670153523753_2_alg».proof.Proof.KernelRun
import proofs.«122134_j12670153523753_2_alg».proof.Proof.KernelRead
import proofs.«122134_j12670153523753_2_alg».proof.Proof.GateReal
import proofs.«122134_j12670153523753_2_alg».proof.Proof.RefRead
import proofs.«122134_j12670153523753_2_alg».proof.Proof.SpecBridge
import proofs.«122134_j12670153523753_2_alg».proof.Proof.Consts

noncomputable section

namespace Cert.Bridge

open Idealize.ShloMosaic Idealize.ShloMosaic.ValueIdx
open Cert.KernelIdeal.Tail Cert.GcnReal

/-- The gate is one chain of operations in both programs. -/
theorem gate_eq (s : FVec Ideal Cert.KernelIdeal.S32x512 .f32) (w1 : FVec Ideal Cert.KernelIdeal.S32x512 .f32)
    (w2 : FVec Ideal Cert.KernelIdeal.S512x32 .f32) :
    gateK s w1 w2 = Cert.ReferenceIdeal.Hand.gate (F := Ideal) s w1 w2 := rfl

/-- The reference's spatial means are the specification's: a sum from zero is the sum. -/
theorem sR_eq (x : FVec Ideal Cert.ReferenceIdeal.S32x512x56x56 .f32) :
    Cert.ReferenceIdeal.Hand.sR (F := Ideal) x = Cert.Spec.sS x := by
  funext i
  obtain ⟨b, c, rfl⟩ : ∃ (b : Fin 32) (c : Fin 512), i = ix2 b c := ⟨i 0, i 1, eq_ix2 i⟩
  rw [Cert.ReferenceIdeal.Read.sR_apply, Cert.Consts.c0_eq, zero_add]
  rfl

/-- The spatial means of real entries are real. -/
theorem allReal_sS (x : Cert.Spec.A4) (hx : ∀ i, ∃ r : ℝ, x i = (r : EReal)) :
    ∀ i, ∃ r : ℝ, Cert.Spec.sS x i = (r : EReal) := by
  intro i
  choose X hX using hx
  refine ⟨(∑ h : Fin 56, ∑ w : Fin 56, X (ix4 (i 0) (i 1) h w)) * (1 / 3136), ?_⟩
  unfold Cert.Spec.sS
  rw [Cert.Consts.c3136_eq, Ideal.div_coe (by norm_num), EReal.coe_mul]
  congr 1
  rw [coe_finset_sum]
  refine Finset.sum_congr rfl fun h _ => ?_
  rw [coe_finset_sum]
  exact Finset.sum_congr rfl fun w _ => hX _

/-- For real inputs, what the kernel program returns is what the reference returns. -/
theorem result_eq (x : FVec Ideal Cert.ReferenceIdeal.S32x512x56x56 .f32) (w1 : FVec Ideal Cert.ReferenceIdeal.S32x512 .f32)
    (w2 : FVec Ideal Cert.ReferenceIdeal.S512x32 .f32) (wt bs : FVec Ideal Cert.ReferenceIdeal.S512 .f32)
    (hx : ∀ i, ∃ r : ℝ, x i = (r : EReal)) (h1 : ∀ i, ∃ r : ℝ, w1 i = (r : EReal)) (h2 : ∀ i, ∃ r : ℝ, w2 i = (r : EReal))
    (hwt : ∀ i, ∃ r : ℝ, wt i = (r : EReal)) (hbs : ∀ i, ∃ r : ℝ, bs i = (r : EReal)) :
    postK (gateK (Cert.Spec.sS x) w1 w2) (Cert.Spec.sS x) (Cert.Spec.qS x) wt bs
      = Cert.ReferenceIdeal.Hand.refOut (F := Ideal) x w1 w2 wt bs := by
  funext i
  obtain ⟨b, j, rfl⟩ : ∃ (b : Fin 32) (j : Fin 256), i = ix2 b j := ⟨i 0, i 1, eq_ix2 i⟩
  unfold Cert.ReferenceIdeal.Hand.refOut
  rw [sR_eq, ← gate_eq, Cert.KernelIdeal.Read.postK_apply, Cert.ReferenceIdeal.Read.postR_apply]
  exact Cert.SpecBridge.outK_eq_outR Cert.Consts.c0_eq Cert.Consts.c3136_eq Cert.Consts.c32_eq Cert.Consts.cN_eq
    Cert.Consts.cEps_pos _ x wt bs (allReal_gateK (allReal_sS x hx) h1 h2) hx hwt hbs b j

end Cert.Bridge

end
-- ==== Proof.FiniteInputs.lean ====
/-
  From the precondition to real entries.

  The precondition is five conjuncts, one per argument: every entry x satisfies |x| < +∞ (the word 0x7F800000). Over the
  extended reals |x| = max x (−x), and max x (−x) < ⊤ leaves only the real numbers: at ⊤ the left side is ⊤, at ⊥ it is
  −⊥ = ⊤. So under the precondition every entry of every argument is a real number.
-/
import proofs.«122134_j12670153523753_2_alg».proof.Pre_finite_inputs
import proofs.«122134_j12670153523753_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test read back. -/
theorem real_of_test {S : Shape} (x : FVec Ideal S .f32) (hb : S_.BroadcastsInDim S (![] : Fin 0 → Fin S.rank)) (i : S.Idx)
    (h : cmpf (F := Ideal) .olt (Host.absf x) (broadcastInDim S ![] hb (constant (F := Ideal) S_ .f32 0x7F800000#32)) i = 1#1) :
    ∃ r : ℝ, x i = (r : EReal) := by
  refine real_of_abs_lt_top (x i) ?_
  have h' : Ideal.cmp .olt (max (x i) (-(x i))) (Ideal.ofBits .f32 0x7F800000#32) = 1#1 := h
  rw [ofBits_inf] at h'
  have h2 : decide (max (x i) (-(x i)) < (⊤ : EReal)) = true := by
    cases hd : decide (max (x i) (-(x i)) < (⊤ : EReal)) with
    | true => rfl
    | false =>
      rw [show Ideal.cmp .olt (max (x i) (-(x i))) ⊤ = BitVec.ofBool (decide (max (x i) (-(x i)) < ⊤)) from rfl, hd] at h'
      exact absurd h' (by decide)
  exact of_decide_eq_true h2

/-- Under the precondition every entry of each of the five arguments is a real number. -/
theorem real_of_pre (a0 : FVec Ideal S32x512x56x56 .f32) (a1 : FVec Ideal S32x512 .f32) (a2 : FVec Ideal S512x32 .f32)
    (a3 a4 : FVec Ideal S512 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨fun i => real_of_test a0 _ i (Host.reduce_andi_all _ _ _ _ ValueIdx.ix0 h0' i),
    fun i => real_of_test a1 _ i (Host.reduce_andi_all _ _ _ _ ValueIdx.ix0 h1 i),
    fun i => real_of_test a2 _ i (Host.reduce_andi_all _ _ _ _ ValueIdx.ix0 h2 i),
    fun i => real_of_test a3 _ i (Host.reduce_andi_all _ _ _ _ ValueIdx.ix0 h3 i),
    fun i => real_of_test a4 _ i (Host.reduce_andi_all _ _ _ _ ValueIdx.ix0 h4 i)⟩

end Cert.Finite

end
-- ==== Proof.lean ====
/-
  The certificate: the reduction kernel's program and its reference compute the same [32, 256] array.

  The three frames: the two kernel programs' are the frame runs of their regions with the operations around them; the
  reference has no region, and its frame is its run with the result forgotten. The idealization rewrote nothing. The
  value claim: under the precondition every argument entry is a real number; the idealized kernel program returns
  postK (gate (sS x)) … of its arguments, the reference refOut of the same arguments, and for real entries the two agree.
-/
import proofs.«122134_j12670153523753_2_alg».proof.Defs
import proofs.«122134_j12670153523753_2_alg».proof.Proof.Gen.Kernel
import proofs.«122134_j12670153523753_2_alg».proof.Proof.Gen.Kernel.Frame
import proofs.«122134_j12670153523753_2_alg».proof.Proof.Gen.KernelIdeal
import proofs.«122134_j12670153523753_2_alg».proof.Proof.Gen.KernelIdeal.Frame
import proofs.«122134_j12670153523753_2_alg».proof.Proof.Gen.ReferenceIdeal
import proofs.«122134_j12670153523753_2_alg».proof.Proof.Gen.Pre_finite_inputs
import proofs.«122134_j12670153523753_2_alg».proof.Proof.Bridge
import proofs.«122134_j12670153523753_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the same result array: the arguments are real under
    the precondition, and for real arguments the two results are one function. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  obtain ⟨h0, h1, h2, h3, h4⟩ := Cert.Finite.real_of_pre _ _ _ _ _ (hpre c)
  exact (Cert.Bridge.result_eq _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
